-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x3 : Shape := ⟨3, ![64, 100000, 3]⟩
abbrev S40x64 : Shape := ⟨2, ![40, 64]⟩
abbrev S40 : Shape := ⟨1, ![40]⟩
abbrev S_ : Shape := ⟨0, ![]⟩

class Facts : Prop where
  bcast_S_S64x100000x3 : S_.BroadcastsInDim S64x100000x3 (![] : Fin 0 → Fin S64x100000x3.rank)
  reducesTo_S64x100000x3_S_d0_1_2 : S64x100000x3.ReducesTo [0, 1, 2] S_
  h_S_ : 0 < S_.numel
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S64x100000x3 .f32) (main_arg1 : FVec F S40x64 .f32) (main_arg2 : FVec F S40 .f32) : IVec S_ 1 :=
  let main_v0 : FVec F S64x100000x3 .f32 := Host.absf main_arg0
  let main_cst : FVec F S_ .f32 := constant S_ .f32 0x7F800000#32
  let main_v1 : FVec F S64x100000x3 .f32 := broadcastInDim S64x100000x3 ![] bcast_S_S64x100000x3 main_cst
  let main_v2 : IVec S64x100000x3 1 := cmpf .olt main_v0 main_v1
  let main_c : IVec S_ 1 := constantI S_ 1 1#1
  let main_v3 : IVec S_ 1 := (fun x v => Host.reduce IntOp.andi x v reducesTo_S64x100000x3_S_d0_1_2 h_S_) main_v2 main_c
  let main_v4 : FVec F S40x64 .f32 := Host.absf main_arg1
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S64x100000x3 : Shape := ⟨3, ![64, 100000, 3]⟩
abbrev S40x64 : Shape := ⟨2, ![40, 64]⟩
abbrev S40 : Shape := ⟨1, ![40]⟩
abbrev S64x1x3 : Shape := ⟨3, ![64, 1, 3]⟩
abbrev S1x10000x3 : Shape := ⟨3, ![1, 10000, 3]⟩
abbrev S1x1x3 : Shape := ⟨3, ![1, 1, 3]⟩
abbrev S10000x3 : Shape := ⟨2, ![10000, 3]⟩
abbrev S3 : Shape := ⟨1, ![3]⟩
abbrev S1x3 : Shape := ⟨2, ![1, 3]⟩
abbrev S64x1x40 : Shape := ⟨3, ![64, 1, 40]⟩
abbrev S1x5000x3 : Shape := ⟨3, ![1, 5000, 3]⟩
abbrev S1x1x40 : Shape := ⟨3, ![1, 1, 40]⟩
abbrev S1x64 : Shape := ⟨2, ![1, 64]⟩
abbrev S5000x3 : Shape := ⟨2, ![5000, 3]⟩
abbrev S5000x1 : Shape := ⟨2, ![5000, 1]⟩
abbrev S5000x64 : Shape := ⟨2, ![5000, 64]⟩
abbrev S64 : Shape := ⟨1, ![64]⟩
abbrev S64x40 : Shape := ⟨2, ![64, 40]⟩
abbrev S1x40 : Shape := ⟨2, ![1, 40]⟩

abbrev nBuf : Space → Nat
  | .hbm => 7
  | .vmem => 17
  | .smem => 0
  | _ => 0

abbrev bufTy : (tb : Table) → Fin (tcTables nBuf tb) → BufTy
  | .hbm, ⟨0, _⟩ => ⟨S64x100000x3, .f32⟩
  | .hbm, ⟨1, _⟩ => ⟨S40x64, .f32⟩
  | .hbm, ⟨2, _⟩ => ⟨S40, .f32⟩
  | .hbm, ⟨3, _⟩ => ⟨S64x1x3, .f32⟩
  | .hbm, ⟨4, _⟩ => ⟨S64x1x3, .f32⟩
  | .hbm, ⟨5, _⟩ => ⟨S64x1x40, .f32⟩
  | .hbm, ⟨6, _⟩ => ⟨S64x40, .f32⟩
  | .local _ .vmem, ⟨0, _⟩ => ⟨S1x10000x3, .f32⟩
  | .local _ .vmem, ⟨1, _⟩ => ⟨S1x10000x3, .f32⟩
  | .local _ .vmem, ⟨2, _⟩ => ⟨S1x1x3, .f32⟩
  | .local _ .vmem, ⟨3, _⟩ => ⟨S1x1x3, .f32⟩
  | .local _ .vmem, ⟨4, _⟩ => ⟨S1x1x3, .f32⟩
  | .local _ .vmem, ⟨5, _⟩ => ⟨S1x1x3, .f32⟩
  | .local _ .vmem, ⟨6, _⟩ => ⟨S1x5000x3, .f32⟩
  | .local _ .vmem, ⟨7, _⟩ => ⟨S1x5000x3, .f32⟩
  | .local _ .vmem, ⟨8, _⟩ => ⟨S1x1x3, .f32⟩
  | .local _ .vmem, ⟨9, _⟩ => ⟨S1x1x3, .f32⟩
  | .local _ .vmem, ⟨10, _⟩ => ⟨S1x1x3, .f32⟩
  | .local _ .vmem, ⟨11, _⟩ => ⟨S1x1x3, .f32⟩
  | .local _ .vmem, ⟨12, _⟩ => ⟨S40x64, .f32⟩
  | .local _ .vmem, ⟨13, _⟩ => ⟨S40, .f32⟩
  | .local _ .vmem, ⟨14, _⟩ => ⟨S1x1x40, .f32⟩
  | .local _ .vmem, ⟨15, _⟩ => ⟨S1x1x40, .f32⟩
  | .local _ .vmem, ⟨16, _⟩ => ⟨S1x64, .f32⟩
  | _, _ => ⟨S64x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![64, 10], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![64, 20], ![false, false]⟩

def k1_cond2 (i : grid1.Coords) : BitVec 1 :=
  let arg1 : BitVec 32 := BitVec.ofNat 32 (i 1).val
  let c19_i32 : BitVec 32 := 19#32
  let v44 : BitVec 1 := Scalar.cmpi .eq arg1 c19_i32
  let v45 : BitVec 32 := Scalar.extui v44
  let c0_i32_15 : BitVec 32 := 0#32
  let v46 : BitVec 1 := Scalar.cmpi .ne v45 c0_i32_15
  v46

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S40x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x10000x3_S1x10000x3_0_0_0 : ∀ a, (![0, 0, 0] : Fin 3 → Nat) a + S1x10000x3.size a ≤ S1x10000x3.size a
  h_S1x10000x3 : 0 < S1x10000x3.numel
  shapeCasts_S1x10000x3_S10000x3 : S1x10000x3.ShapeCasts S10000x3
  reduces_S10000x3_S3 : S10000x3.Reduces [0] S3
  shapeCasts_S3_S1x3 : S3.ShapeCasts S1x3
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  shapeCasts_S1x3_S1x1x3 : S1x3.ShapeCasts S1x1x3
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x5000x3_S1x5000x3_0_0_0 : ∀ a, (![0, 0, 0] : Fin 3 → Nat) a + S1x5000x3.size a ≤ S1x5000x3.size a
  h_S1x5000x3 : 0 < S1x5000x3.numel
  shapeCasts_S1x5000x3_S5000x3 : S1x5000x3.ShapeCasts S5000x3
  broadcasts_S1x3_S5000x3 : S1x3.Broadcasts S5000x3
  slices_S5000x3_o0_0_S5000x1 : S5000x3.Slices ![0, 0] S5000x1
  slices_S5000x3_o0_1_S5000x1 : S5000x3.Slices ![0, 1] S5000x1
  slices_S5000x3_o0_2_S5000x1 : S5000x3.Slices ![0, 2] S5000x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  reduces_S5000x64_S64 : S5000x64.Reduces [0] S64
  shapeCasts_S64_S1x64 : S64.ShapeCasts S1x64
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  transposes_S40x64_p1_0_S64x40 : S40x64.Transposes [1, 0] S64x40
  inb_S40_S40_0 : ∀ a, (![0] : Fin 1 → Nat) a + S40.size a ≤ S40.size a
  h_S40 : 0 < S40.numel
  shapeCasts_S40_S1x40 : S40.ShapeCasts S1x40
  inb_S1x1x40_S1x1x40_0_0_0 : ∀ a, (![0, 0, 0] : Fin 3 → Nat) a + S1x1x40.size a ≤ S1x1x40.size a
  h_S1x1x40 : 0 < S1x1x40.numel
  shapeCasts_S1x1x40_S1x40 : S1x1x40.ShapeCasts S1x40
  shapeCasts_S1x40_S1x1x40 : S1x40.ShapeCasts S1x1x40
  shapeCasts_S64x1x40_S64x40 : S64x1x40.ShapeCasts S64x40
  dot_S1x64_S64x40_S1x40_1_0_0_1_n_n_wf : DotDims.WF S1x64 S64x40 S1x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x3.size a ≤ S64x100000x3.size a
  hwx0_0 : ∀ i : grid0.Coords, EltTy.bits .f32 = 32 ∨ (Rect.block (s := S64x100000x3) S1x10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3.size a ≤ S64x1x3.size a
  hwx0_1 : ∀ i : grid0.Coords, EltTy.bits .f32 = 32 ∨ (Rect.block (s := S64x1x3) S1x1x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3.size a ≤ S64x1x3.size a
  hwx0_2 : ∀ i : grid0.Coords, EltTy.bits .f32 = 32 ∨ (Rect.block (s := S64x1x3) S1x1x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5000x3.size a ≤ S64x100000x3.size a
  hwx1_0 : ∀ i : grid1.Coords, EltTy.bits .f32 = 32 ∨ (Rect.block (s := S64x100000x3) S1x5000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x3.size a ≤ S64x1x3.size a
  hwx1_1 : ∀ i : grid1.Coords, EltTy.bits .f32 = 32 ∨ (Rect.block (s := S64x1x3) S1x1x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x3.size a ≤ S64x1x3.size a
  hwx1_2 : ∀ i : grid1.Coords, EltTy.bits .f32 = 32 ∨ (Rect.block (s := S64x1x3) S1x1x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x64.size a ≤ S40x64.size a
  hwx1_3 : ∀ i : grid1.Coords, EltTy.bits .f32 = 32 ∨ (Rect.block (s := S40x64) S40x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x40.size a ≤ S64x1x40.size a
  hwx1_5 : ∀ i : grid1.Coords, EltTy.bits .f32 = 32 ∨ (Rect.block (s := S64x1x40) S1x1x40.size (cc1_transform_5 i) (hinb1_5 i)).WholeWords (EltTy.packing .f32)

variable [Facts₀]

def dot_S1x64_S64x40_S1x40_1_0_0_1_n_n : DotDims S1x64 S64x40 S1x40 where
  lhsContracting := [1]
  rhsContracting := [0]
  lhsNonContracting := [0]
  rhsNonContracting := [1]
  lhsBatch := []
  rhsBatch := []
  wf := dot_S1x64_S64x40_S1x40_1_0_0_1_n_n_wf

abbrev win0_0 : Pipeline.Window sig grid0 :=
  Pipeline.Window.ofSpec (Memref.whole main_arg0) S1x10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S1x5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x1x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x1x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S40x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x1x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S64x100000x3 : Shape := ⟨3, ![64, 100000, 3]⟩
abbrev S40x64 : Shape := ⟨2, ![40, 64]⟩
abbrev S40 : Shape := ⟨1, ![40]⟩
abbrev S_ : Shape := ⟨0, ![]⟩
abbrev S64x3 : Shape := ⟨2, ![64, 3]⟩
abbrev S64x1x3 : Shape := ⟨3, ![64, 1, 3]⟩
abbrev S64x100000x1 : Shape := ⟨3, ![64, 100000, 1]⟩
abbrev S64x100000 : Shape := ⟨2, ![64, 100000]⟩
abbrev S64 : Shape := ⟨1, ![64]⟩
abbrev S64x1 : Shape := ⟨2, ![64, 1]⟩
abbrev S6400000 : Shape := ⟨1, ![6400000]⟩
abbrev S4096 : Shape := ⟨1, ![4096]⟩
abbrev S6400000x1 : Shape := ⟨2, ![6400000, 1]⟩
abbrev S64x64 : Shape := ⟨2, ![64, 64]⟩
abbrev S64x40 : Shape := ⟨2, ![64, 40]⟩
abbrev S1x40 : Shape := ⟨2, ![1, 40]⟩

abbrev nBuf : Space → Nat
  | .hbm => 67
  | .vmem => 0
  | .smem => 0
  | _ => 0

abbrev bufTy : (tb : Table) → Fin (tcTables nBuf tb) → BufTy
  | .hbm, ⟨0, _⟩ => ⟨S64x100000x3, .f32⟩
  | .hbm, ⟨1, _⟩ => ⟨S40x64, .f32⟩
  | .hbm, ⟨2, _⟩ => ⟨S40, .f32⟩
  | .hbm, ⟨3, _⟩ => ⟨S_, .f32⟩
  | .hbm, ⟨4, _⟩ => ⟨S64x3, .f32⟩
  | .hbm, ⟨5, _⟩ => ⟨S64x1x3, .f32⟩
  | .hbm, ⟨6, _⟩ => ⟨S_, .f32⟩
  | .hbm, ⟨7, _⟩ => ⟨S64x3, .f32⟩
  | .hbm, ⟨8, _⟩ => ⟨S64x1x3, .f32⟩
  | .hbm, ⟨9, _⟩ => ⟨S64x100000x3, .f32⟩
  | .hbm, ⟨10, _⟩ => ⟨S64x100000x3, .f32⟩
  | .hbm, ⟨11, _⟩ => ⟨S64x1x3, .f32⟩
  | .hbm, ⟨12, _⟩ => ⟨S64x100000x3, .f32⟩
  | .hbm, ⟨13, _⟩ => ⟨S64x100000x3, .f32⟩
  | .hbm, ⟨14, _⟩ => ⟨S_, .f32⟩
  | .hbm, ⟨15, _⟩ => ⟨S64x100000x3, .f32⟩
  | .hbm, ⟨16, _⟩ => ⟨S64x100000x3, .f32⟩
  | .hbm, ⟨17, _⟩ => ⟨S64x100000x3, .f32⟩
  | .hbm, ⟨18, _⟩ => ⟨S64x100000x3, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S64x100000x3, .i32⟩
  | .hbm, ⟨23, _⟩ => ⟨S64x100000x3, .i32⟩
  | .hbm, ⟨24, _⟩ => ⟨S_, .i32⟩
  | .hbm, ⟨25, _⟩ => ⟨S64x100000x3, .i32⟩
  | .hbm, ⟨26, _⟩ => ⟨S64x100000x3, .i32⟩
  | .hbm, ⟨27, _⟩ => ⟨S64x100000x1, .i32⟩
  | .hbm, ⟨28, _⟩ => ⟨S64x100000, .i32⟩
  | .hbm, ⟨29, _⟩ => ⟨S_, .i32⟩
  | .hbm, ⟨30, _⟩ => ⟨S64x100000, .i32⟩
  | .hbm, ⟨31, _⟩ => ⟨S64x100000, .i32⟩
  | .hbm, ⟨32, _⟩ => ⟨S_, .i32⟩
  | .hbm, ⟨33, _⟩ => ⟨S64x100000, .i32⟩
  | .hbm, ⟨34, _⟩ => ⟨S64x100000, .i32⟩
  | .hbm, ⟨35, _⟩ => ⟨S64x100000x1, .i32⟩
  | .hbm, ⟨36, _⟩ => ⟨S64x100000, .i32⟩
  | .hbm, ⟨37, _⟩ => ⟨S_, .i32⟩
  | .hbm, ⟨38, _⟩ => ⟨S64x100000, .i32⟩
  | .hbm, ⟨39, _⟩ => ⟨S64x100000, .i32⟩
  | .hbm, ⟨40, _⟩ => ⟨S64x100000, .i32⟩
  | .hbm, ⟨41, _⟩ => ⟨S64x100000x1, .i32⟩
  | .hbm, ⟨42, _⟩ => ⟨S64x100000, .i32⟩
  | .hbm, ⟨43, _⟩ => ⟨S64x100000, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64x1, .i32⟩
  | .hbm, ⟨49, _⟩ => ⟨S64x100000, .i32⟩
  | .hbm, ⟨50, _⟩ => ⟨S64x100000, .i32⟩
  | .hbm, ⟨51, _⟩ => ⟨S_, .f32⟩
  | .hbm, ⟨52, _⟩ => ⟨S6400000, .f32⟩
  | .hbm, ⟨53, _⟩ => ⟨S6400000, .i32⟩
  | .hbm, ⟨54, _⟩ => ⟨S_, .f32⟩
  | .hbm, ⟨55, _⟩ => ⟨S4096, .f32⟩
  | .hbm, ⟨56, _⟩ => ⟨S6400000x1, .i32⟩
  | .hbm, ⟨57, _⟩ => ⟨S4096, .f32⟩
  | .hbm, ⟨58, _⟩ => ⟨S64x64, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S64x40, .f32⟩
  | .hbm, ⟨63, _⟩ => ⟨S64x40, .f32⟩
  | .hbm, ⟨64, _⟩ => ⟨S1x40, .f32⟩
  | .hbm, ⟨65, _⟩ => ⟨S64x40, .f32⟩
  | .hbm, ⟨66, _⟩ => ⟨S64x40, .f32⟩
  | _, _ => ⟨S64x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  reducesTo_S64x100000x3_S64x3_d1 : S64x100000x3.ReducesTo [1] S64x3
  h_S_ : 0 < S_.numel
  bcast_S64x3_S64x1x3_0_2 : S64x3.BroadcastsInDim S64x1x3 (![0, 2] : Fin 2 → Fin S64x1x3.rank)
  bcast_S64x1x3_S64x100000x3_0_1_2 : S64x1x3.BroadcastsInDim S64x100000x3 (![0, 1, 2] : Fin 3 → Fin S64x100000x3.rank)
  bcast_S_S64x100000x3 : S_.BroadcastsInDim S64x100000x3 (![] : Fin 0 → Fin S64x100000x3.rank)
  slices_S64x100000x3_S64x100000x1_0_0_0 : S64x100000x3.Slices ![0, 0, 0] S64x100000x1
  shapeCasts_S64x100000x1_S64x100000 : S64x100000x1.ShapeCasts S64x100000
  bcast_S_S64x100000 : S_.BroadcastsInDim S64x100000 (![] : Fin 0 → Fin S64x100000.rank)
  slices_S64x100000x3_S64x100000x1_0_0_1 : S64x100000x3.Slices ![0, 0, 1] S64x100000x1
  slices_S64x100000x3_S64x100000x1_0_0_2 : S64x100000x3.Slices ![0, 0, 2] S64x100000x1
  bcast_S_S64 : S_.BroadcastsInDim S64 (![] : Fin 0 → Fin S64.rank)
  bcast_S64_S64x1_0 : S64.BroadcastsInDim S64x1 (![0] : Fin 1 → Fin S64x1.rank)
  bcast_S64x1_S64x100000_0_1 : S64x1.BroadcastsInDim S64x100000 (![0, 1] : Fin 2 → Fin S64x100000.rank)
  bcast_S_S6400000 : S_.BroadcastsInDim S6400000 (![] : Fin 0 → Fin S6400000.rank)
  shapeCasts_S64x100000_S6400000 : S64x100000.ShapeCasts S6400000
  bcast_S_S4096 : S_.BroadcastsInDim S4096 (![] : Fin 0 → Fin S4096.rank)
  bcast_S6400000_S6400000x1_0 : S6400000.BroadcastsInDim S6400000x1 (![0] : Fin 1 → Fin S6400000x1.rank)
  shapeCasts_S4096_S64x64 : S4096.ShapeCasts S64x64
  bcast_S_S64x64 : S_.BroadcastsInDim S64x64 (![] : Fin 0 → Fin S64x64.rank)
  transposes_S40x64_S64x40_1_0 : S40x64.Transposes [1, 0] S64x40
  bcast_S40_S1x40_1 : S40.BroadcastsInDim S1x40 (![1] : Fin 1 → Fin S1x40.rank)
  bcast_S1x40_S64x40_0_1 : S1x40.BroadcastsInDim S64x40 (![0, 1] : Fin 2 → Fin S64x40.rank)
  scatter_S4096_S6400000x1_S6400000_n_0_0_1_wf : ScatterDims.WF S4096 S6400000x1 S6400000 [] [0] [0] 1
  dot_S64x64_S64x40_S64x40_1_0_0_1_n_n_wf : DotDims.WF S64x64 S64x40 S64x40 [1] [0] [0] [1] [] []

variable [Facts₀]

def scatter_S4096_S6400000x1_S6400000_n_0_0_1 : ScatterDims S4096 S6400000x1 S6400000 where
  updateWindowDims := []
  insertedWindowDims := [0]
  scatterDimsToOperandDims := [0]
  indexVectorDim := 1
  wf := scatter_S4096_S6400000x1_S6400000_n_0_0_1_wf
def dot_S64x64_S64x40_S64x40_1_0_0_1_n_n : DotDims S64x64 S64x40 S64x40 where
  lhsContracting := [1]
  rhsContracting := [0]
  lhsNonContracting := [0]
  rhsNonContracting := [1]
  lhsBatch := []
  rhsBatch := []
  wf := dot_S64x64_S64x40_S64x40_1_0_0_1_n_n_wf

class Facts : Prop extends Facts₀ where

variable [Facts]
-- ==== Proof.K0Run.lean ====
/-
  The first kernel's body at one grid point (batch b, chunk k of ten), in its two control cases.

  The body loads the chunk's 10000 points, takes the chunk's least and greatest value per coordinate, and then
  either (chunk 0) stores these two rows as they are, or (a later chunk) stores their minimum / maximum with the rows
  the two result buffers hold from the chunk before. Each case is run once on symbolic staging buffers: the point's
  chunk is handed back unchanged and each result buffer ends holding exactly the stored row.
-/
import proofs.«151321_j58205396795680_2_alg».proof.Proof.Gen.KernelIdeal.Launch
import proofs.«151321_j58205396795680_2_alg».proof.Proof.Gen.KernelIdeal.Skeleton
import proofs.«151321_j58205396795680_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hist0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chunk index is 0 exactly at the points ≡ 0 (mod 10): the first branch is taken there, -/
theorem hcond1 : ∀ t : Fin cfg0.N, k0_cond1 (grid0.coords t) = 1#1 ↔ t.val % 10 = 0 :=
  (by decide +kernel : ∀ t : Fin grid0.N, k0_cond1 (grid0.coords t) = 1#1 ↔ t.val % 10 = 0)
/-- and the second at every other point. -/
theorem hcond2 : ∀ t : Fin cfg0.N, k0_cond2 (grid0.coords t) = 1#1 ↔ ¬ t.val % 10 = 0 :=
  (by decide +kernel : ∀ t : Fin grid0.N, k0_cond2 (grid0.coords t) = 1#1 ↔ ¬ t.val % 10 = 0)

theorem zero3 : (![0, 0, 0] : Fin 3 → Nat) = fun _ => 0 := by
  funext a; match a with | ⟨0, _⟩ => rfl | ⟨1, _⟩ => rfl | ⟨2, _⟩ => rfl

/-- A load of a whole buffer through the whole-shape rectangle reads its contents. -/
theorem load_whole {S : Shape} (hS : S.rank = 3) {sp : Space} (M : Memref sig .tc sp S .f32) (hM : M.IsWhole) (x : Vec F S .f32)
    (off : Fin S.rank → Nat) (hz : off = fun _ => 0) (inb : ∀ a, off a + S.size a ≤ S.size a) :
    View.readAt (Elt F) M.view (Rect.unit off S.size inb).toLoadRect (hM.unread x) = x := by
  rw [View.readAt_eq_ld, hM.read_unread, View.ld_unit_zero hz]

/-- After one store through the whole-shape rectangle the buffer reads the stored value. -/
theorem store_whole {S : Shape} {sp : Space} (M : Memref sig .tc sp S .f32) (f : M.view.ty.Contents (Elt F))
    (off : Fin S.rank → Nat) (hz : off = fun _ => 0) (inb : ∀ a, off a + S.size a ≤ S.size a) (w : S.Idx → Elt F .f32) :
    View.read (Elt F) M.view (M.view.writes (Elt F) f [⟨Rect.unit off S.size inb, w⟩]) = w := by
  rw [View.read_writes_eq_canon _ _ _ (fun y => ⟨_, List.mem_singleton_self _, View.mem_set_unit_zero hz inb y⟩),
    View.canon_unit_zero hz]

/-- CHUNK 0. From the chunk's staging buffer at `x0` and the two result buffers at anything, the body runs and leaves the
    chunk as it was, the first result buffer at the chunk's least values and the second at its greatest. -/
theorem run_first (c : Dev nD) (i : grid0.Coords) (arg2 : Memref sig .tc .vmem S1x10000x3 .f32) (harg2 : arg2.IsWhole)
    (arg3 : Memref sig .tc .vmem S1x1x3 .f32) (harg3 : arg3.IsWhole) (arg4 : Memref sig .tc .vmem S1x1x3 .f32) (harg4 : arg4.IsWhole)
    (hc1 : k0_cond1 i = 1#1) (hc2 : ¬ k0_cond2 i = 1#1) (x0 : Vec F S1x10000x3 .f32)
    (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay4 x0) ∗ owns (c : Thread nD τ) arg4 fullShare (k0_pay5 x0)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns
  iintro ⟨⟨%f0, %hf0, H0⟩, ⟨%d1, %f1, -, H1⟩, ⟨%d2, %f2, -, H2⟩, Hk⟩
  obtain rfl := harg2.eq_unread hf0
  sl_exec (disch := first | exact hc1 | exact hc2)
  sl_step
  iapply Hk
  have hx := load_whole (F := F) rfl arg2 harg2 x0 _ zero3 inb_S1x10000x3_S1x10000x3_0_0_0
  isplitl [H0]
  · iexists _; isplitr; · ipureintro; exact harg2.read_unread _
    iexact H0
  isplitl [H1]
  · iexists _; isplitr; swap; · iexact H1
    ipureintro; rw [store_whole arg3 f1 _ zero3, hx]
  · iexists _; isplitr; swap; · iexact H2
    ipureintro; rw [store_whole arg4 f2 _ zero3, hx]

/-- A LATER CHUNK. From the chunk's staging buffer at `x0` and the two result buffers at the rows `d1`, `d2` the chunk
    before left, the body runs and leaves the chunk as it was and the result buffers at the minimum of `d1` with the
    chunk's least values and the maximum of `d2` with its greatest. -/
theorem run_later (c : Dev nD) (i : grid0.Coords) (arg2 : Memref sig .tc .vmem S1x10000x3 .f32) (harg2 : arg2.IsWhole)
    (arg3 : Memref sig .tc .vmem S1x1x3 .f32) (harg3 : arg3.IsWhole) (arg4 : Memref sig .tc .vmem S1x1x3 .f32) (harg4 : arg4.IsWhole)
    (hc1 : ¬ k0_cond1 i = 1#1) (hc2 : k0_cond2 i = 1#1) (x0 : Vec F S1x10000x3 .f32) (d1 d2 : Vec F S1x1x3 .f32)
    (E : Set ℕ) (K : PUnit → sProp 𝕄) :
    iprop(owns (c : Thread nD τ) arg2 fullShare x0 ∗ owns (c : Thread nD τ) arg3 fullShare d1 ∗ owns (c : Thread nD τ) arg4 fullShare d2
        ∗ (iprop(owns (c : Thread nD τ) arg2 fullShare x0 ∗ owns (c : Thread nD τ) arg3 fullShare (k0_pay6 x0 d1) ∗ owns (c : Thread nD τ) arg4 fullShare (k0_pay7 x0 d2)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns
  iintro ⟨⟨%f0, %hf0, H0⟩, ⟨%f1, %hf1, H1⟩, ⟨%f2, %hf2, H2⟩, Hk⟩
  obtain rfl := harg2.eq_unread hf0
  obtain rfl := harg3.eq_unread hf1
  obtain rfl := harg4.eq_unread hf2
  sl_exec (disch := first | exact hc1 | exact hc2)
  sl_step
  iapply Hk
  have hx := load_whole (F := F) rfl arg2 harg2 x0 _ zero3 inb_S1x10000x3_S1x10000x3_0_0_0
  have h1 := load_whole (F := F) rfl arg3 harg3 d1 _ zero3 inb_S1x1x3_S1x1x3_0_0_0
  have h2 := load_whole (F := F) rfl arg4 harg4 d2 _ zero3 inb_S1x1x3_S1x1x3_0_0_0
  isplitl [H0]
  · iexists _; isplitr; · ipureintro; exact harg2.read_unread _
    iexact H0
  isplitl [H1]
  · iexists _; isplitr; swap; · iexact H1
    ipureintro; rw [store_whole arg3 _ _ zero3, hx, h1]
  · iexists _; isplitr; swap; · iexact H2
    ipureintro; rw [store_whole arg4 _ _ zero3, hx, h2]

end Cert.KernelIdeal.Hist0

end
-- ==== Proof.K0Dat.lean ====
/-
  The first kernel's proof data: what each window's staging buffer holds after the body at every grid point, and the
  body's obligation at a generic point.

  Point t = 10·b + k is chunk k of batch b. The chunk window's buffer holds the chunk (rows 10000·k … of batch b) at
  every point. The two result windows address block b at all ten points of the batch and are written back after the
  last one, so between the points of one batch their buffers carry the running rows: after chunk 0 the chunk's own least
  / greatest values, after chunk k > 0 the minimum / maximum of the carried row with chunk k's.
-/
import proofs.«151321_j58205396795680_2_alg».proof.Proof.Gen.KernelIdeal.Launch
import proofs.«151321_j58205396795680_2_alg».proof.Proof.Gen.KernelIdeal.Skeleton
import proofs.«151321_j58205396795680_2_alg».proof.Proof.Gen.KernelIdeal.Points
import proofs.«151321_j58205396795680_2_alg».proof.Proof.K0Run
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hist0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The unscoped buffers of a core as the region finds them. -/
abbrev Vals (F : FTy → Type) : Type := (c : Dev nD) → (b : Ref sig .tc) → Buf (Elt F) ((c : Thread nD τ).loc b)

variable (V : Vals F)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two result windows are live at every point: one of the two branches is always taken. -/
theorem live1 : ∀ i : grid0.Coords, idle0 1 i = false := by decide +kernel
theorem live2 : ∀ i : grid0.Coords, idle0 2 i = false := by decide +kernel
theorem live1c : ∀ i : cfg0.grid.Coords, cfg0.idle 1 i = false := fun i => live1 i
theorem live2c : ∀ i : cfg0.grid.Coords, cfg0.idle 2 i = false := fun i => live2 i

/-- THE RUNNING ROWS: what the two result buffers hold after the body at position `n`. -/
def accAt (c : Dev nD) : (n : ℕ) → n < cfg0.N → Vec F S1x1x3 .f32 × Vec F S1x1x3 .f32
  | 0, hn => (k0_pay4 (iblk V c 0 ⟨0, hn⟩), k0_pay5 (iblk V c 0 ⟨0, hn⟩))
  | n + 1, hn =>
    if (n + 1) % 10 = 0 then (k0_pay4 (iblk V c 0 ⟨n + 1, hn⟩), k0_pay5 (iblk V c 0 ⟨n + 1, hn⟩))
    else (k0_pay6 (iblk V c 0 ⟨n + 1, hn⟩) (accAt c n (Nat.lt_of_succ_lt hn)).1, k0_pay7 (iblk V c 0 ⟨n + 1, hn⟩) (accAt c n (Nat.lt_of_succ_lt hn)).2)

/-- At a batch's first chunk: the chunk's own rows. -/
theorem accAt_first (c : Dev nD) (t : Fin cfg0.N) (h0 : t.val % 10 = 0) :
    accAt V c t.val t.isLt = (k0_pay4 (iblk V c 0 t), k0_pay5 (iblk V c 0 t)) := by
  obtain ⟨n, hn⟩ := t
  cases n with
  | zero => rfl
  | succ n => exact if_pos h0

/-- At a later chunk: the carried rows combined with the chunk's. -/
theorem accAt_later (c : Dev nD) (t : Fin cfg0.N) (h0 : ¬ t.val % 10 = 0) :
    accAt V c t.val t.isLt = (k0_pay6 (iblk V c 0 t) (accAt V c (t.val - 1) (Nat.lt_of_le_of_lt (Nat.sub_le _ _) t.isLt)).1,
      k0_pay7 (iblk V c 0 t) (accAt V c (t.val - 1) (Nat.lt_of_le_of_lt (Nat.sub_le _ _) t.isLt)).2) := by
  obtain ⟨n, hn⟩ := t
  cases n with
  | zero => exact absurd (Nat.zero_mod _) h0
  | succ n => exact if_neg h0

/-- The proof data on core `c`: the arrays as the region finds them; after the body the chunk window's buffer at its
    block and the result windows' at the running rows; the invariant the scoped buffers the region does not stage and the generator register;
    nothing owed; full shares. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => (accAt V c t.val t.isLt).1
    | ⟨2, _⟩ => (accAt V c t.val t.isLt).2
  Φ _ := Pipeline.ΦA spec0 c
  q _ := fullShare
  owed _ := 0

theorem A_eq (c : Dev nD) (w : Fin cfg0.W) : (dats V c).A w = V c (Pipeline.arrRef spec0 w) := by dsimp only [dats]
theorem after_0 (c : Dev nD) (t : Fin cfg0.N) : (dats V c).after 0 t = iblk V c 0 t := by dsimp only [dats]
theorem after_1 (c : Dev nD) (t : Fin cfg0.N) : (dats V c).after 1 t = (accAt V c t.val t.isLt).1 := by dsimp only [dats]
theorem after_2 (c : Dev nD) (t : Fin cfg0.N) : (dats V c).after 2 t = (accAt V c t.val t.isLt).2 := by dsimp only [dats]

/-- The chunk window's buffer holds the chunk at every point. -/
theorem before_0 (c : Dev nD) (t : Fin cfg0.N) (d) : (dats V c).before 0 t d = iblk V c 0 t :=
  ((dats V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- At a later chunk the result buffers hold what the chunk before left: no write-back lies between. -/
theorem before_1 (c : Dev nD) (t : Fin cfg0.N) (h0 : ¬ t.val % 10 = 0) (d) :
    (dats V c).before 1 t d = (accAt V c (t.val - 1) (Nat.lt_of_le_of_lt (Nat.sub_le _ _) t.isLt)).1 := by
  rw [Dat.before_out_kept _ 1 rfl t (by omega) (Bool.eq_false_iff.mpr fun h => by have := (flush0_1 _).mp h; dsimp only at this; omega)
    live1c (fun _ _ => rfl)]
  dsimp only [dats]
theorem before_2 (c : Dev nD) (t : Fin cfg0.N) (h0 : ¬ t.val % 10 = 0) (d) :
    (dats V c).before 2 t d = (accAt V c (t.val - 1) (Nat.lt_of_le_of_lt (Nat.sub_le _ _) t.isLt)).2 := by
  rw [Dat.before_out_kept _ 2 rfl t (by omega) (Bool.eq_false_iff.mpr fun h => by have := (flush0_2 _).mp h; dsimp only at this; omega)
    live2c (fun _ _ => rfl)]
  dsimp only [dats]

/-- What the body is called with at point `t`, the windows one by one, -/
def bodyPre (c : Dev nD) (t : Fin cfg0.N) : sProp 𝕄 :=
  iprop((dats V c).Φ t.castSucc ∗ (dats V c).owesAt () t.castSucc
    ∗ (∃ d, owns (c : Thread nD τ) (st0_0 t) fullShare ((dats V c).before 0 t d))
    ∗ (∃ d, owns (c : Thread nD τ) (st0_1 t) fullShare ((dats V c).before 1 t d))
    ∗ (∃ d, owns (c : Thread nD τ) (st0_2 t) fullShare ((dats V c).before 2 t d)))

/-- and what it returns. -/
def bodyPost (c : Dev nD) (t : Fin cfg0.N) : sProp 𝕄 :=
  iprop((dats V c).Φ t.succ ∗ (dats V c).owesAt () t.succ
    ∗ owns (c : Thread nD τ) (st0_0 t) fullShare ((dats V c).after 0 t)
    ∗ owns (c : Thread nD τ) (st0_1 t) fullShare ((dats V c).after 1 t)
    ∗ owns (c : Thread nD τ) (st0_2 t) fullShare ((dats V c).after 2 t))

set_option maxHeartbeats 800000 in
/-- The body at any point: the chunk's buffer holds the chunk; by the chunk index the point is a batch's first chunk or a
    later one, where the result buffers hold the carried rows; the matching run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dats V c).Φ t.succ = (dats V c).Φ t.castSucc from rfl,
    show (dats V c).owesAt () t.succ = (dats V c).owesAt () t.castSucc from rfl,
    after_0, after_1, after_2]
  by_cases h0 : t.val % 10 = 0
  · rw [accAt_first V c t h0]
    iintro ⟨HΦ, Ho, ⟨%d0, H0⟩, ⟨%d1, H1⟩, ⟨%d2, H2⟩⟩
    iapply (run_first c (grid0.coords t) _ _ _ _ _ _ ((hcond1 t).mpr h0) (fun h => ((hcond2 t).mp h) h0) (iblk V c 0 t) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later V c t h0]
    simp only [before_1 V c t h0, before_2 V c t h0]
    iintro ⟨HΦ, Ho, ⟨%d0, H0⟩, ⟨%d1, H1⟩, ⟨%d2, H2⟩⟩
    iapply (run_later c (grid0.coords t) _ _ _ _ _ _ (fun h => h0 ((hcond1 t).mp h)) ((hcond2 t).mpr h0) (iblk V c 0 t) _ _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) V c) (defs₀ (F := F)) Variants.none () Set.univ := fun t => by
  rw [bigSep_W0, bigSep_W0]
  have e1 : cfg0.idle 1 (cfg0.grid.coords t) = false := live1c _
  have e2 : cfg0.idle 2 (cfg0.grid.coords t) = false := live2c _
  rw [e1]; try rw [e2]
  exact sound_body V c t

end Cert.KernelIdeal.Hist0

end
-- ==== Proof.K1Runs.lean ====
import proofs.«151321_j58205396795680_2_alg».proof.Proof.Gen.KernelIdeal.Launch
import proofs.«151321_j58205396795680_2_alg».proof.Proof.Gen.KernelIdeal.Skeleton
import proofs.«151321_j58205396795680_2_alg».proof.Proof.Gen.KernelIdeal.Points
import Idealize.ShloMosaic.Lib.Pipeline.FrameBody
import Idealize.ShloMosaic.Lib.Tactic
import Idealize.ShloMosaic.Lib.Pipeline.Value

set_option maxRecDepth 16384

noncomputable section

namespace Cert.KernelIdeal.Hist1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body: what its three runs share

The second kernel's body accumulates a per-chunk histogram into a scratch row. Its two conditionals
test the chunk coordinate only: the first (zero the scratch) holds at chunk 0, the second (divide,
multiply by the weights, add the bias, store the output) at chunk 19. Here: the first condition as
a proposition over the grid coordinates, both conditions in closed form over the grid, and the
three pure facts that turn what a run leaves (a load through the whole-shape rectangle, a list of
whole-shape stores) into the contents themselves. -/

/-- The condition of the body's first conditional (zero the scratch), from the grid coordinates: the
    scalar chain of the printed part substituted. -/
abbrev k1_first (i : grid1.Coords) : Prop :=
  (Scalar.cmpi .ne (Scalar.extui (Scalar.cmpi .eq (BitVec.ofNat 32 (i 1).val) 0#32)) 0#32) = 1#1

/-- The first condition holds exactly at the first chunk of each batch row — decided over the grid. -/
theorem hfirst : ∀ t : Fin cfg1.N, k1_first (grid1.coords t) ↔ t.val % 20 = 0 :=
  (by decide +kernel : ∀ t : Fin grid1.N, k1_first (grid1.coords t) ↔ t.val % 20 = 0)

/-- The second condition holds exactly at the last chunk of each batch row — decided over the grid. -/
theorem hlast : ∀ t : Fin cfg1.N, k1_cond2 (grid1.coords t) = 1#1 ↔ t.val % 20 = 19 :=
  (by decide +kernel : ∀ t : Fin grid1.N, k1_cond2 (grid1.coords t) = 1#1 ↔ t.val % 20 = 19)

/-- No point meets both conditions. -/
theorem not_last_of_first (t : Fin cfg1.N) (h : k1_first (grid1.coords t)) : ¬k1_cond2 (grid1.coords t) = 1#1 := fun h2 => by
  have a := (hfirst t).mp h; have b := (hlast t).mp h2; omega

/-- The scratch accumulator (one row of 64 bins), as the pipeline passes it to the body: the whole buffer. -/
abbrev scr : Memref sig .tc .vmem S1x64 .f32 := Memref.whole cc1_scratch0

section pure
variable {Val : EltTy → Type} {sg : RefSig} {κ : Kind} {sp : Space} {S : Shape} {e : EltTy}

/-- A load through the whole-shape rectangle at zero offsets, of a whole memref held at the raw
    contents of `X`, reads `X`. -/
theorem readAt_whole_unread (m : Memref sg κ sp S e) (h : m.IsWhole) (X : S.Idx → Val e)
    {off : Fin S.rank → ℕ} (ho : off = fun _ => 0) (inb : ∀ a, off a + S.size a ≤ S.size a) :
    View.readAt Val m.view (Rect.unit off S.size inb).toLoadRect (h.unread X) = X := by
  rw [View.readAt_eq_ld, h.read_unread]; exact View.ld_unit_zero ho inb X

/-- After a list of stores whose LAST is through the whole-shape rectangle at zero offsets, the view
    reads that store's payload, whatever was there before. -/
theorem read_writes_cons_unit_zero [∀ e, Nonempty (Val e)] (v : View sg κ sp S e) (f : v.ty.Contents Val)
    {off : Fin S.rank → ℕ} (ho : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero ho inb y⟩)]
  exact View.canon_cons_unit_zero ho inb w L

end pure

/-- The zero offsets of the rank-1, rank-2 and rank-3 whole-shape rectangles, as the program spells them. -/
theorem off1 : (![0] : Fin 1 → ℕ) = fun _ => 0 := by funext a; fin_cases a; rfl
theorem off2 : (![0, 0] : Fin 2 → ℕ) = fun _ => 0 := by funext a; fin_cases a <;> rfl
theorem off3 : (![0, 0, 0] : Fin 3 → ℕ) = fun _ => 0 := by funext a; fin_cases a <;> rfl

end Cert.KernelIdeal.Hist1

end
-- ==== Proof.K1RunFirst.lean ====
import proofs.«151321_j58205396795680_2_alg».proof.Proof.K1Runs

set_option maxRecDepth 16384

noncomputable section

namespace Cert.KernelIdeal.Hist1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body at the FIRST chunk of a batch row

The scratch row is zeroed, the chunk's one-hot rows are summed over the points and added to it;
the weights, the bias and the output are not touched. -/

set_option maxHeartbeats 1000000 in
/-- THE FIRST CHUNK (the first condition holds, the second does not). On whole memrefs — the
    points', the minima's and the maxima's at their contents, the scratch at anything — the body runs
    to the continuation holding the three inputs as they were and the scratch at the chunk's column
    sums added to zero, `k1_pay1 (k1_pay4 x0 x1 x2) k1_pay3`: the load that follows the zeroing
    store reads the stored zeros back. -/
theorem run_first (c : Dev nD) (i : grid1.Coords) (arg2 : Memref sig .tc .vmem S1x5000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S40x64 .f32) (harg5 : arg5.IsWhole) (arg6 : Memref sig .tc .vmem S40 .f32) (harg6 : arg6.IsWhole) (arg7 : Memref sig .tc .vmem S1x1x40 .f32) (harg7 : arg7.IsWhole) (hf : k1_first i) (hl : ¬k1_cond2 i = 1#1)
    (x0 : Vec F S1x5000x3 .f32) (x1 x2 : Vec F S1x1x3 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ s, owns (c : Thread nD τ) scr fullShare s)
        ∗ (iprop(owns (c : Thread nD τ) arg2 fullShare x0 ∗ owns (c : Thread nD τ) arg3 fullShare x1 ∗ owns (c : Thread nD τ) arg4 fullShare x2
            ∗ owns (c : Thread nD τ) scr fullShare (k1_pay1 (k1_pay4 x0 x1 x2) (k1_pay3 (F := F)))) -∗ K ⟨⟩))
      ⊢ wp frame (wpE (defs₀ (F := F)) Variants.none c none) E (cc1__hist_kernel i arg2 harg2 arg3 harg3 arg4 harg4 arg5 harg5 arg6 harg6 arg7 harg7 scr (Memref.isWhole_whole _)) K := by
  simp only [cc1__hist_kernel_eq_skeleton]; unfold cc1__hist_kernel_skel
  simp only [k1_part1_eq_skeleton]; unfold k1_part1_skel
  unfold owns
  iintro ⟨⟨%f0, %hf0, H0⟩, ⟨%f1, %hf1, H1⟩, ⟨%f2, %hf2, H2⟩, ⟨%s, %f6, -, H6⟩, Hk⟩
  obtain rfl := harg2.eq_unread hf0; obtain rfl := harg3.eq_unread hf1; obtain rfl := harg4.eq_unread hf2
  have e0 := readAt_whole_unread (Val := Elt F) arg2 harg2 x0 off3 inb_S1x5000x3_S1x5000x3_0_0_0
  have e1 := readAt_whole_unread (Val := Elt F) arg3 harg3 x1 off3 inb_S1x1x3_S1x1x3_0_0_0
  have e2 := readAt_whole_unread (Val := Elt F) arg4 harg4 x2 off3 inb_S1x1x3_S1x1x3_0_0_0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H6
  ipureintro
  refine (read_writes_cons_unit_zero _ _ off2 _ _ _).trans ?_
  sl_unfold_run_names
  dsimp only
  rw [View.readCov_unit_zero _ off2]

end Cert.KernelIdeal.Hist1

end
-- ==== Proof.K1RunMid.lean ====
import proofs.«151321_j58205396795680_2_alg».proof.Proof.K1RunFirst

set_option maxRecDepth 16384

noncomputable section

namespace Cert.KernelIdeal.Hist1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body at a MIDDLE chunk of a batch row

The chunk's one-hot rows are summed over the points and added to the scratch row; nothing else is
touched. -/

set_option maxHeartbeats 1000000 in
/-- A MIDDLE CHUNK (neither condition holds). On whole memrefs — the points', the minima's and the
    maxima's at their contents, the scratch at `s` — the body runs to the continuation holding the
    three inputs as they were and the scratch at the chunk's column sums added to `s`. -/
theorem run_mid (c : Dev nD) (i : grid1.Coords) (arg2 : Memref sig .tc .vmem S1x5000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S40x64 .f32) (harg5 : arg5.IsWhole) (arg6 : Memref sig .tc .vmem S40 .f32) (harg6 : arg6.IsWhole) (arg7 : Memref sig .tc .vmem S1x1x40 .f32) (harg7 : arg7.IsWhole) (hf : ¬k1_first i) (hl : ¬k1_cond2 i = 1#1)
    (x0 : Vec F S1x5000x3 .f32) (x1 x2 : Vec F S1x1x3 .f32) (s : Vec F S1x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) scr fullShare s
        ∗ (iprop(owns (c : Thread nD τ) arg2 fullShare x0 ∗ owns (c : Thread nD τ) arg3 fullShare x1 ∗ owns (c : Thread nD τ) arg4 fullShare x2
            ∗ owns (c : Thread nD τ) scr fullShare (k1_pay1 (k1_pay4 x0 x1 x2) s)) -∗ K ⟨⟩))
      ⊢ wp frame (wpE (defs₀ (F := F)) Variants.none c none) E (cc1__hist_kernel i arg2 harg2 arg3 harg3 arg4 harg4 arg5 harg5 arg6 harg6 arg7 harg7 scr (Memref.isWhole_whole _)) K := by
  have hs : (scr).IsWhole := Memref.isWhole_whole _
  simp only [cc1__hist_kernel_eq_skeleton]; unfold cc1__hist_kernel_skel
  simp only [k1_part1_eq_skeleton]; unfold k1_part1_skel
  unfold owns
  iintro ⟨⟨%f0, %hf0, H0⟩, ⟨%f1, %hf1, H1⟩, ⟨%f2, %hf2, H2⟩, ⟨%f6, %hf6, H6⟩, Hk⟩
  obtain rfl := harg2.eq_unread hf0; obtain rfl := harg3.eq_unread hf1; obtain rfl := harg4.eq_unread hf2
  obtain rfl := hs.eq_unread hf6
  have e0 := readAt_whole_unread (Val := Elt F) arg2 harg2 x0 off3 inb_S1x5000x3_S1x5000x3_0_0_0
  have e1 := readAt_whole_unread (Val := Elt F) arg3 harg3 x1 off3 inb_S1x1x3_S1x1x3_0_0_0
  have e2 := readAt_whole_unread (Val := Elt F) arg4 harg4 x2 off3 inb_S1x1x3_S1x1x3_0_0_0
  have e6 := readAt_whole_unread (Val := Elt F) scr hs s off2 inb_S1x64_S1x64_0_0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H6
  ipureintro
  exact read_writes_cons_unit_zero _ _ off2 _ _ _

end Cert.KernelIdeal.Hist1

end
-- ==== Proof.K1RunLast.lean ====
import proofs.«151321_j58205396795680_2_alg».proof.Proof.K1RunMid

set_option maxRecDepth 16384

noncomputable section

namespace Cert.KernelIdeal.Hist1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body at the LAST chunk of a batch row

The chunk's one-hot rows are summed over the points and added to the scratch row; then the row is
read back, divided by the number of points, multiplied by the transposed weights, the bias is added
and the result is stored over the whole output block. -/

set_option maxHeartbeats 1000000 in
/-- THE LAST CHUNK (the first condition fails, the second holds). On whole memrefs — the five inputs'
    at their contents, the scratch at `s`, the output's at anything — the body runs to the
    continuation holding the inputs as they were, the scratch at `s' = k1_pay1 (k1_pay4 x0 x1 x2) s`
    and the output written whole with `k1_pay2 s' x3 x4`: the load that follows the accumulating
    store reads the stored row back. -/
theorem run_last (c : Dev nD) (i : grid1.Coords) (arg2 : Memref sig .tc .vmem S1x5000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S40x64 .f32) (harg5 : arg5.IsWhole) (arg6 : Memref sig .tc .vmem S40 .f32) (harg6 : arg6.IsWhole) (arg7 : Memref sig .tc .vmem S1x1x40 .f32) (harg7 : arg7.IsWhole) (hf : ¬k1_first i) (hl : k1_cond2 i = 1#1)
    (x0 : Vec F S1x5000x3 .f32) (x1 x2 : Vec F S1x1x3 .f32) (x3 : Vec F S40x64 .f32) (x4 : Vec F S40 .f32) (s : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) scr fullShare s
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) scr fullShare (k1_pay1 (k1_pay4 x0 x1 x2) s)
            ∗ owns (c : Thread nD τ) arg5 fullShare x3 ∗ owns (c : Thread nD τ) arg6 fullShare x4
            ∗ owns (c : Thread nD τ) arg7 fullShare (k1_pay2 (k1_pay1 (k1_pay4 x0 x1 x2) s) x3 x4)) -∗ K ⟨⟩))
      ⊢ wp frame (wpE (defs₀ (F := F)) Variants.none c none) E (cc1__hist_kernel i arg2 harg2 arg3 harg3 arg4 harg4 arg5 harg5 arg6 harg6 arg7 harg7 scr (Memref.isWhole_whole _)) K := by
  have hs : (scr).IsWhole := Memref.isWhole_whole _
  simp only [cc1__hist_kernel_eq_skeleton]; unfold cc1__hist_kernel_skel
  simp only [k1_part1_eq_skeleton]; unfold k1_part1_skel
  unfold owns
  iintro ⟨⟨%f0, %hf0, H0⟩, ⟨%f1, %hf1, H1⟩, ⟨%f2, %hf2, H2⟩, ⟨%f6, %hf6, H6⟩, ⟨%f3, %hf3, H3⟩, ⟨%f4, %hf4, H4⟩, ⟨%d, %f5, -, H5⟩, Hk⟩
  obtain rfl := harg2.eq_unread hf0; obtain rfl := harg3.eq_unread hf1; obtain rfl := harg4.eq_unread hf2
  obtain rfl := hs.eq_unread hf6
  obtain rfl := harg5.eq_unread hf3; obtain rfl := harg6.eq_unread hf4
  have e0 := readAt_whole_unread (Val := Elt F) arg2 harg2 x0 off3 inb_S1x5000x3_S1x5000x3_0_0_0
  have e1 := readAt_whole_unread (Val := Elt F) arg3 harg3 x1 off3 inb_S1x1x3_S1x1x3_0_0_0
  have e2 := readAt_whole_unread (Val := Elt F) arg4 harg4 x2 off3 inb_S1x1x3_S1x1x3_0_0_0
  have e6 := readAt_whole_unread (Val := Elt F) scr hs s off2 inb_S1x64_S1x64_0_0
  have e3 := readAt_whole_unread (Val := Elt F) arg5 harg5 x3 off2 inb_S40x64_S40x64_0_0
  have e4 := readAt_whole_unread (Val := Elt F) arg6 harg6 x4 off1 inb_S40_S40_0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr; swap; · iexact H6
    ipureintro
    exact read_writes_cons_unit_zero _ _ off2 _ _ _
  isplitl [H3]
  · iexists _; isplitr; · ipureintro; exact harg5.read_unread _
    iexact H3
  isplitl [H4]
  · iexists _; isplitr; · ipureintro; exact harg6.read_unread _
    iexact H4
  iexists _; isplitr; swap; · iexact H5
  ipureintro
  refine (read_writes_cons_unit_zero _ _ off3 _ _ _).trans ?_
  sl_unfold_run_names
  dsimp only
  rw [View.readCov_unit_zero _ off2]

end Cert.KernelIdeal.Hist1

end
-- ==== Proof.K1Run.lean ====
import proofs.«151321_j58205396795680_2_alg».proof.Proof.K1RunLast

/-! # Region 1's body runs

The triple of the second kernel's body in each of its three control cases — the first chunk of a
batch row (`Cert.KernelIdeal.Hist1.run_first`), a middle chunk (`run_mid`), the last chunk
(`run_last`) —, the two conditions in closed form over the grid (`hfirst`, `hlast`) and the
scratch memref (`scr`): this module only gathers them. -/
-- ==== Proof.K1Dat.lean ====
/-
  The second kernel's proof data: what each window's staging buffer and the scratch row hold after the body at every grid
  point, and the body's obligation at a generic point.

  Point t = 20·b + k is chunk k of batch b. The five input windows (the chunk of 5000 points, the batch's least and
  greatest rows, the weights, the bias) hold their blocks at every point. The scratch row is a scoped buffer the region
  finds at contents nobody chose; chunk 0 of every batch overwrites it with zero before adding, so after position n it
  holds the counts of the chunks of n's batch up to n — stated by recursion on the position. The result window addresses
  block b at all twenty points of batch b, is stored into only at the batch's last chunk and written back there; at the
  other points the body leaves its buffer as it found it.
-/
import proofs.«151321_j58205396795680_2_alg».proof.Proof.Gen.KernelIdeal.Launch
import proofs.«151321_j58205396795680_2_alg».proof.Proof.Gen.KernelIdeal.Skeleton
import proofs.«151321_j58205396795680_2_alg».proof.Proof.Gen.KernelIdeal.Points
import proofs.«151321_j58205396795680_2_alg».proof.Proof.K0Dat
import proofs.«151321_j58205396795680_2_alg».proof.Proof.K1Run
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hist1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hist0 (Vals)

variable (V : Vals F)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The chunk's points against the 64 voxels: row r, column f is 1 when point r falls in voxel f. -/
abbrev hits (c : Dev nD) (t : Fin cfg1.N) : FVec F S5000x64 .f32 := k1_pay4 (iblk V c 0 t) (iblk V c 1 t) (iblk V c 2 t)

/-- THE RUNNING COUNTS: what the scratch row holds after the body at position `n`. -/
def cntAt (c : Dev nD) : (n : ℕ) → n < cfg1.N → Vec F S1x64 .f32
  | 0, hn => k1_pay1 (hits V c ⟨0, hn⟩) (k1_pay3 (F := F))
  | n + 1, hn =>
    if (n + 1) % 20 = 0 then k1_pay1 (hits V c ⟨n + 1, hn⟩) (k1_pay3 (F := F))
    else k1_pay1 (hits V c ⟨n + 1, hn⟩) (cntAt c n (Nat.lt_of_succ_lt hn))

theorem cntAt_first (c : Dev nD) (t : Fin cfg1.N) (h0 : t.val % 20 = 0) :
    cntAt V c t.val t.isLt = k1_pay1 (hits V c t) (k1_pay3 (F := F)) := by
  obtain ⟨n, hn⟩ := t
  cases n with
  | zero => rfl
  | succ n => exact if_pos h0

theorem cntAt_later (c : Dev nD) (t : Fin cfg1.N) (h0 : ¬ t.val % 20 = 0) :
    cntAt V c t.val t.isLt = k1_pay1 (hits V c t) (cntAt V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers that are neither a staging buffer of this region nor the scratch row, each whole at some
    contents: the first region's six staging buffers. -/
def rest6 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant with the scratch row at `s`. -/
def PhiAt (c : Dev nD) (s : Vec F S1x64 .f32) : sProp 𝕄 :=
  iprop(rest6 (F := F) c ∗ owns (c : Thread nD τ) scr fullShare s ∗ ∃ r, prngReg c r)

/-- The class's invariant, its scoped buffers listed: the six beside the scratch row at some contents. -/
theorem PhiA_open (c : Dev nD) :
    (Pipeline.ΦA (U := UR sig nD τ) (Val := Elt F) spec1 c : sProp 𝕄) ⊢ iprop(rest6 (F := F) c ∗ (∃ f : Buf (Elt F) ((c : Thread nD τ).loc cc1_scratch0), ((c : Thread nD τ).loc cc1_scratch0) ↦{fullShare} f) ∗ ∃ r, prngReg c r) := by
  unfold Pipeline.ΦA rest6
  rw [scopedRest1_eq]
  iintro ⟨⟨H1, H2, H3, H4, H5, H6, Hs⟩, Hp⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [Hs]; · iexact Hs
  iexact Hp
theorem PhiA_close (c : Dev nD) :
    (iprop(rest6 (F := F) c ∗ (∃ f : Buf (Elt F) ((c : Thread nD τ).loc cc1_scratch0), ((c : Thread nD τ).loc cc1_scratch0) ↦{fullShare} f) ∗ ∃ r, prngReg c r) : sProp 𝕄) ⊢ Pipeline.ΦA (U := UR sig nD τ) (Val := Elt F) spec1 c := by
  unfold Pipeline.ΦA rest6
  rw [scopedRest1_eq]
  iintro ⟨⟨H1, H2, H3, H4, H5, H6⟩, Hs, Hp⟩
  isplitr [Hp]
  · isplitl [H1]; · iexact H1
    isplitl [H2]; · iexact H2
    isplitl [H3]; · iexact H3
    isplitl [H4]; · iexact H4
    isplitl [H5]; · iexact H5
    isplitl [H6]; · iexact H6
    iexact Hs
  iexact Hp

/-- THE INVARIANT before position `n`: at the region's entry the scratch row holds anything; after position `n` the
    running counts. -/
def Phi (c : Dev nD) : ℕ → sProp 𝕄
  | 0 => Pipeline.ΦA spec1 c
  | n + 1 => if h : n < cfg1.N then PhiAt (F := F) c (cntAt V c n h) else Pipeline.ΦA spec1 c

theorem Phi_succ (c : Dev nD) (t : Fin cfg1.N) : Phi V c (t.val + 1) = PhiAt (F := F) c (cntAt V c t.val t.isLt) := dif_pos t.isLt

theorem Phi_pos (c : Dev nD) (t : Fin cfg1.N) (h0 : t.val ≠ 0) :
    Phi V c t.val = PhiAt (F := F) c (cntAt V c (t.val - 1) (Nat.lt_of_le_of_lt (Nat.sub_le _ _) t.isLt)) := by
  obtain ⟨n, hn⟩ := t
  cases n with
  | zero => exact absurd rfl h0
  | succ n => exact dif_pos (Nat.lt_of_succ_lt hn)

/-- The scratch row held at a value is the scratch row held at some contents, and back. -/
theorem scr_forget (c : Dev nD) (s : Vec F S1x64 .f32) :
    (owns (c : Thread nD τ) scr fullShare s : sProp 𝕄) ⊢ iprop(∃ f : Buf (Elt F) ((c : Thread nD τ).loc cc1_scratch0), ((c : Thread nD τ).loc cc1_scratch0) ↦{fullShare} f) := by
  unfold scr; rw [owns_whole_eq]
  iintro ⟨%f, -, Hs⟩
  iexists f; iexact Hs
theorem scr_some (c : Dev nD) (f : Buf (Elt F) ((c : Thread nD τ).loc cc1_scratch0)) :
    ((((c : Thread nD τ).loc cc1_scratch0) ↦{fullShare} f) : sProp 𝕄) ⊢ iprop(∃ s, owns (c : Thread nD τ) scr fullShare s) := by
  iintro Hs
  iexists f
  unfold scr; rw [owns_whole_eq]
  iexists f; isplitr; · ipureintro; rfl
  iexact Hs

/-- Whatever the position, the invariant holds the scratch row at SOME contents. -/
theorem Phi_some (c : Dev nD) (n : ℕ) :
    Phi V c n ⊢ (iprop(rest6 (F := F) c ∗ (∃ s, owns (c : Thread nD τ) scr fullShare s) ∗ ∃ r, prngReg c r) : sProp 𝕄) := by
  have hA : (Pipeline.ΦA (U := UR sig nD τ) (Val := Elt F) spec1 c : sProp 𝕄) ⊢ iprop(rest6 (F := F) c ∗ (∃ s, owns (c : Thread nD τ) scr fullShare s) ∗ ∃ r, prngReg c r) := by
    refine (PhiA_open (F := F) c).trans ?_
    iintro ⟨Hr, ⟨%f, Hs⟩, Hp⟩
    isplitl [Hr]; · iexact Hr
    isplitl [Hs]
    · iapply (scr_some (F := F) c f); iexact Hs
    iexact Hp
  have hP : ∀ s, (PhiAt (F := F) c s : sProp 𝕄) ⊢ iprop(rest6 (F := F) c ∗ (∃ s, owns (c : Thread nD τ) scr fullShare s) ∗ ∃ r, prngReg c r) := fun s => by
    unfold PhiAt
    iintro ⟨Hr, Hs, Hp⟩
    isplitl [Hr]; · iexact Hr
    isplitl [Hs]; · iexists s; iexact Hs
    iexact Hp
  cases n with
  | zero => exact hA
  | succ n =>
    show (if h : n < cfg1.N then PhiAt (F := F) c (cntAt V c n h) else Pipeline.ΦA spec1 c) ⊢ _
    by_cases h : n < cfg1.N
    · rw [dif_pos h]; exact hP _
    · rw [dif_neg h]; exact hA

/-- So at any position it gives back the class's invariant: the scratch row forgotten. -/
theorem Phi_to_A (c : Dev nD) (n : ℕ) : Phi V c n ⊢ (Pipeline.ΦA (U := UR sig nD τ) (Val := Elt F) spec1 c : sProp 𝕄) := by
  refine (Phi_some V c n).trans (.trans ?_ (PhiA_close (F := F) c))
  iintro ⟨Hr, ⟨%s, Hs⟩, Hp⟩
  isplitl [Hr]; · iexact Hr
  isplitl [Hs]
  · iapply (scr_forget (F := F) c s); iexact Hs
  iexact Hp

/-- The proof data on core `c`. -/
def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k1_pay2 (cntAt V c t.val t.isLt) (iblk V c 3 t) (iblk V c 4 t)
  Φ t := Phi V c t.val
  q _ := fullShare
  owed _ := 0

theorem A_eq (c : Dev nD) (w : Fin cfg1.W) : (dats V c).A w = V c (Pipeline.arrRef spec1 w) := by dsimp only [dats]
theorem after_0 (c : Dev nD) (t : Fin cfg1.N) : (dats V c).after 0 t = iblk V c 0 t := by dsimp only [dats]
theorem after_1 (c : Dev nD) (t : Fin cfg1.N) : (dats V c).after 1 t = iblk V c 1 t := by dsimp only [dats]
theorem after_2 (c : Dev nD) (t : Fin cfg1.N) : (dats V c).after 2 t = iblk V c 2 t := by dsimp only [dats]
theorem after_3 (c : Dev nD) (t : Fin cfg1.N) : (dats V c).after 3 t = iblk V c 3 t := by dsimp only [dats]
theorem after_4 (c : Dev nD) (t : Fin cfg1.N) : (dats V c).after 4 t = iblk V c 4 t := by dsimp only [dats]
theorem after_5 (c : Dev nD) (t : Fin cfg1.N) :
    (dats V c).after 5 t = k1_pay2 (cntAt V c t.val t.isLt) (iblk V c 3 t) (iblk V c 4 t) := by dsimp only [dats]

/-- Each input window's buffer holds its block at every point, fetched there or not. -/
theorem before_0 (c : Dev nD) (t : Fin cfg1.N) (d) : (dats V c).before 0 t d = iblk V c 0 t :=
  ((dats V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats V c).before 1 t d = iblk V c 1 t :=
  ((dats V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats V c).before 2 t d = iblk V c 2 t :=
  ((dats V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats V c).before 3 t d = iblk V c 3 t :=
  ((dats V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats V c).before 4 t d = iblk V c 4 t :=
  ((dats V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The result window is idle exactly off a batch's last chunk, -/
theorem idle5_of_not_last (t : Fin cfg1.N) (h : ¬ t.val % 20 = 19) : idle1 5 (grid1.coords t) = true := by
  have : ¬ k1_cond2 (grid1.coords t) = 1#1 := fun e => h ((hlast t).mp e)
  show (!(k1_cond2 (grid1.coords t) == 1#1)) = true
  simp [this]
theorem live5_of_last (t : Fin cfg1.N) (h : t.val % 20 = 19) : idle1 5 (grid1.coords t) = false := by
  have : k1_cond2 (grid1.coords t) = 1#1 := (hlast t).mpr h
  show (!(k1_cond2 (grid1.coords t) == 1#1)) = false
  simp [this]
/-- and is not written back there. -/
theorem noflush5 (t : Fin cfg1.N) (h : ¬ t.val % 20 = 19) : (win1 5).flush t = false :=
  Bool.eq_false_iff.mpr fun e => h ((flush1_5 t).mp e)

/-- What the body is called with at point `t`, the windows one by one, -/
def bodyPre (c : Dev nD) (t : Fin cfg1.N) : sProp 𝕄 :=
  iprop((dats V c).Φ t.castSucc ∗ (dats V c).owesAt () t.castSucc
    ∗ (∃ d, owns (c : Thread nD τ) (st1_0 t) fullShare ((dats V c).before 0 t d))
    ∗ (∃ d, owns (c : Thread nD τ) (st1_1 t) fullShare ((dats V c).before 1 t d))
    ∗ (∃ d, owns (c : Thread nD τ) (st1_2 t) fullShare ((dats V c).before 2 t d))
    ∗ (∃ d, owns (c : Thread nD τ) (st1_3 t) fullShare ((dats V c).before 3 t d))
    ∗ (∃ d, owns (c : Thread nD τ) (st1_4 t) fullShare ((dats V c).before 4 t d))
    ∗ (∃ d, owns (c : Thread nD τ) (st1_5 t) fullShare ((dats V c).before 5 t d)))

/-- what it returns off a batch's last chunk (the result buffer as found), -/
def bodyPostIdle (c : Dev nD) (t : Fin cfg1.N) : sProp 𝕄 :=
  iprop((dats V c).Φ t.succ ∗ (dats V c).owesAt () t.succ
    ∗ owns (c : Thread nD τ) (st1_0 t) fullShare ((dats V c).after 0 t)
    ∗ owns (c : Thread nD τ) (st1_1 t) fullShare ((dats V c).after 1 t)
    ∗ owns (c : Thread nD τ) (st1_2 t) fullShare ((dats V c).after 2 t)
    ∗ owns (c : Thread nD τ) (st1_3 t) fullShare ((dats V c).after 3 t)
    ∗ owns (c : Thread nD τ) (st1_4 t) fullShare ((dats V c).after 4 t)
    ∗ (∃ d, owns (c : Thread nD τ) (st1_5 t) fullShare ((dats V c).before 5 t d)))

/-- and at it (the result buffer at the batch's result row). -/
def bodyPostLast (c : Dev nD) (t : Fin cfg1.N) : sProp 𝕄 :=
  iprop((dats V c).Φ t.succ ∗ (dats V c).owesAt () t.succ
    ∗ owns (c : Thread nD τ) (st1_0 t) fullShare ((dats V c).after 0 t)
    ∗ owns (c : Thread nD τ) (st1_1 t) fullShare ((dats V c).after 1 t)
    ∗ owns (c : Thread nD τ) (st1_2 t) fullShare ((dats V c).after 2 t)
    ∗ owns (c : Thread nD τ) (st1_3 t) fullShare ((dats V c).after 3 t)
    ∗ owns (c : Thread nD τ) (st1_4 t) fullShare ((dats V c).after 4 t)
    ∗ owns (c : Thread nD τ) (st1_5 t) fullShare ((dats V c).after 5 t))

set_option maxHeartbeats 1600000 in
/-- The body at a batch's first chunk: the scratch row at anything, left at the chunk's counts. -/
theorem sound_first (c : Dev nD) (t : Fin cfg1.N) (h0 : t.val % 20 = 0) :
    bodyPre V c t ⊢ wp frame (wpE (defs₀ (F := F)) Variants.none c none) Set.univ (bodyAt1 t) (fun _ => bodyPostIdle V c t) := by
  unfold bodyPre bodyPostIdle bodyAt1
  simp only [before_0, before_1, before_2, before_3, before_4]
  rw [show (dats V c).Φ t.succ = Phi V c (t.val + 1) from rfl, Phi_succ, cntAt_first V c t h0,
    show (dats V c).Φ t.castSucc = Phi V c t.val from rfl,
    show (dats V c).owesAt () t.succ = (dats V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩, H5⟩
  ihave HΦ' := (Phi_some V c t.val) $$ HΦ
  icases HΦ' with ⟨Hr, Hs, Hp⟩
  iapply (run_first c (grid1.coords t) _ _ _ _ _ _ _ _ _ _ _ _ ((hfirst t).mpr h0) (fun h => by have := (hlast t).mp h; omega)
    (iblk V c 0 t) (iblk V c 1 t) (iblk V c 2 t) Set.univ _)
  isplitl [H0]; · iexact H0
  isplitl [H1]; · iexact H1
  isplitl [H2]; · iexact H2
  isplitl [Hs]; · iexact Hs
  iintro ⟨H0, H1, H2, Hs⟩
  isplitl [Hr Hs Hp]
  · unfold PhiAt
    isplitl [Hr]; · iexact Hr
    isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at a middle chunk: the scratch row at the running counts, left with the chunk's added. -/
theorem sound_mid (c : Dev nD) (t : Fin cfg1.N) (h0 : ¬ t.val % 20 = 0) (h19 : ¬ t.val % 20 = 19) :
    bodyPre V c t ⊢ wp frame (wpE (defs₀ (F := F)) Variants.none c none) Set.univ (bodyAt1 t) (fun _ => bodyPostIdle V c t) := by
  unfold bodyPre bodyPostIdle bodyAt1
  simp only [before_0, before_1, before_2, before_3, before_4]
  rw [show (dats V c).Φ t.succ = Phi V c (t.val + 1) from rfl, Phi_succ, cntAt_later V c t h0,
    show (dats V c).Φ t.castSucc = Phi V c t.val from rfl, Phi_pos V c t (fun e => h0 (by rw [e])),
    show (dats V c).owesAt () t.succ = (dats V c).owesAt () t.castSucc from rfl,
    after_0, after_1, after_2, after_3, after_4]
  unfold PhiAt
  iintro ⟨⟨Hr, Hs, Hp⟩, Ho, ⟨%d0, H0⟩, ⟨%d1, H1⟩, ⟨%d2, H2⟩, ⟨%d3, H3⟩, ⟨%d4, H4⟩, H5⟩
  iapply (run_mid c (grid1.coords t) _ _ _ _ _ _ _ _ _ _ _ _ (fun h => h0 ((hfirst t).mp h)) (fun h => h19 ((hlast t).mp h))
    (iblk V c 0 t) (iblk V c 1 t) (iblk V c 2 t) _ Set.univ _)
  isplitl [H0]; · iexact H0
  isplitl [H1]; · iexact H1
  isplitl [H2]; · iexact H2
  isplitl [Hs]; · iexact Hs
  iintro ⟨H0, H1, H2, Hs⟩
  isplitl [Hr Hs Hp]
  · isplitl [Hr]; · iexact Hr
    isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at a batch's last chunk: the counts completed, the result row stored. -/
theorem sound_last (c : Dev nD) (t : Fin cfg1.N) (h19 : t.val % 20 = 19) :
    bodyPre V c t ⊢ wp frame (wpE (defs₀ (F := F)) Variants.none c none) Set.univ (bodyAt1 t) (fun _ => bodyPostLast V c t) := by
  have h0 : ¬ t.val % 20 = 0 := by omega
  unfold bodyPre bodyPostLast bodyAt1
  simp only [before_0, before_1, before_2, before_3, before_4]
  rw [show (dats V c).Φ t.succ = Phi V c (t.val + 1) from rfl, Phi_succ,
    show (dats V c).Φ t.castSucc = Phi V c t.val from rfl, Phi_pos V c t (fun e => h0 (by rw [e])),
    show (dats V c).owesAt () t.succ = (dats V c).owesAt () t.castSucc from rfl,
    after_0, after_1, after_2, after_3, after_4, after_5, cntAt_later V c t h0]
  unfold PhiAt
  iintro ⟨⟨Hr, Hs, Hp⟩, Ho, ⟨%d0, H0⟩, ⟨%d1, H1⟩, ⟨%d2, H2⟩, ⟨%d3, H3⟩, ⟨%d4, H4⟩, ⟨%d5, H5⟩⟩
  iapply (run_last c (grid1.coords t) _ _ _ _ _ _ _ _ _ _ _ _ (fun h => h0 ((hfirst t).mp h)) ((hlast t).mpr h19)
    (iblk V c 0 t) (iblk V c 1 t) (iblk V c 2 t) (iblk V c 3 t) (iblk V c 4 t) _ Set.univ _)
  isplitl [H0]; · iexact H0
  isplitl [H1]; · iexact H1
  isplitl [H2]; · iexact H2
  isplitl [Hs]; · iexact Hs
  isplitl [H3]; · iexact H3
  isplitl [H4]; · iexact H4
  isplitl [H5]; · iexists _; iexact H5
  iintro ⟨H0, H1, H2, Hs, H3, H4, H5⟩
  isplitl [Hr Hs Hp]
  · isplitl [Hr]; · iexact Hr
    isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) V c) (defs₀ (F := F)) Variants.none () Set.univ := fun t => by
  rw [bigSep_W1, bigSep_W1]
  by_cases h19 : t.val % 20 = 19
  · have e : cfg1.idle 5 (cfg1.grid.coords t) = false := live5_of_last t h19
    rw [e]
    exact sound_last V c t h19
  · have e : cfg1.idle 5 (cfg1.grid.coords t) = true := idle5_of_not_last t h19
    have ef : (cfg1.win 5).flush t = false := noflush5 t h19
    rw [e, ef]
    by_cases h0 : t.val % 20 = 0
    · exact sound_first V c t h0
    · exact sound_mid V c t h0 h19

end Cert.KernelIdeal.Hist1

end
-- ==== Proof.Run.lean ====
/-
  The whole run of @main: the first kernel's region, the second's, then the reshape of the result — every unscoped
  buffer's contents at each boundary named, and every final memory holding the last boundary's contents.

  Region 0 is entered at the launch contents and leaves its two result arrays at what its write-backs folded; region 1
  is entered at those, reads them through its second and third windows, and leaves its result array likewise; the host
  operation then writes the reshaped result. Nothing else is written, so each argument array ends as launched.
-/
import proofs.«151321_j58205396795680_2_alg».proof.Proof.Gen.KernelIdeal.Launch
import proofs.«151321_j58205396795680_2_alg».proof.Proof.Gen.KernelIdeal.Skeleton
import proofs.«151321_j58205396795680_2_alg».proof.Proof.Gen.KernelIdeal.Points
import proofs.«151321_j58205396795680_2_alg».proof.Proof.Gen.KernelIdeal.Regions
import proofs.«151321_j58205396795680_2_alg».proof.Proof.K0Dat
import proofs.«151321_j58205396795680_2_alg».proof.Proof.K1Dat
import Idealize.ShloMosaic.Lib.Pipeline.Frame
import Idealize.ShloMosaic.Lib.Pipeline.FrameSuffix
import Idealize.ShloMosaic.Lib.Pipeline.RegionsLoop
import Idealize.ShloMosaic.Lib.Pipeline.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hist0 (Vals)

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
abbrev V0 : Vals F := fun c b => W0 m ρ c b
/-- At region 0's exit: its arrays at what the pipeline leaves, every other buffer as entered. -/
def W1 (c : Dev nD) : Valuation τ sig (Elt F) :=
  Pipeline.withArrays spec0 c (W0 m ρ c) fun w => (Hist0.dats (V0 m ρ) c).arrAt w cfg0.N
theorem W1_arr (c : Dev nD) (w : Fin cfg0.W) :
    W1 m ρ c (Proc.devRef .tc (Pipeline.arrRef spec0 w)) = (Hist0.dats (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : Vals F := fun c b => W1 m ρ c b
theorem hF0 (c : Dev nD) (w : Fin cfg0.W) : (Hist0.dats (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (Hist1.dats (V1 m ρ) c).arrAt w cfg1.N
theorem W2_arr (c : Dev nD) (w : Fin cfg1.W) :
    W2 m ρ c (Proc.devRef .tc (Pipeline.arrRef spec1 w)) = (Hist1.dats (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : Vals F := fun c b => W2 m ρ c b
theorem hF1 (c : Dev nD) (w : Fin cfg1.W) : (Hist1.dats (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape: the end. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Hist0.dats (V0 m ρ) c
  | ⟨1, _⟩ => fun c => Hist1.dats (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Hist0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. The scratch row enters the
    invariant among the scoped buffers at contents nobody chose and is forgotten again at the exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Hist1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Hist1.Phi (V1 m ρ) c cfg1.N from rfl]
    refine (Hist1.Phi_to_A (V1 m ρ) c cfg1.N).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final memory holds, at every unscoped buffer, the last
    boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What the last boundary holds

No item writes an argument: the reshape writes the result only, a region changes only its result windows' arrays, and an
argument a region reads through an input window is handed back as entered. -/

theorem W3_of_not_written (c : Dev nD) (r : Ref sig .tc) (h : r ∉ hostOps2_W) :
    W3 m ρ c (Proc.devRef .tc r) = W2 m ρ c (Proc.devRef .tc r) :=
  StableHlo.after_of_writes_sub hostOps2 _ hostOps2_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_not_written m ρ c main_arg0 (by decide)
    _ = W1 m ρ c (Proc.devRef .tc main_arg0) := (W2_arr m ρ c 0).trans (((Hist1.dats (V1 m ρ) c).arrAt_in 0 rfl _).trans (Hist1.A_eq (V1 m ρ) c 0))
    _ = W0 m ρ c (Proc.devRef .tc main_arg0) := (W1_arr m ρ c 0).trans (((Hist0.dats (V0 m ρ) c).arrAt_in 0 rfl _).trans (Hist0.A_eq (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_not_written m ρ c main_arg1 (by decide)
    _ = W1 m ρ c (Proc.devRef .tc main_arg1) := (W2_arr m ρ c 3).trans (((Hist1.dats (V1 m ρ) c).arrAt_in 3 rfl _).trans (Hist1.A_eq (V1 m ρ) c 3))
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_not_written m ρ c main_arg2 (by decide)
    _ = W1 m ρ c (Proc.devRef .tc main_arg2) := (W2_arr m ρ c 4).trans (((Hist1.dats (V1 m ρ) c).arrAt_in 4 rfl _).trans (Hist1.A_eq (V1 m ρ) c 4))
    _ = W0 m ρ c (Proc.devRef .tc main_arg2) := W1_of_ne m ρ c main_arg2 (by decide)
    _ = m ((c : Thread nD τ).loc main_arg2) := rfl

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hist

end
-- ==== Proof.BK0Run.lean ====
/-
  The first kernel's body at one grid point (batch b, chunk k of ten), in its two control cases.

  The body loads the chunk's 10000 points, takes the chunk's least and greatest value per coordinate, and then
  either (chunk 0) stores these two rows as they are, or (a later chunk) stores their minimum / maximum with the rows
  the two result buffers hold from the chunk before. Each case is run once on symbolic staging buffers: the point's
  chunk is handed back unchanged and each result buffer ends holding exactly the stored row.
-/
import proofs.«151321_j58205396795680_2_alg».proof.Proof.Gen.Kernel.Launch
import proofs.«151321_j58205396795680_2_alg».proof.Proof.Gen.Kernel.Skeleton
import proofs.«151321_j58205396795680_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hist0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chunk index is 0 exactly at the points ≡ 0 (mod 10): the first branch is taken there, -/
theorem hcond1 : ∀ t : Fin cfg0.N, k0_cond1 (grid0.coords t) = 1#1 ↔ t.val % 10 = 0 :=
  (by decide +kernel : ∀ t : Fin grid0.N, k0_cond1 (grid0.coords t) = 1#1 ↔ t.val % 10 = 0)
/-- and the second at every other point. -/
theorem hcond2 : ∀ t : Fin cfg0.N, k0_cond2 (grid0.coords t) = 1#1 ↔ ¬ t.val % 10 = 0 :=
  (by decide +kernel : ∀ t : Fin grid0.N, k0_cond2 (grid0.coords t) = 1#1 ↔ ¬ t.val % 10 = 0)

theorem zero3 : (![0, 0, 0] : Fin 3 → Nat) = fun _ => 0 := by
  funext a; match a with | ⟨0, _⟩ => rfl | ⟨1, _⟩ => rfl | ⟨2, _⟩ => rfl

/-- A load of a whole buffer through the whole-shape rectangle reads its contents. -/
theorem load_whole {S : Shape} (hS : S.rank = 3) {sp : Space} (M : Memref sig .tc sp S .f32) (hM : M.IsWhole) (x : Vec F S .f32)
    (off : Fin S.rank → Nat) (hz : off = fun _ => 0) (inb : ∀ a, off a + S.size a ≤ S.size a) :
    View.readAt (Elt F) M.view (Rect.unit off S.size inb).toLoadRect (hM.unread x) = x := by
  rw [View.readAt_eq_ld, hM.read_unread, View.ld_unit_zero hz]

/-- After one store through the whole-shape rectangle the buffer reads the stored value. -/
theorem store_whole {S : Shape} {sp : Space} (M : Memref sig .tc sp S .f32) (f : M.view.ty.Contents (Elt F))
    (off : Fin S.rank → Nat) (hz : off = fun _ => 0) (inb : ∀ a, off a + S.size a ≤ S.size a) (w : S.Idx → Elt F .f32) :
    View.read (Elt F) M.view (M.view.writes (Elt F) f [⟨Rect.unit off S.size inb, w⟩]) = w := by
  rw [View.read_writes_eq_canon _ _ _ (fun y => ⟨_, List.mem_singleton_self _, View.mem_set_unit_zero hz inb y⟩),
    View.canon_unit_zero hz]

/-- CHUNK 0. From the chunk's staging buffer at `x0` and the two result buffers at anything, the body runs and leaves the
    chunk as it was, the first result buffer at the chunk's least values and the second at its greatest. -/
theorem run_first (c : Dev nD) (i : grid0.Coords) (arg2 : Memref sig .tc .vmem S1x10000x3 .f32) (harg2 : arg2.IsWhole)
    (arg3 : Memref sig .tc .vmem S1x1x3 .f32) (harg3 : arg3.IsWhole) (arg4 : Memref sig .tc .vmem S1x1x3 .f32) (harg4 : arg4.IsWhole)
    (hc1 : k0_cond1 i = 1#1) (hc2 : ¬ k0_cond2 i = 1#1) (x0 : Vec F S1x10000x3 .f32)
    (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay4 x0) ∗ owns (c : Thread nD τ) arg4 fullShare (k0_pay5 x0)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns
  iintro ⟨⟨%f0, %hf0, H0⟩, ⟨%d1, %f1, -, H1⟩, ⟨%d2, %f2, -, H2⟩, Hk⟩
  obtain rfl := harg2.eq_unread hf0
  sl_exec (disch := first | exact hc1 | exact hc2)
  sl_step
  iapply Hk
  have hx := load_whole (F := F) rfl arg2 harg2 x0 _ zero3 inb_S1x10000x3_S1x10000x3_0_0_0
  isplitl [H0]
  · iexists _; isplitr; · ipureintro; exact harg2.read_unread _
    iexact H0
  isplitl [H1]
  · iexists _; isplitr; swap; · iexact H1
    ipureintro; rw [store_whole arg3 f1 _ zero3, hx]
  · iexists _; isplitr; swap; · iexact H2
    ipureintro; rw [store_whole arg4 f2 _ zero3, hx]

/-- A LATER CHUNK. From the chunk's staging buffer at `x0` and the two result buffers at the rows `d1`, `d2` the chunk
    before left, the body runs and leaves the chunk as it was and the result buffers at the minimum of `d1` with the
    chunk's least values and the maximum of `d2` with its greatest. -/
theorem run_later (c : Dev nD) (i : grid0.Coords) (arg2 : Memref sig .tc .vmem S1x10000x3 .f32) (harg2 : arg2.IsWhole)
    (arg3 : Memref sig .tc .vmem S1x1x3 .f32) (harg3 : arg3.IsWhole) (arg4 : Memref sig .tc .vmem S1x1x3 .f32) (harg4 : arg4.IsWhole)
    (hc1 : ¬ k0_cond1 i = 1#1) (hc2 : k0_cond2 i = 1#1) (x0 : Vec F S1x10000x3 .f32) (d1 d2 : Vec F S1x1x3 .f32)
    (E : Set ℕ) (K : PUnit → sProp 𝕄) :
    iprop(owns (c : Thread nD τ) arg2 fullShare x0 ∗ owns (c : Thread nD τ) arg3 fullShare d1 ∗ owns (c : Thread nD τ) arg4 fullShare d2
        ∗ (iprop(owns (c : Thread nD τ) arg2 fullShare x0 ∗ owns (c : Thread nD τ) arg3 fullShare (k0_pay6 x0 d1) ∗ owns (c : Thread nD τ) arg4 fullShare (k0_pay7 x0 d2)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns
  iintro ⟨⟨%f0, %hf0, H0⟩, ⟨%f1, %hf1, H1⟩, ⟨%f2, %hf2, H2⟩, Hk⟩
  obtain rfl := harg2.eq_unread hf0
  obtain rfl := harg3.eq_unread hf1
  obtain rfl := harg4.eq_unread hf2
  sl_exec (disch := first | exact hc1 | exact hc2)
  sl_step
  iapply Hk
  have hx := load_whole (F := F) rfl arg2 harg2 x0 _ zero3 inb_S1x10000x3_S1x10000x3_0_0_0
  have h1 := load_whole (F := F) rfl arg3 harg3 d1 _ zero3 inb_S1x1x3_S1x1x3_0_0_0
  have h2 := load_whole (F := F) rfl arg4 harg4 d2 _ zero3 inb_S1x1x3_S1x1x3_0_0_0
  isplitl [H0]
  · iexists _; isplitr; · ipureintro; exact harg2.read_unread _
    iexact H0
  isplitl [H1]
  · iexists _; isplitr; swap; · iexact H1
    ipureintro; rw [store_whole arg3 _ _ zero3, hx, h1]
  · iexists _; isplitr; swap; · iexact H2
    ipureintro; rw [store_whole arg4 _ _ zero3, hx, h2]

end Cert.Kernel.Hist0

end
-- ==== Proof.BK0Dat.lean ====
/-
  The first kernel's proof data: what each window's staging buffer holds after the body at every grid point, and the
  body's obligation at a generic point.

  Point t = 10·b + k is chunk k of batch b. The chunk window's buffer holds the chunk (rows 10000·k … of batch b) at
  every point. The two result windows address block b at all ten points of the batch and are written back after the
  last one, so between the points of one batch their buffers carry the running rows: after chunk 0 the chunk's own least
  / greatest values, after chunk k > 0 the minimum / maximum of the carried row with chunk k's.
-/
import proofs.«151321_j58205396795680_2_alg».proof.Proof.Gen.Kernel.Launch
import proofs.«151321_j58205396795680_2_alg».proof.Proof.Gen.Kernel.Skeleton
import proofs.«151321_j58205396795680_2_alg».proof.Proof.Gen.Kernel.Points
import proofs.«151321_j58205396795680_2_alg».proof.Proof.BK0Run
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hist0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The unscoped buffers of a core as the region finds them. -/
abbrev Vals (F : FTy → Type) : Type := (c : Dev nD) → (b : Ref sig .tc) → Buf (Elt F) ((c : Thread nD τ).loc b)

variable (V : Vals F)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two result windows are live at every point: one of the two branches is always taken. -/
theorem live1 : ∀ i : grid0.Coords, idle0 1 i = false := by decide +kernel
theorem live2 : ∀ i : grid0.Coords, idle0 2 i = false := by decide +kernel
theorem live1c : ∀ i : cfg0.grid.Coords, cfg0.idle 1 i = false := fun i => live1 i
theorem live2c : ∀ i : cfg0.grid.Coords, cfg0.idle 2 i = false := fun i => live2 i

/-- THE RUNNING ROWS: what the two result buffers hold after the body at position `n`. -/
def accAt (c : Dev nD) : (n : ℕ) → n < cfg0.N → Vec F S1x1x3 .f32 × Vec F S1x1x3 .f32
  | 0, hn => (k0_pay4 (iblk V c 0 ⟨0, hn⟩), k0_pay5 (iblk V c 0 ⟨0, hn⟩))
  | n + 1, hn =>
    if (n + 1) % 10 = 0 then (k0_pay4 (iblk V c 0 ⟨n + 1, hn⟩), k0_pay5 (iblk V c 0 ⟨n + 1, hn⟩))
    else (k0_pay6 (iblk V c 0 ⟨n + 1, hn⟩) (accAt c n (Nat.lt_of_succ_lt hn)).1, k0_pay7 (iblk V c 0 ⟨n + 1, hn⟩) (accAt c n (Nat.lt_of_succ_lt hn)).2)

/-- At a batch's first chunk: the chunk's own rows. -/
theorem accAt_first (c : Dev nD) (t : Fin cfg0.N) (h0 : t.val % 10 = 0) :
    accAt V c t.val t.isLt = (k0_pay4 (iblk V c 0 t), k0_pay5 (iblk V c 0 t)) := by
  obtain ⟨n, hn⟩ := t
  cases n with
  | zero => rfl
  | succ n => exact if_pos h0

/-- At a later chunk: the carried rows combined with the chunk's. -/
theorem accAt_later (c : Dev nD) (t : Fin cfg0.N) (h0 : ¬ t.val % 10 = 0) :
    accAt V c t.val t.isLt = (k0_pay6 (iblk V c 0 t) (accAt V c (t.val - 1) (Nat.lt_of_le_of_lt (Nat.sub_le _ _) t.isLt)).1,
      k0_pay7 (iblk V c 0 t) (accAt V c (t.val - 1) (Nat.lt_of_le_of_lt (Nat.sub_le _ _) t.isLt)).2) := by
  obtain ⟨n, hn⟩ := t
  cases n with
  | zero => exact absurd (Nat.zero_mod _) h0
  | succ n => exact if_neg h0

/-- The proof data on core `c`: the arrays as the region finds them; after the body the chunk window's buffer at its
    block and the result windows' at the running rows; the invariant the scoped buffers the region does not stage and the generator register;
    nothing owed; full shares. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => (accAt V c t.val t.isLt).1
    | ⟨2, _⟩ => (accAt V c t.val t.isLt).2
  Φ _ := Pipeline.ΦA spec0 c
  q _ := fullShare
  owed _ := 0

theorem A_eq (c : Dev nD) (w : Fin cfg0.W) : (dats V c).A w = V c (Pipeline.arrRef spec0 w) := by dsimp only [dats]
theorem after_0 (c : Dev nD) (t : Fin cfg0.N) : (dats V c).after 0 t = iblk V c 0 t := by dsimp only [dats]
theorem after_1 (c : Dev nD) (t : Fin cfg0.N) : (dats V c).after 1 t = (accAt V c t.val t.isLt).1 := by dsimp only [dats]
theorem after_2 (c : Dev nD) (t : Fin cfg0.N) : (dats V c).after 2 t = (accAt V c t.val t.isLt).2 := by dsimp only [dats]

/-- The chunk window's buffer holds the chunk at every point. -/
theorem before_0 (c : Dev nD) (t : Fin cfg0.N) (d) : (dats V c).before 0 t d = iblk V c 0 t :=
  ((dats V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- At a later chunk the result buffers hold what the chunk before left: no write-back lies between. -/
theorem before_1 (c : Dev nD) (t : Fin cfg0.N) (h0 : ¬ t.val % 10 = 0) (d) :
    (dats V c).before 1 t d = (accAt V c (t.val - 1) (Nat.lt_of_le_of_lt (Nat.sub_le _ _) t.isLt)).1 := by
  rw [Dat.before_out_kept _ 1 rfl t (by omega) (Bool.eq_false_iff.mpr fun h => by have := (flush0_1 _).mp h; dsimp only at this; omega)
    live1c (fun _ _ => rfl)]
  dsimp only [dats]
theorem before_2 (c : Dev nD) (t : Fin cfg0.N) (h0 : ¬ t.val % 10 = 0) (d) :
    (dats V c).before 2 t d = (accAt V c (t.val - 1) (Nat.lt_of_le_of_lt (Nat.sub_le _ _) t.isLt)).2 := by
  rw [Dat.before_out_kept _ 2 rfl t (by omega) (Bool.eq_false_iff.mpr fun h => by have := (flush0_2 _).mp h; dsimp only at this; omega)
    live2c (fun _ _ => rfl)]
  dsimp only [dats]

/-- What the body is called with at point `t`, the windows one by one, -/
def bodyPre (c : Dev nD) (t : Fin cfg0.N) : sProp 𝕄 :=
  iprop((dats V c).Φ t.castSucc ∗ (dats V c).owesAt () t.castSucc
    ∗ (∃ d, owns (c : Thread nD τ) (st0_0 t) fullShare ((dats V c).before 0 t d))
    ∗ (∃ d, owns (c : Thread nD τ) (st0_1 t) fullShare ((dats V c).before 1 t d))
    ∗ (∃ d, owns (c : Thread nD τ) (st0_2 t) fullShare ((dats V c).before 2 t d)))

/-- and what it returns. -/
def bodyPost (c : Dev nD) (t : Fin cfg0.N) : sProp 𝕄 :=
  iprop((dats V c).Φ t.succ ∗ (dats V c).owesAt () t.succ
    ∗ owns (c : Thread nD τ) (st0_0 t) fullShare ((dats V c).after 0 t)
    ∗ owns (c : Thread nD τ) (st0_1 t) fullShare ((dats V c).after 1 t)
    ∗ owns (c : Thread nD τ) (st0_2 t) fullShare ((dats V c).after 2 t))

set_option maxHeartbeats 800000 in
/-- The body at any point: the chunk's buffer holds the chunk; by the chunk index the point is a batch's first chunk or a
    later one, where the result buffers hold the carried rows; the matching run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dats V c).Φ t.succ = (dats V c).Φ t.castSucc from rfl,
    show (dats V c).owesAt () t.succ = (dats V c).owesAt () t.castSucc from rfl,
    after_0, after_1, after_2]
  by_cases h0 : t.val % 10 = 0
  · rw [accAt_first V c t h0]
    iintro ⟨HΦ, Ho, ⟨%d0, H0⟩, ⟨%d1, H1⟩, ⟨%d2, H2⟩⟩
    iapply (run_first c (grid0.coords t) _ _ _ _ _ _ ((hcond1 t).mpr h0) (fun h => ((hcond2 t).mp h) h0) (iblk V c 0 t) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later V c t h0]
    simp only [before_1 V c t h0, before_2 V c t h0]
    iintro ⟨HΦ, Ho, ⟨%d0, H0⟩, ⟨%d1, H1⟩, ⟨%d2, H2⟩⟩
    iapply (run_later c (grid0.coords t) _ _ _ _ _ _ (fun h => h0 ((hcond1 t).mp h)) ((hcond2 t).mpr h0) (iblk V c 0 t) _ _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) V c) (defs₀ (F := F)) Variants.none () Set.univ := fun t => by
  rw [bigSep_W0, bigSep_W0]
  have e1 : cfg0.idle 1 (cfg0.grid.coords t) = false := live1c _
  have e2 : cfg0.idle 2 (cfg0.grid.coords t) = false := live2c _
  rw [e1]; try rw [e2]
  exact sound_body V c t

end Cert.Kernel.Hist0

end
-- ==== Proof.BK1Runs.lean ====
import proofs.«151321_j58205396795680_2_alg».proof.Proof.Gen.Kernel.Launch
import proofs.«151321_j58205396795680_2_alg».proof.Proof.Gen.Kernel.Skeleton
import proofs.«151321_j58205396795680_2_alg».proof.Proof.Gen.Kernel.Points
import Idealize.ShloMosaic.Lib.Pipeline.FrameBody
import Idealize.ShloMosaic.Lib.Tactic
import Idealize.ShloMosaic.Lib.Pipeline.Value

set_option maxRecDepth 16384

noncomputable section

namespace Cert.Kernel.Hist1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body: what its three runs share

The second kernel's body accumulates a per-chunk histogram into a scratch row. Its two conditionals
test the chunk coordinate only: the first (zero the scratch) holds at chunk 0, the second (divide,
multiply by the weights, add the bias, store the output) at chunk 19. Here: the first condition as
a proposition over the grid coordinates, both conditions in closed form over the grid, and the
three pure facts that turn what a run leaves (a load through the whole-shape rectangle, a list of
whole-shape stores) into the contents themselves. -/

/-- The condition of the body's first conditional (zero the scratch), from the grid coordinates: the
    scalar chain of the printed part substituted. -/
abbrev k1_first (i : grid1.Coords) : Prop :=
  (Scalar.cmpi .ne (Scalar.extui (Scalar.cmpi .eq (BitVec.ofNat 32 (i 1).val) 0#32)) 0#32) = 1#1

/-- The first condition holds exactly at the first chunk of each batch row — decided over the grid. -/
theorem hfirst : ∀ t : Fin cfg1.N, k1_first (grid1.coords t) ↔ t.val % 20 = 0 :=
  (by decide +kernel : ∀ t : Fin grid1.N, k1_first (grid1.coords t) ↔ t.val % 20 = 0)

/-- The second condition holds exactly at the last chunk of each batch row — decided over the grid. -/
theorem hlast : ∀ t : Fin cfg1.N, k1_cond2 (grid1.coords t) = 1#1 ↔ t.val % 20 = 19 :=
  (by decide +kernel : ∀ t : Fin grid1.N, k1_cond2 (grid1.coords t) = 1#1 ↔ t.val % 20 = 19)

/-- No point meets both conditions. -/
theorem not_last_of_first (t : Fin cfg1.N) (h : k1_first (grid1.coords t)) : ¬k1_cond2 (grid1.coords t) = 1#1 := fun h2 => by
  have a := (hfirst t).mp h; have b := (hlast t).mp h2; omega

/-- The scratch accumulator (one row of 64 bins), as the pipeline passes it to the body: the whole buffer. -/
abbrev scr : Memref sig .tc .vmem S1x64 .f32 := Memref.whole cc1_scratch0

section pure
variable {Val : EltTy → Type} {sg : RefSig} {κ : Kind} {sp : Space} {S : Shape} {e : EltTy}

/-- A load through the whole-shape rectangle at zero offsets, of a whole memref held at the raw
    contents of `X`, reads `X`. -/
theorem readAt_whole_unread (m : Memref sg κ sp S e) (h : m.IsWhole) (X : S.Idx → Val e)
    {off : Fin S.rank → ℕ} (ho : off = fun _ => 0) (inb : ∀ a, off a + S.size a ≤ S.size a) :
    View.readAt Val m.view (Rect.unit off S.size inb).toLoadRect (h.unread X) = X := by
  rw [View.readAt_eq_ld, h.read_unread]; exact View.ld_unit_zero ho inb X

/-- After a list of stores whose LAST is through the whole-shape rectangle at zero offsets, the view
    reads that store's payload, whatever was there before. -/
theorem read_writes_cons_unit_zero [∀ e, Nonempty (Val e)] (v : View sg κ sp S e) (f : v.ty.Contents Val)
    {off : Fin S.rank → ℕ} (ho : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero ho inb y⟩)]
  exact View.canon_cons_unit_zero ho inb w L

end pure

/-- The zero offsets of the rank-1, rank-2 and rank-3 whole-shape rectangles, as the program spells them. -/
theorem off1 : (![0] : Fin 1 → ℕ) = fun _ => 0 := by funext a; fin_cases a; rfl
theorem off2 : (![0, 0] : Fin 2 → ℕ) = fun _ => 0 := by funext a; fin_cases a <;> rfl
theorem off3 : (![0, 0, 0] : Fin 3 → ℕ) = fun _ => 0 := by funext a; fin_cases a <;> rfl

end Cert.Kernel.Hist1

end
-- ==== Proof.BK1RunFirst.lean ====
import proofs.«151321_j58205396795680_2_alg».proof.Proof.BK1Runs

set_option maxRecDepth 16384

noncomputable section

namespace Cert.Kernel.Hist1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body at the FIRST chunk of a batch row

The scratch row is zeroed, the chunk's one-hot rows are summed over the points and added to it;
the weights, the bias and the output are not touched. -/

set_option maxHeartbeats 1000000 in
/-- THE FIRST CHUNK (the first condition holds, the second does not). On whole memrefs — the
    points', the minima's and the maxima's at their contents, the scratch at anything — the body runs
    to the continuation holding the three inputs as they were and the scratch at the chunk's column
    sums added to zero, `k1_pay1 (k1_pay4 x0 x1 x2) k1_pay3`: the load that follows the zeroing
    store reads the stored zeros back. -/
theorem run_first (c : Dev nD) (i : grid1.Coords) (arg2 : Memref sig .tc .vmem S1x5000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S40x64 .f32) (harg5 : arg5.IsWhole) (arg6 : Memref sig .tc .vmem S40 .f32) (harg6 : arg6.IsWhole) (arg7 : Memref sig .tc .vmem S1x1x40 .f32) (harg7 : arg7.IsWhole) (hf : k1_first i) (hl : ¬k1_cond2 i = 1#1)
    (x0 : Vec F S1x5000x3 .f32) (x1 x2 : Vec F S1x1x3 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ s, owns (c : Thread nD τ) scr fullShare s)
        ∗ (iprop(owns (c : Thread nD τ) arg2 fullShare x0 ∗ owns (c : Thread nD τ) arg3 fullShare x1 ∗ owns (c : Thread nD τ) arg4 fullShare x2
            ∗ owns (c : Thread nD τ) scr fullShare (k1_pay1 (k1_pay4 x0 x1 x2) (k1_pay3 (F := F)))) -∗ K ⟨⟩))
      ⊢ wp frame (wpE (defs₀ (F := F)) Variants.none c none) E (cc1__hist_kernel i arg2 harg2 arg3 harg3 arg4 harg4 arg5 harg5 arg6 harg6 arg7 harg7 scr (Memref.isWhole_whole _)) K := by
  simp only [cc1__hist_kernel_eq_skeleton]; unfold cc1__hist_kernel_skel
  simp only [k1_part1_eq_skeleton]; unfold k1_part1_skel
  unfold owns
  iintro ⟨⟨%f0, %hf0, H0⟩, ⟨%f1, %hf1, H1⟩, ⟨%f2, %hf2, H2⟩, ⟨%s, %f6, -, H6⟩, Hk⟩
  obtain rfl := harg2.eq_unread hf0; obtain rfl := harg3.eq_unread hf1; obtain rfl := harg4.eq_unread hf2
  have e0 := readAt_whole_unread (Val := Elt F) arg2 harg2 x0 off3 inb_S1x5000x3_S1x5000x3_0_0_0
  have e1 := readAt_whole_unread (Val := Elt F) arg3 harg3 x1 off3 inb_S1x1x3_S1x1x3_0_0_0
  have e2 := readAt_whole_unread (Val := Elt F) arg4 harg4 x2 off3 inb_S1x1x3_S1x1x3_0_0_0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H6
  ipureintro
  refine (read_writes_cons_unit_zero _ _ off2 _ _ _).trans ?_
  sl_unfold_run_names
  dsimp only
  rw [View.readCov_unit_zero _ off2]

end Cert.Kernel.Hist1

end
-- ==== Proof.BK1RunMid.lean ====
import proofs.«151321_j58205396795680_2_alg».proof.Proof.BK1RunFirst

set_option maxRecDepth 16384

noncomputable section

namespace Cert.Kernel.Hist1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body at a MIDDLE chunk of a batch row

The chunk's one-hot rows are summed over the points and added to the scratch row; nothing else is
touched. -/

set_option maxHeartbeats 1000000 in
/-- A MIDDLE CHUNK (neither condition holds). On whole memrefs — the points', the minima's and the
    maxima's at their contents, the scratch at `s` — the body runs to the continuation holding the
    three inputs as they were and the scratch at the chunk's column sums added to `s`. -/
theorem run_mid (c : Dev nD) (i : grid1.Coords) (arg2 : Memref sig .tc .vmem S1x5000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S40x64 .f32) (harg5 : arg5.IsWhole) (arg6 : Memref sig .tc .vmem S40 .f32) (harg6 : arg6.IsWhole) (arg7 : Memref sig .tc .vmem S1x1x40 .f32) (harg7 : arg7.IsWhole) (hf : ¬k1_first i) (hl : ¬k1_cond2 i = 1#1)
    (x0 : Vec F S1x5000x3 .f32) (x1 x2 : Vec F S1x1x3 .f32) (s : Vec F S1x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) scr fullShare s
        ∗ (iprop(owns (c : Thread nD τ) arg2 fullShare x0 ∗ owns (c : Thread nD τ) arg3 fullShare x1 ∗ owns (c : Thread nD τ) arg4 fullShare x2
            ∗ owns (c : Thread nD τ) scr fullShare (k1_pay1 (k1_pay4 x0 x1 x2) s)) -∗ K ⟨⟩))
      ⊢ wp frame (wpE (defs₀ (F := F)) Variants.none c none) E (cc1__hist_kernel i arg2 harg2 arg3 harg3 arg4 harg4 arg5 harg5 arg6 harg6 arg7 harg7 scr (Memref.isWhole_whole _)) K := by
  have hs : (scr).IsWhole := Memref.isWhole_whole _
  simp only [cc1__hist_kernel_eq_skeleton]; unfold cc1__hist_kernel_skel
  simp only [k1_part1_eq_skeleton]; unfold k1_part1_skel
  unfold owns
  iintro ⟨⟨%f0, %hf0, H0⟩, ⟨%f1, %hf1, H1⟩, ⟨%f2, %hf2, H2⟩, ⟨%f6, %hf6, H6⟩, Hk⟩
  obtain rfl := harg2.eq_unread hf0; obtain rfl := harg3.eq_unread hf1; obtain rfl := harg4.eq_unread hf2
  obtain rfl := hs.eq_unread hf6
  have e0 := readAt_whole_unread (Val := Elt F) arg2 harg2 x0 off3 inb_S1x5000x3_S1x5000x3_0_0_0
  have e1 := readAt_whole_unread (Val := Elt F) arg3 harg3 x1 off3 inb_S1x1x3_S1x1x3_0_0_0
  have e2 := readAt_whole_unread (Val := Elt F) arg4 harg4 x2 off3 inb_S1x1x3_S1x1x3_0_0_0
  have e6 := readAt_whole_unread (Val := Elt F) scr hs s off2 inb_S1x64_S1x64_0_0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H6
  ipureintro
  exact read_writes_cons_unit_zero _ _ off2 _ _ _

end Cert.Kernel.Hist1

end
-- ==== Proof.BK1RunLast.lean ====
import proofs.«151321_j58205396795680_2_alg».proof.Proof.BK1RunMid

set_option maxRecDepth 16384

noncomputable section

namespace Cert.Kernel.Hist1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body at the LAST chunk of a batch row

The chunk's one-hot rows are summed over the points and added to the scratch row; then the row is
read back, divided by the number of points, multiplied by the transposed weights, the bias is added
and the result is stored over the whole output block. -/

set_option maxHeartbeats 1000000 in
/-- THE LAST CHUNK (the first condition fails, the second holds). On whole memrefs — the five inputs'
    at their contents, the scratch at `s`, the output's at anything — the body runs to the
    continuation holding the inputs as they were, the scratch at `s' = k1_pay1 (k1_pay4 x0 x1 x2) s`
    and the output written whole with `k1_pay2 s' x3 x4`: the load that follows the accumulating
    store reads the stored row back. -/
theorem run_last (c : Dev nD) (i : grid1.Coords) (arg2 : Memref sig .tc .vmem S1x5000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S40x64 .f32) (harg5 : arg5.IsWhole) (arg6 : Memref sig .tc .vmem S40 .f32) (harg6 : arg6.IsWhole) (arg7 : Memref sig .tc .vmem S1x1x40 .f32) (harg7 : arg7.IsWhole) (hf : ¬k1_first i) (hl : k1_cond2 i = 1#1)
    (x0 : Vec F S1x5000x3 .f32) (x1 x2 : Vec F S1x1x3 .f32) (x3 : Vec F S40x64 .f32) (x4 : Vec F S40 .f32) (s : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) scr fullShare s
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) scr fullShare (k1_pay1 (k1_pay4 x0 x1 x2) s)
            ∗ owns (c : Thread nD τ) arg5 fullShare x3 ∗ owns (c : Thread nD τ) arg6 fullShare x4
            ∗ owns (c : Thread nD τ) arg7 fullShare (k1_pay2 (k1_pay1 (k1_pay4 x0 x1 x2) s) x3 x4)) -∗ K ⟨⟩))
      ⊢ wp frame (wpE (defs₀ (F := F)) Variants.none c none) E (cc1__hist_kernel i arg2 harg2 arg3 harg3 arg4 harg4 arg5 harg5 arg6 harg6 arg7 harg7 scr (Memref.isWhole_whole _)) K := by
  have hs : (scr).IsWhole := Memref.isWhole_whole _
  simp only [cc1__hist_kernel_eq_skeleton]; unfold cc1__hist_kernel_skel
  simp only [k1_part1_eq_skeleton]; unfold k1_part1_skel
  unfold owns
  iintro ⟨⟨%f0, %hf0, H0⟩, ⟨%f1, %hf1, H1⟩, ⟨%f2, %hf2, H2⟩, ⟨%f6, %hf6, H6⟩, ⟨%f3, %hf3, H3⟩, ⟨%f4, %hf4, H4⟩, ⟨%d, %f5, -, H5⟩, Hk⟩
  obtain rfl := harg2.eq_unread hf0; obtain rfl := harg3.eq_unread hf1; obtain rfl := harg4.eq_unread hf2
  obtain rfl := hs.eq_unread hf6
  obtain rfl := harg5.eq_unread hf3; obtain rfl := harg6.eq_unread hf4
  have e0 := readAt_whole_unread (Val := Elt F) arg2 harg2 x0 off3 inb_S1x5000x3_S1x5000x3_0_0_0
  have e1 := readAt_whole_unread (Val := Elt F) arg3 harg3 x1 off3 inb_S1x1x3_S1x1x3_0_0_0
  have e2 := readAt_whole_unread (Val := Elt F) arg4 harg4 x2 off3 inb_S1x1x3_S1x1x3_0_0_0
  have e6 := readAt_whole_unread (Val := Elt F) scr hs s off2 inb_S1x64_S1x64_0_0
  have e3 := readAt_whole_unread (Val := Elt F) arg5 harg5 x3 off2 inb_S40x64_S40x64_0_0
  have e4 := readAt_whole_unread (Val := Elt F) arg6 harg6 x4 off1 inb_S40_S40_0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr; swap; · iexact H6
    ipureintro
    exact read_writes_cons_unit_zero _ _ off2 _ _ _
  isplitl [H3]
  · iexists _; isplitr; · ipureintro; exact harg5.read_unread _
    iexact H3
  isplitl [H4]
  · iexists _; isplitr; · ipureintro; exact harg6.read_unread _
    iexact H4
  iexists _; isplitr; swap; · iexact H5
  ipureintro
  refine (read_writes_cons_unit_zero _ _ off3 _ _ _).trans ?_
  sl_unfold_run_names
  dsimp only
  rw [View.readCov_unit_zero _ off2]

end Cert.Kernel.Hist1

end
-- ==== Proof.BK1Run.lean ====
import proofs.«151321_j58205396795680_2_alg».proof.Proof.BK1RunLast

/-! # Region 1's body runs

The triple of the second kernel's body in each of its three control cases — the first chunk of a
batch row (`Cert.Kernel.Hist1.run_first`), a middle chunk (`run_mid`), the last chunk
(`run_last`) —, the two conditions in closed form over the grid (`hfirst`, `hlast`) and the
scratch memref (`scr`): this module only gathers them. -/
-- ==== Proof.BK1Dat.lean ====
/-
  The second kernel's proof data: what each window's staging buffer and the scratch row hold after the body at every grid
  point, and the body's obligation at a generic point.

  Point t = 20·b + k is chunk k of batch b. The five input windows (the chunk of 5000 points, the batch's least and
  greatest rows, the weights, the bias) hold their blocks at every point. The scratch row is a scoped buffer the region
  finds at contents nobody chose; chunk 0 of every batch overwrites it with zero before adding, so after position n it
  holds the counts of the chunks of n's batch up to n — stated by recursion on the position. The result window addresses
  block b at all twenty points of batch b, is stored into only at the batch's last chunk and written back there; at the
  other points the body leaves its buffer as it found it.
-/
import proofs.«151321_j58205396795680_2_alg».proof.Proof.Gen.Kernel.Launch
import proofs.«151321_j58205396795680_2_alg».proof.Proof.Gen.Kernel.Skeleton
import proofs.«151321_j58205396795680_2_alg».proof.Proof.Gen.Kernel.Points
import proofs.«151321_j58205396795680_2_alg».proof.Proof.BK0Dat
import proofs.«151321_j58205396795680_2_alg».proof.Proof.BK1Run
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hist1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Hist0 (Vals)

variable (V : Vals F)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The chunk's points against the 64 voxels: row r, column f is 1 when point r falls in voxel f. -/
abbrev hits (c : Dev nD) (t : Fin cfg1.N) : FVec F S5000x64 .f32 := k1_pay4 (iblk V c 0 t) (iblk V c 1 t) (iblk V c 2 t)

/-- THE RUNNING COUNTS: what the scratch row holds after the body at position `n`. -/
def cntAt (c : Dev nD) : (n : ℕ) → n < cfg1.N → Vec F S1x64 .f32
  | 0, hn => k1_pay1 (hits V c ⟨0, hn⟩) (k1_pay3 (F := F))
  | n + 1, hn =>
    if (n + 1) % 20 = 0 then k1_pay1 (hits V c ⟨n + 1, hn⟩) (k1_pay3 (F := F))
    else k1_pay1 (hits V c ⟨n + 1, hn⟩) (cntAt c n (Nat.lt_of_succ_lt hn))

theorem cntAt_first (c : Dev nD) (t : Fin cfg1.N) (h0 : t.val % 20 = 0) :
    cntAt V c t.val t.isLt = k1_pay1 (hits V c t) (k1_pay3 (F := F)) := by
  obtain ⟨n, hn⟩ := t
  cases n with
  | zero => rfl
  | succ n => exact if_pos h0

theorem cntAt_later (c : Dev nD) (t : Fin cfg1.N) (h0 : ¬ t.val % 20 = 0) :
    cntAt V c t.val t.isLt = k1_pay1 (hits V c t) (cntAt V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers that are neither a staging buffer of this region nor the scratch row, each whole at some
    contents: the first region's six staging buffers. -/
def rest6 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant with the scratch row at `s`. -/
def PhiAt (c : Dev nD) (s : Vec F S1x64 .f32) : sProp 𝕄 :=
  iprop(rest6 (F := F) c ∗ owns (c : Thread nD τ) scr fullShare s ∗ ∃ r, prngReg c r)

/-- The class's invariant, its scoped buffers listed: the six beside the scratch row at some contents. -/
theorem PhiA_open (c : Dev nD) :
    (Pipeline.ΦA (U := UR sig nD τ) (Val := Elt F) spec1 c : sProp 𝕄) ⊢ iprop(rest6 (F := F) c ∗ (∃ f : Buf (Elt F) ((c : Thread nD τ).loc cc1_scratch0), ((c : Thread nD τ).loc cc1_scratch0) ↦{fullShare} f) ∗ ∃ r, prngReg c r) := by
  unfold Pipeline.ΦA rest6
  rw [scopedRest1_eq]
  iintro ⟨⟨H1, H2, H3, H4, H5, H6, Hs⟩, Hp⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [Hs]; · iexact Hs
  iexact Hp
theorem PhiA_close (c : Dev nD) :
    (iprop(rest6 (F := F) c ∗ (∃ f : Buf (Elt F) ((c : Thread nD τ).loc cc1_scratch0), ((c : Thread nD τ).loc cc1_scratch0) ↦{fullShare} f) ∗ ∃ r, prngReg c r) : sProp 𝕄) ⊢ Pipeline.ΦA (U := UR sig nD τ) (Val := Elt F) spec1 c := by
  unfold Pipeline.ΦA rest6
  rw [scopedRest1_eq]
  iintro ⟨⟨H1, H2, H3, H4, H5, H6⟩, Hs, Hp⟩
  isplitr [Hp]
  · isplitl [H1]; · iexact H1
    isplitl [H2]; · iexact H2
    isplitl [H3]; · iexact H3
    isplitl [H4]; · iexact H4
    isplitl [H5]; · iexact H5
    isplitl [H6]; · iexact H6
    iexact Hs
  iexact Hp

/-- THE INVARIANT before position `n`: at the region's entry the scratch row holds anything; after position `n` the
    running counts. -/
def Phi (c : Dev nD) : ℕ → sProp 𝕄
  | 0 => Pipeline.ΦA spec1 c
  | n + 1 => if h : n < cfg1.N then PhiAt (F := F) c (cntAt V c n h) else Pipeline.ΦA spec1 c

theorem Phi_succ (c : Dev nD) (t : Fin cfg1.N) : Phi V c (t.val + 1) = PhiAt (F := F) c (cntAt V c t.val t.isLt) := dif_pos t.isLt

theorem Phi_pos (c : Dev nD) (t : Fin cfg1.N) (h0 : t.val ≠ 0) :
    Phi V c t.val = PhiAt (F := F) c (cntAt V c (t.val - 1) (Nat.lt_of_le_of_lt (Nat.sub_le _ _) t.isLt)) := by
  obtain ⟨n, hn⟩ := t
  cases n with
  | zero => exact absurd rfl h0
  | succ n => exact dif_pos (Nat.lt_of_succ_lt hn)

/-- The scratch row held at a value is the scratch row held at some contents, and back. -/
theorem scr_forget (c : Dev nD) (s : Vec F S1x64 .f32) :
    (owns (c : Thread nD τ) scr fullShare s : sProp 𝕄) ⊢ iprop(∃ f : Buf (Elt F) ((c : Thread nD τ).loc cc1_scratch0), ((c : Thread nD τ).loc cc1_scratch0) ↦{fullShare} f) := by
  unfold scr; rw [owns_whole_eq]
  iintro ⟨%f, -, Hs⟩
  iexists f; iexact Hs
theorem scr_some (c : Dev nD) (f : Buf (Elt F) ((c : Thread nD τ).loc cc1_scratch0)) :
    ((((c : Thread nD τ).loc cc1_scratch0) ↦{fullShare} f) : sProp 𝕄) ⊢ iprop(∃ s, owns (c : Thread nD τ) scr fullShare s) := by
  iintro Hs
  iexists f
  unfold scr; rw [owns_whole_eq]
  iexists f; isplitr; · ipureintro; rfl
  iexact Hs

/-- Whatever the position, the invariant holds the scratch row at SOME contents. -/
theorem Phi_some (c : Dev nD) (n : ℕ) :
    Phi V c n ⊢ (iprop(rest6 (F := F) c ∗ (∃ s, owns (c : Thread nD τ) scr fullShare s) ∗ ∃ r, prngReg c r) : sProp 𝕄) := by
  have hA : (Pipeline.ΦA (U := UR sig nD τ) (Val := Elt F) spec1 c : sProp 𝕄) ⊢ iprop(rest6 (F := F) c ∗ (∃ s, owns (c : Thread nD τ) scr fullShare s) ∗ ∃ r, prngReg c r) := by
    refine (PhiA_open (F := F) c).trans ?_
    iintro ⟨Hr, ⟨%f, Hs⟩, Hp⟩
    isplitl [Hr]; · iexact Hr
    isplitl [Hs]
    · iapply (scr_some (F := F) c f); iexact Hs
    iexact Hp
  have hP : ∀ s, (PhiAt (F := F) c s : sProp 𝕄) ⊢ iprop(rest6 (F := F) c ∗ (∃ s, owns (c : Thread nD τ) scr fullShare s) ∗ ∃ r, prngReg c r) := fun s => by
    unfold PhiAt
    iintro ⟨Hr, Hs, Hp⟩
    isplitl [Hr]; · iexact Hr
    isplitl [Hs]; · iexists s; iexact Hs
    iexact Hp
  cases n with
  | zero => exact hA
  | succ n =>
    show (if h : n < cfg1.N then PhiAt (F := F) c (cntAt V c n h) else Pipeline.ΦA spec1 c) ⊢ _
    by_cases h : n < cfg1.N
    · rw [dif_pos h]; exact hP _
    · rw [dif_neg h]; exact hA

/-- So at any position it gives back the class's invariant: the scratch row forgotten. -/
theorem Phi_to_A (c : Dev nD) (n : ℕ) : Phi V c n ⊢ (Pipeline.ΦA (U := UR sig nD τ) (Val := Elt F) spec1 c : sProp 𝕄) := by
  refine (Phi_some V c n).trans (.trans ?_ (PhiA_close (F := F) c))
  iintro ⟨Hr, ⟨%s, Hs⟩, Hp⟩
  isplitl [Hr]; · iexact Hr
  isplitl [Hs]
  · iapply (scr_forget (F := F) c s); iexact Hs
  iexact Hp

/-- The proof data on core `c`. -/
def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k1_pay2 (cntAt V c t.val t.isLt) (iblk V c 3 t) (iblk V c 4 t)
  Φ t := Phi V c t.val
  q _ := fullShare
  owed _ := 0

theorem A_eq (c : Dev nD) (w : Fin cfg1.W) : (dats V c).A w = V c (Pipeline.arrRef spec1 w) := by dsimp only [dats]
theorem after_0 (c : Dev nD) (t : Fin cfg1.N) : (dats V c).after 0 t = iblk V c 0 t := by dsimp only [dats]
theorem after_1 (c : Dev nD) (t : Fin cfg1.N) : (dats V c).after 1 t = iblk V c 1 t := by dsimp only [dats]
theorem after_2 (c : Dev nD) (t : Fin cfg1.N) : (dats V c).after 2 t = iblk V c 2 t := by dsimp only [dats]
theorem after_3 (c : Dev nD) (t : Fin cfg1.N) : (dats V c).after 3 t = iblk V c 3 t := by dsimp only [dats]
theorem after_4 (c : Dev nD) (t : Fin cfg1.N) : (dats V c).after 4 t = iblk V c 4 t := by dsimp only [dats]
theorem after_5 (c : Dev nD) (t : Fin cfg1.N) :
    (dats V c).after 5 t = k1_pay2 (cntAt V c t.val t.isLt) (iblk V c 3 t) (iblk V c 4 t) := by dsimp only [dats]

/-- Each input window's buffer holds its block at every point, fetched there or not. -/
theorem before_0 (c : Dev nD) (t : Fin cfg1.N) (d) : (dats V c).before 0 t d = iblk V c 0 t :=
  ((dats V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats V c).before 1 t d = iblk V c 1 t :=
  ((dats V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats V c).before 2 t d = iblk V c 2 t :=
  ((dats V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats V c).before 3 t d = iblk V c 3 t :=
  ((dats V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats V c).before 4 t d = iblk V c 4 t :=
  ((dats V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The result window is idle exactly off a batch's last chunk, -/
theorem idle5_of_not_last (t : Fin cfg1.N) (h : ¬ t.val % 20 = 19) : idle1 5 (grid1.coords t) = true := by
  have : ¬ k1_cond2 (grid1.coords t) = 1#1 := fun e => h ((hlast t).mp e)
  show (!(k1_cond2 (grid1.coords t) == 1#1)) = true
  simp [this]
theorem live5_of_last (t : Fin cfg1.N) (h : t.val % 20 = 19) : idle1 5 (grid1.coords t) = false := by
  have : k1_cond2 (grid1.coords t) = 1#1 := (hlast t).mpr h
  show (!(k1_cond2 (grid1.coords t) == 1#1)) = false
  simp [this]
/-- and is not written back there. -/
theorem noflush5 (t : Fin cfg1.N) (h : ¬ t.val % 20 = 19) : (win1 5).flush t = false :=
  Bool.eq_false_iff.mpr fun e => h ((flush1_5 t).mp e)

/-- What the body is called with at point `t`, the windows one by one, -/
def bodyPre (c : Dev nD) (t : Fin cfg1.N) : sProp 𝕄 :=
  iprop((dats V c).Φ t.castSucc ∗ (dats V c).owesAt () t.castSucc
    ∗ (∃ d, owns (c : Thread nD τ) (st1_0 t) fullShare ((dats V c).before 0 t d))
    ∗ (∃ d, owns (c : Thread nD τ) (st1_1 t) fullShare ((dats V c).before 1 t d))
    ∗ (∃ d, owns (c : Thread nD τ) (st1_2 t) fullShare ((dats V c).before 2 t d))
    ∗ (∃ d, owns (c : Thread nD τ) (st1_3 t) fullShare ((dats V c).before 3 t d))
    ∗ (∃ d, owns (c : Thread nD τ) (st1_4 t) fullShare ((dats V c).before 4 t d))
    ∗ (∃ d, owns (c : Thread nD τ) (st1_5 t) fullShare ((dats V c).before 5 t d)))

/-- what it returns off a batch's last chunk (the result buffer as found), -/
def bodyPostIdle (c : Dev nD) (t : Fin cfg1.N) : sProp 𝕄 :=
  iprop((dats V c).Φ t.succ ∗ (dats V c).owesAt () t.succ
    ∗ owns (c : Thread nD τ) (st1_0 t) fullShare ((dats V c).after 0 t)
    ∗ owns (c : Thread nD τ) (st1_1 t) fullShare ((dats V c).after 1 t)
    ∗ owns (c : Thread nD τ) (st1_2 t) fullShare ((dats V c).after 2 t)
    ∗ owns (c : Thread nD τ) (st1_3 t) fullShare ((dats V c).after 3 t)
    ∗ owns (c : Thread nD τ) (st1_4 t) fullShare ((dats V c).after 4 t)
    ∗ (∃ d, owns (c : Thread nD τ) (st1_5 t) fullShare ((dats V c).before 5 t d)))

/-- and at it (the result buffer at the batch's result row). -/
def bodyPostLast (c : Dev nD) (t : Fin cfg1.N) : sProp 𝕄 :=
  iprop((dats V c).Φ t.succ ∗ (dats V c).owesAt () t.succ
    ∗ owns (c : Thread nD τ) (st1_0 t) fullShare ((dats V c).after 0 t)
    ∗ owns (c : Thread nD τ) (st1_1 t) fullShare ((dats V c).after 1 t)
    ∗ owns (c : Thread nD τ) (st1_2 t) fullShare ((dats V c).after 2 t)
    ∗ owns (c : Thread nD τ) (st1_3 t) fullShare ((dats V c).after 3 t)
    ∗ owns (c : Thread nD τ) (st1_4 t) fullShare ((dats V c).after 4 t)
    ∗ owns (c : Thread nD τ) (st1_5 t) fullShare ((dats V c).after 5 t))

set_option maxHeartbeats 1600000 in
/-- The body at a batch's first chunk: the scratch row at anything, left at the chunk's counts. -/
theorem sound_first (c : Dev nD) (t : Fin cfg1.N) (h0 : t.val % 20 = 0) :
    bodyPre V c t ⊢ wp frame (wpE (defs₀ (F := F)) Variants.none c none) Set.univ (bodyAt1 t) (fun _ => bodyPostIdle V c t) := by
  unfold bodyPre bodyPostIdle bodyAt1
  simp only [before_0, before_1, before_2, before_3, before_4]
  rw [show (dats V c).Φ t.succ = Phi V c (t.val + 1) from rfl, Phi_succ, cntAt_first V c t h0,
    show (dats V c).Φ t.castSucc = Phi V c t.val from rfl,
    show (dats V c).owesAt () t.succ = (dats V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩, H5⟩
  ihave HΦ' := (Phi_some V c t.val) $$ HΦ
  icases HΦ' with ⟨Hr, Hs, Hp⟩
  iapply (run_first c (grid1.coords t) _ _ _ _ _ _ _ _ _ _ _ _ ((hfirst t).mpr h0) (fun h => by have := (hlast t).mp h; omega)
    (iblk V c 0 t) (iblk V c 1 t) (iblk V c 2 t) Set.univ _)
  isplitl [H0]; · iexact H0
  isplitl [H1]; · iexact H1
  isplitl [H2]; · iexact H2
  isplitl [Hs]; · iexact Hs
  iintro ⟨H0, H1, H2, Hs⟩
  isplitl [Hr Hs Hp]
  · unfold PhiAt
    isplitl [Hr]; · iexact Hr
    isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at a middle chunk: the scratch row at the running counts, left with the chunk's added. -/
theorem sound_mid (c : Dev nD) (t : Fin cfg1.N) (h0 : ¬ t.val % 20 = 0) (h19 : ¬ t.val % 20 = 19) :
    bodyPre V c t ⊢ wp frame (wpE (defs₀ (F := F)) Variants.none c none) Set.univ (bodyAt1 t) (fun _ => bodyPostIdle V c t) := by
  unfold bodyPre bodyPostIdle bodyAt1
  simp only [before_0, before_1, before_2, before_3, before_4]
  rw [show (dats V c).Φ t.succ = Phi V c (t.val + 1) from rfl, Phi_succ, cntAt_later V c t h0,
    show (dats V c).Φ t.castSucc = Phi V c t.val from rfl, Phi_pos V c t (fun e => h0 (by rw [e])),
    show (dats V c).owesAt () t.succ = (dats V c).owesAt () t.castSucc from rfl,
    after_0, after_1, after_2, after_3, after_4]
  unfold PhiAt
  iintro ⟨⟨Hr, Hs, Hp⟩, Ho, ⟨%d0, H0⟩, ⟨%d1, H1⟩, ⟨%d2, H2⟩, ⟨%d3, H3⟩, ⟨%d4, H4⟩, H5⟩
  iapply (run_mid c (grid1.coords t) _ _ _ _ _ _ _ _ _ _ _ _ (fun h => h0 ((hfirst t).mp h)) (fun h => h19 ((hlast t).mp h))
    (iblk V c 0 t) (iblk V c 1 t) (iblk V c 2 t) _ Set.univ _)
  isplitl [H0]; · iexact H0
  isplitl [H1]; · iexact H1
  isplitl [H2]; · iexact H2
  isplitl [Hs]; · iexact Hs
  iintro ⟨H0, H1, H2, Hs⟩
  isplitl [Hr Hs Hp]
  · isplitl [Hr]; · iexact Hr
    isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at a batch's last chunk: the counts completed, the result row stored. -/
theorem sound_last (c : Dev nD) (t : Fin cfg1.N) (h19 : t.val % 20 = 19) :
    bodyPre V c t ⊢ wp frame (wpE (defs₀ (F := F)) Variants.none c none) Set.univ (bodyAt1 t) (fun _ => bodyPostLast V c t) := by
  have h0 : ¬ t.val % 20 = 0 := by omega
  unfold bodyPre bodyPostLast bodyAt1
  simp only [before_0, before_1, before_2, before_3, before_4]
  rw [show (dats V c).Φ t.succ = Phi V c (t.val + 1) from rfl, Phi_succ,
    show (dats V c).Φ t.castSucc = Phi V c t.val from rfl, Phi_pos V c t (fun e => h0 (by rw [e])),
    show (dats V c).owesAt () t.succ = (dats V c).owesAt () t.castSucc from rfl,
    after_0, after_1, after_2, after_3, after_4, after_5, cntAt_later V c t h0]
  unfold PhiAt
  iintro ⟨⟨Hr, Hs, Hp⟩, Ho, ⟨%d0, H0⟩, ⟨%d1, H1⟩, ⟨%d2, H2⟩, ⟨%d3, H3⟩, ⟨%d4, H4⟩, ⟨%d5, H5⟩⟩
  iapply (run_last c (grid1.coords t) _ _ _ _ _ _ _ _ _ _ _ _ (fun h => h0 ((hfirst t).mp h)) ((hlast t).mpr h19)
    (iblk V c 0 t) (iblk V c 1 t) (iblk V c 2 t) (iblk V c 3 t) (iblk V c 4 t) _ Set.univ _)
  isplitl [H0]; · iexact H0
  isplitl [H1]; · iexact H1
  isplitl [H2]; · iexact H2
  isplitl [Hs]; · iexact Hs
  isplitl [H3]; · iexact H3
  isplitl [H4]; · iexact H4
  isplitl [H5]; · iexists _; iexact H5
  iintro ⟨H0, H1, H2, Hs, H3, H4, H5⟩
  isplitl [Hr Hs Hp]
  · isplitl [Hr]; · iexact Hr
    isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) V c) (defs₀ (F := F)) Variants.none () Set.univ := fun t => by
  rw [bigSep_W1, bigSep_W1]
  by_cases h19 : t.val % 20 = 19
  · have e : cfg1.idle 5 (cfg1.grid.coords t) = false := live5_of_last t h19
    rw [e]
    exact sound_last V c t h19
  · have e : cfg1.idle 5 (cfg1.grid.coords t) = true := idle5_of_not_last t h19
    have ef : (cfg1.win 5).flush t = false := noflush5 t h19
    rw [e, ef]
    by_cases h0 : t.val % 20 = 0
    · exact sound_first V c t h0
    · exact sound_mid V c t h0 h19

end Cert.Kernel.Hist1

end
-- ==== Proof.BRun.lean ====
/-
  The whole run of @main: the first kernel's region, the second's, then the reshape of the result — every unscoped
  buffer's contents at each boundary named, and every final memory holding the last boundary's contents.

  Region 0 is entered at the launch contents and leaves its two result arrays at what its write-backs folded; region 1
  is entered at those, reads them through its second and third windows, and leaves its result array likewise; the host
  operation then writes the reshaped result. Nothing else is written, so each argument array ends as launched.
-/
import proofs.«151321_j58205396795680_2_alg».proof.Proof.Gen.Kernel.Launch
import proofs.«151321_j58205396795680_2_alg».proof.Proof.Gen.Kernel.Skeleton
import proofs.«151321_j58205396795680_2_alg».proof.Proof.Gen.Kernel.Points
import proofs.«151321_j58205396795680_2_alg».proof.Proof.Gen.Kernel.Regions
import proofs.«151321_j58205396795680_2_alg».proof.Proof.BK0Dat
import proofs.«151321_j58205396795680_2_alg».proof.Proof.BK1Dat
import Idealize.ShloMosaic.Lib.Pipeline.Frame
import Idealize.ShloMosaic.Lib.Pipeline.FrameSuffix
import Idealize.ShloMosaic.Lib.Pipeline.RegionsLoop
import Idealize.ShloMosaic.Lib.Pipeline.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Hist0 (Vals)

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
abbrev V0 : Vals F := fun c b => W0 m ρ c b
/-- At region 0's exit: its arrays at what the pipeline leaves, every other buffer as entered. -/
def W1 (c : Dev nD) : Valuation τ sig (Elt F) :=
  Pipeline.withArrays spec0 c (W0 m ρ c) fun w => (Hist0.dats (V0 m ρ) c).arrAt w cfg0.N
theorem W1_arr (c : Dev nD) (w : Fin cfg0.W) :
    W1 m ρ c (Proc.devRef .tc (Pipeline.arrRef spec0 w)) = (Hist0.dats (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : Vals F := fun c b => W1 m ρ c b
theorem hF0 (c : Dev nD) (w : Fin cfg0.W) : (Hist0.dats (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (Hist1.dats (V1 m ρ) c).arrAt w cfg1.N
theorem W2_arr (c : Dev nD) (w : Fin cfg1.W) :
    W2 m ρ c (Proc.devRef .tc (Pipeline.arrRef spec1 w)) = (Hist1.dats (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : Vals F := fun c b => W2 m ρ c b
theorem hF1 (c : Dev nD) (w : Fin cfg1.W) : (Hist1.dats (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape: the end. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Hist0.dats (V0 m ρ) c
  | ⟨1, _⟩ => fun c => Hist1.dats (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Hist0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. The scratch row enters the
    invariant among the scoped buffers at contents nobody chose and is forgotten again at the exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Hist1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Hist1.Phi (V1 m ρ) c cfg1.N from rfl]
    refine (Hist1.Phi_to_A (V1 m ρ) c cfg1.N).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final memory holds, at every unscoped buffer, the last
    boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What the last boundary holds

No item writes an argument: the reshape writes the result only, a region changes only its result windows' arrays, and an
argument a region reads through an input window is handed back as entered. -/

theorem W3_of_not_written (c : Dev nD) (r : Ref sig .tc) (h : r ∉ hostOps2_W) :
    W3 m ρ c (Proc.devRef .tc r) = W2 m ρ c (Proc.devRef .tc r) :=
  StableHlo.after_of_writes_sub hostOps2 _ hostOps2_writes h

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_not_written m ρ c main_arg0 (by decide)
    _ = W1 m ρ c (Proc.devRef .tc main_arg0) := (W2_arr m ρ c 0).trans (((Hist1.dats (V1 m ρ) c).arrAt_in 0 rfl _).trans (Hist1.A_eq (V1 m ρ) c 0))
    _ = W0 m ρ c (Proc.devRef .tc main_arg0) := (W1_arr m ρ c 0).trans (((Hist0.dats (V0 m ρ) c).arrAt_in 0 rfl _).trans (Hist0.A_eq (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_not_written m ρ c main_arg1 (by decide)
    _ = W1 m ρ c (Proc.devRef .tc main_arg1) := (W2_arr m ρ c 3).trans (((Hist1.dats (V1 m ρ) c).arrAt_in 3 rfl _).trans (Hist1.A_eq (V1 m ρ) c 3))
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_not_written m ρ c main_arg2 (by decide)
    _ = W1 m ρ c (Proc.devRef .tc main_arg2) := (W2_arr m ρ c 4).trans (((Hist1.dats (V1 m ρ) c).arrAt_in 4 rfl _).trans (Hist1.A_eq (V1 m ρ) c 4))
    _ = W0 m ρ c (Proc.devRef .tc main_arg2) := W1_of_ne m ρ c main_arg2 (by decide)
    _ = m ((c : Thread nD τ).loc main_arg2) := rfl

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hist

end
-- ==== Proof.KerBlocks0.lean ====
import proofs.«151321_j58205396795680_2_alg».proof.Proof.K0Dat
import Idealize.ShloMosaic.Lib.Pipeline.Value
import Idealize.ShloMosaic.Lib.ValueIdx

set_option maxRecDepth 16384

noncomputable section

namespace Cert.KernelIdeal.HistBlk

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : Hist0.Vals F)

/-! # The first kernel: from blocks to the arrays

Point `t = 10·b + k` of the first kernel's grid is chunk `k` of batch `b`. Its chunk window's block is
rows `10000·k …` of batch `b` of the points array; its two result windows' blocks are row `b` of the
minima and of the maxima, written back after the batch's last chunk (`k = 9`). So each result array
ends holding, row by row, what the running rows are after the batch's last chunk. -/

/-! ## The index maps, decided over the grid -/

/-- The chunk window's block index at point `t`: batch `t / 10`, chunk `t % 10`, all three columns. -/
theorem idx0_0 : ∀ t : Fin cfg0.N, win0_0.index t (0 : Fin 3) = t.val / 10 ∧ win0_0.index t (1 : Fin 3) = t.val % 10
    ∧ win0_0.index t (2 : Fin 3) = 0 :=
  (by decide +kernel : ∀ t : Fin grid0.N, _)

/-- The minima window's block index at point `t`: row `t / 10`. -/
theorem idx0_1 : ∀ t : Fin cfg0.N, win0_1.index t (0 : Fin 3) = t.val / 10 ∧ win0_1.index t (1 : Fin 3) = 0
    ∧ win0_1.index t (2 : Fin 3) = 0 :=
  (by decide +kernel : ∀ t : Fin grid0.N, _)

/-- The maxima window's block index at point `t`: row `t / 10`. -/
theorem idx0_2 : ∀ t : Fin cfg0.N, win0_2.index t (0 : Fin 3) = t.val / 10 ∧ win0_2.index t (1 : Fin 3) = 0
    ∧ win0_2.index t (2 : Fin 3) = 0 :=
  (by decide +kernel : ∀ t : Fin grid0.N, _)

/-- The batch of a point, and the array row of a row of its chunk, are in range. -/
theorem batch0_lt (t : Fin cfg0.N) : t.val / 10 < 64 := by
  have hN : t.val < 640 := lt_of_lt_of_eq t.isLt N_0
  omega
theorem row0_lt (t : Fin cfg0.N) (r : Fin 10000) : (t.val % 10) * 10000 + r.val < 100000 := by
  have := r.isLt; omega
/-- The last chunk of batch `b` is a point of the grid. -/
theorem last0_lt (b : Fin 64) : 10 * b.val + 9 < cfg0.N := by
  have := b.isLt; rw [show cfg0.N = 640 from N_0]; omega

/-! ## The chunk window's block, read -/

/-- Entry `(0, r, cc)` of the chunk at point `t` is entry `(t / 10, 10000·(t % 10) + r, cc)` of the points array. -/
theorem iblk0_0 (c : Dev nD) (t : Fin cfg0.N) (u : Fin 1) (r : Fin 10000) (cc : Fin 3) :
    (Hist0.iblk V c 0 t : S1x10000x3.Idx → Elt F .f32) (ix3 u r cc)
      = (V c main_arg0 : S64x100000x3.Idx → Elt F .f32) (ix3 ⟨t.val / 10, batch0_lt t⟩ ⟨(t.val % 10) * 10000 + r.val, row0_lt t r⟩ cc) := by
  obtain ⟨e0, e1, e2⟩ := idx0_0 t
  unfold Hist0.iblk
  rw [View.read_apply]
  show V c main_arg0 _ = V c main_arg0 _
  congr 1
  funext a
  apply Fin.ext
  have hu := u.isLt
  match a with
  | ⟨0, _⟩ => show win0_0.index t (0 : Fin 3) * 1 + 1 * u.val = t.val / 10; rw [e0]; omega
  | ⟨1, _⟩ => show win0_0.index t (1 : Fin 3) * 10000 + 1 * r.val = (t.val % 10) * 10000 + r.val; rw [e1]; omega
  | ⟨2, _⟩ => show win0_0.index t (2 : Fin 3) * 3 + 1 * cc.val = cc.val; rw [e2]; omega

/-- The running rows do not depend on how the position is spelt. -/
theorem accAt_congr (c : Dev nD) {n n' : ℕ} (e : n = n') (hn : n < cfg0.N) (hn' : n' < cfg0.N) :
    Hist0.accAt V c n hn = Hist0.accAt V c n' hn' := by subst e; rfl

/-! ## The minima' array after the region -/

/-- An index of the minima' array is in point `t`'s block iff each coordinate is in the block's range on its axis. -/
theorem mem_blk0_1 (t : Fin cfg0.N) (i : S64x1x3.Idx) :
    i ∈ ((cfg0.win 1).blk t).view.set ↔ ∀ a : Fin 3, win0_1.index t a * S1x1x3.size a ≤ (i a).val ∧ (i a).val < win0_1.index t a * S1x1x3.size a + S1x1x3.size a := by
  show i ∈ ((View.whole main_v0_0).slice (win0_1.rect t)).set ↔ _
  rw [View.set_slice_whole, Rect.mem_set_unit]
  exact Iff.rfl

/-- WHAT A BATCH'S LAST CHUNK WRITES BACK is row `t / 10` of any array `G` whose rows are the running minima after
    each batch's last chunk. -/
theorem flushed0_1 (c : Dev nD) (G : S64x1x3.Idx → Elt F .f32)
    (hG : ∀ (b : Fin 64) (cc : Fin 3), (Hist0.accAt V c (10 * b.val + 9) (last0_lt b)).1 (ix3 0 0 cc) = G (ix3 b 0 cc))
    (t : Fin cfg0.N) (hf : (cfg0.win 1).flush t = true) :
    (Hist0.dats V c).flushed 1 t = ((cfg0.win 1).blk t).view.read (Elt F) G := by
  have h9 : t.val % 10 = 9 := (flush0_1 t).mp hf
  obtain ⟨e0, e1, e2⟩ := idx0_1 t
  show (cfg0.win 1).cut (grid0.coords t) ((Hist0.dats V c).after 1 t) = _
  rw [Hist0.after_1]
  funext j
  rw [View.read_apply]
  have h0 : (j 0).val < 1 := (j 0).isLt
  have h1 : (j 1).val < 1 := (j 1).isLt
  have hj : ((cfg0.win 1).blk t).view.emb j = (ix3 ⟨t.val / 10, batch0_lt t⟩ 0 (j 2) : S64x1x3.Idx) := by
    funext a; apply Fin.ext
    match a with
    | ⟨0, _⟩ => show win0_1.index t (0 : Fin 3) * 1 + 1 * (j 0).val = t.val / 10; rw [e0]; omega
    | ⟨1, _⟩ => show win0_1.index t (1 : Fin 3) * 1 + 1 * (j 1).val = 0; rw [e1]; omega
    | ⟨2, _⟩ => show win0_1.index t (2 : Fin 3) * 3 + 1 * (j 2).val = (j 2).val; rw [e2]; omega
  have hj' : j = (ix3 0 0 (j 2) : S1x1x3.Idx) := by
    funext a; apply Fin.ext
    match a with
    | ⟨0, _⟩ => show (j 0).val = 0; omega
    | ⟨1, _⟩ => show (j 1).val = 0; omega
    | ⟨2, _⟩ => rfl
  rw [hj, ← hG ⟨t.val / 10, batch0_lt t⟩ (j 2)]
  show (Hist0.accAt V c t.val t.isLt).1 j = _
  rw [accAt_congr V c (show t.val = 10 * (t.val / 10) + 9 by omega) t.isLt (last0_lt ⟨t.val / 10, batch0_lt t⟩)]
  exact congrArg _ hj'

/-- Every row of the minima' array is the block of its batch's last chunk, which is written back. -/
theorem cover0_1 (i : S64x1x3.Idx) : ∃ t : Fin cfg0.N, (cfg0.win 1).flush t = true ∧ i ∈ ((cfg0.win 1).blk t).view.set := by
  have hb : (i 0).val < 64 := (i 0).isLt
  have h1 : (i 1).val < 1 := (i 1).isLt
  have h2 : (i 2).val < 3 := (i 2).isLt
  have hlt : 10 * (i 0).val + 9 < cfg0.N := by rw [show cfg0.N = 640 from N_0]; omega
  obtain ⟨e0, e1, e2⟩ := idx0_1 ⟨10 * (i 0).val + 9, hlt⟩
  dsimp only at e0
  refine ⟨⟨10 * (i 0).val + 9, hlt⟩, (flush0_1 _).mpr (by show (10 * (i 0).val + 9) % 10 = 9; omega), ?_⟩
  rw [mem_blk0_1]
  intro a
  match a with
  | ⟨0, _⟩ => show win0_1.index ⟨10 * (i 0).val + 9, hlt⟩ (0 : Fin 3) * 1 ≤ (i 0).val ∧ (i 0).val < win0_1.index ⟨10 * (i 0).val + 9, hlt⟩ (0 : Fin 3) * 1 + 1; rw [e0]; omega
  | ⟨1, _⟩ => show win0_1.index ⟨10 * (i 0).val + 9, hlt⟩ (1 : Fin 3) * 1 ≤ (i 1).val ∧ (i 1).val < win0_1.index ⟨10 * (i 0).val + 9, hlt⟩ (1 : Fin 3) * 1 + 1; rw [e1]; omega
  | ⟨2, _⟩ => show win0_1.index ⟨10 * (i 0).val + 9, hlt⟩ (2 : Fin 3) * 3 ≤ (i 2).val ∧ (i 2).val < win0_1.index ⟨10 * (i 0).val + 9, hlt⟩ (2 : Fin 3) * 3 + 3; rw [e2]; omega

/-- THE MINIMA' ARRAY after the first region is any `G` whose row `b` is the running minima after batch `b`'s
    last chunk. -/
theorem final0_1 (c : Dev nD) (G : S64x1x3.Idx → Elt F .f32)
    (hG : ∀ (b : Fin 64) (cc : Fin 3), (Hist0.accAt V c (10 * b.val + 9) (last0_lt b)).1 (ix3 0 0 cc) = G (ix3 b 0 cc)) :
    (Hist0.dats V c).arrAt 1 cfg0.N = G :=
  (Hist0.dats V c).arrAt_eq_of_cover 1 G (flushed0_1 V c G hG) cover0_1

/-! ## The maxima' array after the region -/

/-- An index of the maxima' array is in point `t`'s block iff each coordinate is in the block's range on its axis. -/
theorem mem_blk0_2 (t : Fin cfg0.N) (i : S64x1x3.Idx) :
    i ∈ ((cfg0.win 2).blk t).view.set ↔ ∀ a : Fin 3, win0_2.index t a * S1x1x3.size a ≤ (i a).val ∧ (i a).val < win0_2.index t a * S1x1x3.size a + S1x1x3.size a := by
  show i ∈ ((View.whole main_v0_1).slice (win0_2.rect t)).set ↔ _
  rw [View.set_slice_whole, Rect.mem_set_unit]
  exact Iff.rfl

/-- WHAT A BATCH'S LAST CHUNK WRITES BACK is row `t / 10` of any array `G` whose rows are the running maxima after
    each batch's last chunk. -/
theorem flushed0_2 (c : Dev nD) (G : S64x1x3.Idx → Elt F .f32)
    (hG : ∀ (b : Fin 64) (cc : Fin 3), (Hist0.accAt V c (10 * b.val + 9) (last0_lt b)).2 (ix3 0 0 cc) = G (ix3 b 0 cc))
    (t : Fin cfg0.N) (hf : (cfg0.win 2).flush t = true) :
    (Hist0.dats V c).flushed 2 t = ((cfg0.win 2).blk t).view.read (Elt F) G := by
  have h9 : t.val % 10 = 9 := (flush0_2 t).mp hf
  obtain ⟨e0, e1, e2⟩ := idx0_2 t
  show (cfg0.win 2).cut (grid0.coords t) ((Hist0.dats V c).after 2 t) = _
  rw [Hist0.after_2]
  funext j
  rw [View.read_apply]
  have h0 : (j 0).val < 1 := (j 0).isLt
  have h1 : (j 1).val < 1 := (j 1).isLt
  have hj : ((cfg0.win 2).blk t).view.emb j = (ix3 ⟨t.val / 10, batch0_lt t⟩ 0 (j 2) : S64x1x3.Idx) := by
    funext a; apply Fin.ext
    match a with
    | ⟨0, _⟩ => show win0_2.index t (0 : Fin 3) * 1 + 1 * (j 0).val = t.val / 10; rw [e0]; omega
    | ⟨1, _⟩ => show win0_2.index t (1 : Fin 3) * 1 + 1 * (j 1).val = 0; rw [e1]; omega
    | ⟨2, _⟩ => show win0_2.index t (2 : Fin 3) * 3 + 1 * (j 2).val = (j 2).val; rw [e2]; omega
  have hj' : j = (ix3 0 0 (j 2) : S1x1x3.Idx) := by
    funext a; apply Fin.ext
    match a with
    | ⟨0, _⟩ => show (j 0).val = 0; omega
    | ⟨1, _⟩ => show (j 1).val = 0; omega
    | ⟨2, _⟩ => rfl
  rw [hj, ← hG ⟨t.val / 10, batch0_lt t⟩ (j 2)]
  show (Hist0.accAt V c t.val t.isLt).2 j = _
  rw [accAt_congr V c (show t.val = 10 * (t.val / 10) + 9 by omega) t.isLt (last0_lt ⟨t.val / 10, batch0_lt t⟩)]
  exact congrArg _ hj'

/-- Every row of the maxima' array is the block of its batch's last chunk, which is written back. -/
theorem cover0_2 (i : S64x1x3.Idx) : ∃ t : Fin cfg0.N, (cfg0.win 2).flush t = true ∧ i ∈ ((cfg0.win 2).blk t).view.set := by
  have hb : (i 0).val < 64 := (i 0).isLt
  have h1 : (i 1).val < 1 := (i 1).isLt
  have h2 : (i 2).val < 3 := (i 2).isLt
  have hlt : 10 * (i 0).val + 9 < cfg0.N := by rw [show cfg0.N = 640 from N_0]; omega
  obtain ⟨e0, e1, e2⟩ := idx0_2 ⟨10 * (i 0).val + 9, hlt⟩
  dsimp only at e0
  refine ⟨⟨10 * (i 0).val + 9, hlt⟩, (flush0_2 _).mpr (by show (10 * (i 0).val + 9) % 10 = 9; omega), ?_⟩
  rw [mem_blk0_2]
  intro a
  match a with
  | ⟨0, _⟩ => show win0_2.index ⟨10 * (i 0).val + 9, hlt⟩ (0 : Fin 3) * 1 ≤ (i 0).val ∧ (i 0).val < win0_2.index ⟨10 * (i 0).val + 9, hlt⟩ (0 : Fin 3) * 1 + 1; rw [e0]; omega
  | ⟨1, _⟩ => show win0_2.index ⟨10 * (i 0).val + 9, hlt⟩ (1 : Fin 3) * 1 ≤ (i 1).val ∧ (i 1).val < win0_2.index ⟨10 * (i 0).val + 9, hlt⟩ (1 : Fin 3) * 1 + 1; rw [e1]; omega
  | ⟨2, _⟩ => show win0_2.index ⟨10 * (i 0).val + 9, hlt⟩ (2 : Fin 3) * 3 ≤ (i 2).val ∧ (i 2).val < win0_2.index ⟨10 * (i 0).val + 9, hlt⟩ (2 : Fin 3) * 3 + 3; rw [e2]; omega

/-- THE MAXIMA' ARRAY after the first region is any `G` whose row `b` is the running maxima after batch `b`'s
    last chunk. -/
theorem final0_2 (c : Dev nD) (G : S64x1x3.Idx → Elt F .f32)
    (hG : ∀ (b : Fin 64) (cc : Fin 3), (Hist0.accAt V c (10 * b.val + 9) (last0_lt b)).2 (ix3 0 0 cc) = G (ix3 b 0 cc)) :
    (Hist0.dats V c).arrAt 2 cfg0.N = G :=
  (Hist0.dats V c).arrAt_eq_of_cover 2 G (flushed0_2 V c G hG) cover0_2

end Cert.KernelIdeal.HistBlk

end
-- ==== Proof.Spec.lean ====
/-
  The function both programs compute, stated once over the argument arrays at the extended reals.

  For a batch `b` of 100000 points in three coordinates: `lo b c` and `hi b c` are the least and greatest value of
  coordinate `c`; a point's cell along `c` is `⌊(v - lo) / (hi - lo) · 4⌋` converted to a 32-bit integer and clipped
  into {0,…,3}; its voxel is `16·q₀ + 4·q₁ + q₂`, one of 64; `count b f` is the number of the batch's points in voxel
  `f`; the result is the linear map `W` applied to the fractions `count / 100000`, plus the bias.
  Every value is an extended real and every sum an exact one, so the order in which points are visited, the grouping
  of the points into chunks and the order of a running minimum do not enter.
-/
import Idealize.ShloMosaic.PureOps.Ideal
import Idealize.ShloMosaic.Lib.ValueIdx

noncomputable section

namespace Cert.HistSpec

open Idealize.ShloMosaic Idealize.ShloMosaic.ValueIdx

abbrev SX : Shape := ⟨3, ![64, 100000, 3]⟩
abbrev SW : Shape := ⟨2, ![40, 64]⟩
abbrev SB : Shape := ⟨1, ![40]⟩
abbrev SO : Shape := ⟨2, ![64, 40]⟩

/-- A point's cell along one coordinate, from the value and the coordinate's range. -/
def cell (v l h : EReal) : BitVec 32 :=
  IntOp.minsi 3#32 (IntOp.maxsi 0#32 (Ideal.fptosi 32 (Ideal.liftRound Int.floor (Ideal.div (v - l) (h - l) * Ideal.ofBits .f32 0x40800000#32))))

/-- The voxel of three cells. -/
def voxel (q0 q1 q2 : BitVec 32) : BitVec 32 := IntOp.addi (IntOp.addi (IntOp.muli q0 16#32) (IntOp.muli q1 4#32)) q2

/-- One point's contribution to voxel `f`'s count: 1 if its voxel is `f`, else 0. -/
def hit (v : BitVec 32) (f : Fin 64) : EReal :=
  (((((IntOp.cmpi .eq v (BitVec.ofNat 32 f.val)).setWidth 32).toInt : ℝ)) : EReal)

variable (x : SX.Idx → EReal) (W : SW.Idx → EReal) (bias : SB.Idx → EReal)

/-- The least value of coordinate `c` over batch `b`'s points. -/
def lo (b : Fin 64) (c : Fin 3) : EReal := (Finset.univ : Finset (Fin 100000)).fold min ⊤ (fun n => x (ix3 b n c))
/-- The greatest. -/
def hi (b : Fin 64) (c : Fin 3) : EReal := (Finset.univ : Finset (Fin 100000)).fold max ⊥ (fun n => x (ix3 b n c))

/-- Point `n` of batch `b`: its voxel. -/
def bin (b : Fin 64) (n : Fin 100000) : BitVec 32 :=
  voxel (cell (x (ix3 b n 0)) (lo x b 0) (hi x b 0)) (cell (x (ix3 b n 1)) (lo x b 1) (hi x b 1)) (cell (x (ix3 b n 2)) (lo x b 2) (hi x b 2))

/-- How many of batch `b`'s points fall in voxel `f`. -/
def count (b : Fin 64) (f : Fin 64) : EReal := ∑ n : Fin 100000, hit (bin x b n) f

/-- The result at batch `b`, class `k`. -/
def out (b : Fin 64) (k : Fin 40) : EReal :=
  (∑ f : Fin 64, Ideal.div (count x b f) (Ideal.ofBits .f32 0x47C35000#32) * W (ix2 k f)) + bias (ix1 k)

/-- The whole result array. -/
def G : SO.Idx → EReal := fun i => out x W bias (i 0) (i 1)

end Cert.HistSpec

end
-- ==== Proof.KerPay0.lean ====
/-
  The minimum / maximum kernel's stored values read at an index, at the extended reals.

  Each chunk of 10000 rows is reduced over its rows: column `c` of the chunk's minimum is the least of the 10000
  values in that column (the fold of `min` from `⊤`), the maximum likewise with `max` from `⊥`; the first chunk
  stores them and every later chunk stores the minimum (maximum) of what is already there and its own.
-/
import proofs.«151321_j58205396795680_2_alg».proof.Proof.Gen.KernelIdeal.Skeleton
import proofs.«151321_j58205396795680_2_alg».proof.Proof.Spec
import Idealize.ShloMosaic.PureOps.Ideal.Laws
import Idealize.ShloMosaic.Lib.ValueLayout

noncomputable section

namespace Cert.HistKer

open Idealize.ShloMosaic Idealize.ShloMosaic.ValueIdx Cert.KernelIdeal Cert.KernelIdeal.Gen

/-! ## Words and one-axis reductions -/

/-- The word `0x7F800000` denotes `+∞`. -/
theorem ofBits_pos_inf : Ideal.ofBits .f32 0x7F800000#32 = ⊤ := by simp [Ideal.ofBits, Ideal.ieee]
/-- The word `0xFF800000` denotes `-∞`. -/
theorem ofBits_neg_inf : Ideal.ofBits .f32 0xFF800000#32 = ⊥ := by simp [Ideal.ofBits, Ideal.ieee]

/-- A `<minimumf>` reduction over one axis is the fold of `min` from the accumulator's value over that axis's
    coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Column `c` with row `r` inserted is the index `(r, c)`. -/
theorem lift_rows {n m : ℕ} (h : (⟨2, ![n, m]⟩ : Shape).Reduces [0] ⟨1, ![m]⟩) (c : Fin m) (r : Fin n) :
    h.lift (ix1 c) r = ix2 r c := by
  funext d
  match d with
  | ⟨0, _⟩ => rfl
  | ⟨1, _⟩ => rfl

/-! ## One chunk's minimum and maximum -/

/-- The chunk with its unit axis dropped. -/
theorem k0_pay1_apply (v0 : Vec Ideal S1x10000x3 .f32) (r : Fin 10000) (c : Fin 3) :
    k0_pay1 v0 (ix2 r c) = v0 (ix3 0 r c) :=
  shapeCast_1ab_ab_apply v0 _ r c

/-- The chunk's minimum at column `c`. -/
theorem k0_pay2_apply (v0 : Vec Ideal S1x10000x3 .f32) (u : Fin 1) (c : Fin 3) :
    k0_pay2 v0 (ix2 u c) = (Finset.univ : Finset (Fin 10000)).fold min ⊤ (fun r => v0 (ix3 0 r c)) := by
  unfold k0_pay2
  refine (shapeCast_a_1a_apply _ _ u c).trans ?_
  refine (multiReduction_minimumf_single _ _ reduces_S10000x3_S3 _ _ (ix1 c)).trans ?_
  rw [Ideal.ofBits_def, ofBits_pos_inf]
  show (Finset.univ : Finset (Fin 10000)).fold min ⊤ (fun r => k0_pay1 v0 (reduces_S10000x3_S3.lift (ix1 c) r)) = _
  refine Finset.fold_congr fun (r : Fin 10000) _ => ?_
  exact (congrArg (k0_pay1 v0) (lift_rows reduces_S10000x3_S3 c r)).trans (k0_pay1_apply v0 r c)

/-- The chunk's maximum at column `c`. -/
theorem k0_pay3_apply (v0 : Vec Ideal S1x10000x3 .f32) (u : Fin 1) (c : Fin 3) :
    k0_pay3 v0 (ix2 u c) = (Finset.univ : Finset (Fin 10000)).fold max ⊥ (fun r => v0 (ix3 0 r c)) := by
  unfold k0_pay3
  refine (shapeCast_a_1a_apply _ _ u c).trans ?_
  refine (Ideal.multiReduction_maximumf_single _ _ reduces_S10000x3_S3 _ _ (ix1 c)).trans ?_
  rw [Ideal.ofBits_def, ofBits_neg_inf]
  show (Finset.univ : Finset (Fin 10000)).fold max ⊥ (fun r => k0_pay1 v0 (reduces_S10000x3_S3.lift (ix1 c) r)) = _
  refine Finset.fold_congr fun (r : Fin 10000) _ => ?_
  exact (congrArg (k0_pay1 v0) (lift_rows reduces_S10000x3_S3 c r)).trans (k0_pay1_apply v0 r c)

/-! ## What each chunk stores -/

/-- The first chunk stores its minimum … -/
theorem k0_pay4_apply (v0 : Vec Ideal S1x10000x3 .f32) (u u' : Fin 1) (c : Fin 3) :
    k0_pay4 v0 (ix3 u u' c) = (Finset.univ : Finset (Fin 10000)).fold min ⊤ (fun r => v0 (ix3 0 r c)) := by
  unfold k0_pay4
  exact (shapeCast_ab_1ab_apply _ _ u u' c).trans (k0_pay2_apply v0 u' c)

/-- … and its maximum. -/
theorem k0_pay5_apply (v0 : Vec Ideal S1x10000x3 .f32) (u u' : Fin 1) (c : Fin 3) :
    k0_pay5 v0 (ix3 u u' c) = (Finset.univ : Finset (Fin 10000)).fold max ⊥ (fun r => v0 (ix3 0 r c)) := by
  unfold k0_pay5
  exact (shapeCast_ab_1ab_apply _ _ u u' c).trans (k0_pay3_apply v0 u' c)

/-- A later chunk stores the minimum of what is there and its own minimum … -/
theorem k0_pay6_apply (v0 : Vec Ideal S1x10000x3 .f32) (v12 : Vec Ideal S1x1x3 .f32) (u u' : Fin 1) (c : Fin 3) :
    k0_pay6 v0 v12 (ix3 u u' c)
      = min (v12 (ix3 0 0 c)) ((Finset.univ : Finset (Fin 10000)).fold min ⊤ (fun r => v0 (ix3 0 r c))) := by
  unfold k0_pay6
  refine (shapeCast_ab_1ab_apply _ _ u u' c).trans ?_
  rw [minimumf_apply, k0_pay2_apply]
  congr 1
  obtain rfl : u' = 0 := Subsingleton.elim _ _
  exact shapeCast_1ab_ab_apply v12 _ 0 c

/-- … and the maximum of what is there and its own maximum. -/
theorem k0_pay7_apply (v0 : Vec Ideal S1x10000x3 .f32) (v18 : Vec Ideal S1x1x3 .f32) (u u' : Fin 1) (c : Fin 3) :
    k0_pay7 v0 v18 (ix3 u u' c)
      = max (v18 (ix3 0 0 c)) ((Finset.univ : Finset (Fin 10000)).fold max ⊥ (fun r => v0 (ix3 0 r c))) := by
  unfold k0_pay7
  refine (shapeCast_ab_1ab_apply _ _ u u' c).trans ?_
  rw [maximumf_apply, k0_pay3_apply]
  congr 1
  obtain rfl : u' = 0 := Subsingleton.elim _ _
  exact shapeCast_1ab_ab_apply v18 _ 0 c

end Cert.HistKer

end
-- ==== Proof.KerPay1.lean ====
/-
  The histogram kernel's per-chunk values read at an index, at the extended reals.

  For each of a chunk's 5000 rows the three coordinates are sent to their cells (`Cert.HistSpec.cell`, from the value and
  the batch's range), the cells to a voxel, and the voxel is compared with each of the 64 columns' numbers: entry
  `(r, f)` of the chunk's table is 1 if row `r` falls in voxel `f` and 0 otherwise. The table's columns are summed
  over the rows and added to the running counts.
-/
import proofs.«151321_j58205396795680_2_alg».proof.Proof.KerPay0

noncomputable section

namespace Cert.HistKer

open Idealize.ShloMosaic Idealize.ShloMosaic.ValueIdx Cert.KernelIdeal Cert.KernelIdeal.Gen Cert.HistSpec

/-! ## Elementwise integer and rounding operations at an index (all by definition) -/

section Pointwise
variable {s : Shape} {w : ℕ} {φ : FTy}

/-- An integer sum at an index is the sum of the words. -/
theorem addi_apply (a b : IVec s w) (i : s.Idx) : addi a b i = IntOp.addi (a i) (b i) := rfl
/-- An integer product at an index is the product of the words. -/
theorem muli_apply (a b : IVec s w) (i : s.Idx) : muli a b i = IntOp.muli (a i) (b i) := rfl
/-- A signed maximum at an index is that of the words. -/
theorem maxsi_apply (a b : IVec s w) (i : s.Idx) : maxsi a b i = IntOp.maxsi (a i) (b i) := rfl
/-- A signed minimum at an index is that of the words. -/
theorem minsi_apply (a b : IVec s w) (i : s.Idx) : minsi a b i = IntOp.minsi (a i) (b i) := rfl
/-- An integer comparison at an index compares the words. -/
theorem cmpi_apply (p : CmpIPredicate) (a b : IVec s w) (i : s.Idx) : cmpi p a b i = IntOp.cmpi p (a i) (b i) := rfl
/-- A float-to-integer conversion at an index converts the element. -/
theorem fptosi_apply (v : ℕ) (a : FVec Ideal s φ) (i : s.Idx) : fptosi v a i = Ideal.fptosi v (a i) := rfl
/-- A floor at an index is the floor of the element, the infinities fixed. -/
theorem floor_apply (a : FVec Ideal s φ) (i : s.Idx) : floor a i = Ideal.liftRound Int.floor (a i) := rfl
/-- A signed-integer-to-float conversion at an index is the word's integer as an extended real. -/
theorem sitofp_ideal_apply (a : IVec s w) (i : s.Idx) : (sitofp φ a : FVec Ideal s φ) i = (((a i).toInt : ℝ) : EReal) := rfl

end Pointwise

/-! ## Layout operations at an index -/

/-- One column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The cleared counts -/

/-- The first chunk clears the running counts. -/
theorem k1_pay3_apply (i : S1x64.Idx) : k1_pay3 (F := Ideal) i = 0 := by
  unfold k1_pay3
  rw [shapeCast_self]
  exact Ideal.ofBits_zero_f32

/-! ## A chunk's table -/

/-- Entry `(r, f)` of a chunk's table: 1 if row `r`'s voxel — from its three coordinates' cells, each taken against the
    batch's least and greatest value of that coordinate — is `f`, and 0 otherwise. -/
theorem k1_pay4_apply (v3 : Vec Ideal S1x5000x3 .f32) (v5 v7 : Vec Ideal S1x1x3 .f32) (r : Fin 5000) (f : Fin 64) :
    k1_pay4 v3 v5 v7 (ix2 r f)
      = hit (voxel (cell (v3 (ix3 0 r 0)) (v5 (ix3 0 0 0)) (v7 (ix3 0 0 0)))
                   (cell (v3 (ix3 0 r 1)) (v5 (ix3 0 0 1)) (v7 (ix3 0 0 1)))
                   (cell (v3 (ix3 0 r 2)) (v5 (ix3 0 0 2)) (v7 (ix3 0 0 2)))) f := by
  have hs : ∀ (X : IVec S5000x3 32) (o : ℕ) (h : S5000x3.Slices ![0, o] S5000x1) (k : Fin 3) (_ : k.val = o),
      extractStridedSlice S5000x1 ![0, o] X h (ix2 r (0 : Fin 1)) = X (ix2 r k) :=
    fun X o h k hk => slice2_axis1_apply o X h r 0 k (by rw [hk]; rfl)
  have hi : iota Kind.tc S1x64 32 [1] iota_S1x64_d1_w32 (ix2 (0 : Fin 1) f) = BitVec.ofNat 32 f.val :=
    iota_single_apply _ _ _ _ _ _
  unfold k1_pay4
  simp only [sitofp_ideal_apply, extui_apply, cmpi_apply, broadcastTo_a1_ab_apply, broadcastTo_1b_ab_apply,
    addi_apply, muli_apply, broadcast_apply]
  rw [hi, hs _ 0 _ 0 rfl, hs _ 1 _ 1 rfl, hs _ 2 _ 2 rfl]
  simp only [minsi_apply, maxsi_apply, broadcast_apply, fptosi_apply, floor_apply, mulf_apply, divf_apply, subf_apply,
    shapeCast_1ab_ab_apply, broadcastTo_1b_ab_apply]
  rfl

/-! ## The running counts -/

/-- After a chunk the running count of voxel `f` is what it was plus the number of the chunk's rows in `f`. -/
theorem k1_pay1_apply (v36 : FVec Ideal S5000x64 .f32) (v37 : Vec Ideal S1x64 .f32) (u : Fin 1) (f : Fin 64) :
    k1_pay1 v36 v37 (ix2 u f) = v37 (ix2 u f) + ∑ r : Fin 5000, v36 (ix2 r f) := by
  unfold k1_pay1
  rw [shapeCast_self, addf_apply]
  congr 1
  refine (shapeCast_a_1a_apply _ _ u f).trans ?_
  refine (Ideal.multiReduction_add_single _ _ reduces_S5000x64_S64 _ _ (ix1 f)).trans ?_
  show ∑ r : Fin 5000, v36 (reduces_S5000x64_S64.lift (ix1 f) r) = _
  exact Finset.sum_congr rfl fun r _ => congrArg v36 (lift_rows reduces_S5000x64_S64 f r)

end Cert.HistKer

end
-- ==== Proof.KerPay2.lean ====
/-
  The histogram kernel's result row read at an index, at the extended reals.

  At a batch's last chunk the 64 counts are divided by 100000 and multiplied into the weights: class `k` of the result
  is the sum over the voxels `f` of `count f / 100000 · W k f`, plus the bias of `k`. (The operands' narrowing to
  16 bits is the identity on extended reals, and the weights enter transposed.)
-/
import proofs.«151321_j58205396795680_2_alg».proof.Proof.KerPay0

noncomputable section

namespace Cert.HistKer

open Idealize.ShloMosaic Idealize.ShloMosaic.ValueIdx Cert.KernelIdeal Cert.KernelIdeal.Gen Cert.HistSpec

/-- The product's dimension numbers: rows of the left operand against rows of the right, one contracted axis of 64. -/
abbrev dotK := dot_S1x64_S64x40_S1x40_1_0_0_1_n_n

/-- On its kept axis the left operand's index is the result's row. -/
theorem dotK_lhs0 (i : S1x40.Idx) (q : dotK.contr.Idx) : (dotK.lhsIdx i q 0).val = (i 0).val := by
  unfold DotDims.lhsIdx
  rw [dif_neg (show ¬(0 : Fin S1x64.rank) ∈ dotK.lhsBatch by decide),
    dif_pos (show (0 : Fin S1x64.rank) ∈ dotK.lhsNonContracting by decide)]
  rfl
/-- On its contracted axis the left operand's index is the contraction coordinate. -/
theorem dotK_lhs1 (i : S1x40.Idx) (q : dotK.contr.Idx) : (dotK.lhsIdx i q 1).val = (q ⟨0, by decide⟩).val :=
  dotK.lhsIdx_val_of_single rfl i q
/-- On its contracted axis the right operand's index is the contraction coordinate. -/
theorem dotK_rhs0 (i : S1x40.Idx) (q : dotK.contr.Idx) : (dotK.rhsIdx i q 0).val = (q ⟨0, by decide⟩).val :=
  dotK.rhsIdx_val_of_single rfl i q
/-- On its kept axis the right operand's index is the result's column. -/
theorem dotK_rhs1 (i : S1x40.Idx) (q : dotK.contr.Idx) : (dotK.rhsIdx i q 1).val = (i 1).val := by
  unfold DotDims.rhsIdx
  rw [dif_neg (show ¬(1 : Fin S64x40.rank) ∈ dotK.rhsBatch by decide),
    dif_pos (show (1 : Fin S64x40.rank) ∈ dotK.rhsNonContracting by decide)]
  rfl

/-- The left operand's index at result `(u, k)` and contraction coordinate `f` is `(u, f)`. -/
theorem dotK_lhsIdx (u : Fin 1) (k : Fin 40) (f : Fin 64) :
    dotK.lhsIdx (ix2 u k) ((contrEquiv1 dotK 64 rfl rfl).symm f) = ix2 u f := by
  have hk := contrEquiv1_symm_val dotK 64 rfl rfl f
  funext a
  refine Fin.ext ?_
  match a with
  | ⟨0, _⟩ => exact dotK_lhs0 _ _
  | ⟨1, _⟩ => exact (dotK_lhs1 _ _).trans hk

/-- The right operand's index at result `(u, k)` and contraction coordinate `f` is `(f, k)`. -/
theorem dotK_rhsIdx (u : Fin 1) (k : Fin 40) (f : Fin 64) :
    dotK.rhsIdx (ix2 u k) ((contrEquiv1 dotK 64 rfl rfl).symm f) = ix2 f k := by
  have hk := contrEquiv1_symm_val dotK 64 rfl rfl f
  funext a
  refine Fin.ext ?_
  match a with
  | ⟨0, _⟩ => exact (dotK_rhs0 _ _).trans hk
  | ⟨1, _⟩ => exact dotK_rhs1 _ _

/-- The product into a zero accumulator at `(u, k)`: the sum over the contracted coordinate of the operands' products. -/
theorem matmulK_apply {φ₁ φ₂ : FTy} (lhs : FVec Ideal S1x64 φ₁) (rhs : FVec Ideal S64x40 φ₂) (u : Fin 1) (k : Fin 40) :
    matmul dotK none lhs rhs (constant S1x40 .f32 0x00000000#32) (ix2 u k) = ∑ f : Fin 64, lhs (ix2 u f) * rhs (ix2 f k) := by
  simp only [matmul]
  rw [Ideal.matmul_constant_zero_apply, ← Equiv.sum_comp (contrEquiv1 dotK 64 rfl rfl).symm]
  exact Finset.sum_congr rfl fun f _ => by rw [dotK_lhsIdx, dotK_rhsIdx]

/-- Class `k` of the result row: the counts' fractions against the weights' row `k`, plus the bias. -/
theorem k1_pay2_apply (v47 : Vec Ideal S1x64 .f32) (v51 : Vec Ideal S40x64 .f32) (v55 : Vec Ideal S40 .f32)
    (u u' : Fin 1) (k : Fin 40) :
    k1_pay2 v47 v51 v55 (ix3 u u' k)
      = (∑ f : Fin 64, Ideal.div (v47 (ix2 0 f)) (Ideal.ofBits .f32 0x47C35000#32) * v51 (ix2 k f)) + v55 (ix1 k) := by
  obtain rfl : u' = 0 := Subsingleton.elim _ _
  unfold k1_pay2
  refine (shapeCast_ab_1ab_apply _ _ u 0 k).trans ?_
  rw [addf_apply]
  congr 1
  · refine (matmulK_apply _ _ 0 k).trans (Finset.sum_congr rfl fun f _ => ?_)
    rw [transpose_ix2_apply]
    rfl
  · exact shapeCast_a_1a_apply v55 _ 0 k

end Cert.HistKer

end
-- ==== Proof.KerPay.lean ====
/-
  The kernel's stored values read at an index, at the extended reals: the minimum / maximum kernel's (KerPay0), the
  histogram kernel's per-chunk table and running counts (KerPay1), and its result row (KerPay2).
-/
import proofs.«151321_j58205396795680_2_alg».proof.Proof.KerPay0
import proofs.«151321_j58205396795680_2_alg».proof.Proof.KerPay1
import proofs.«151321_j58205396795680_2_alg».proof.Proof.KerPay2
-- ==== Proof.LibFoldBlocks.lean ====
/-
  Folds and sums over `Fin N` cut into `a` consecutive blocks of `b` entries (`a * b = N`), and the running
  accumulation over the blocks.

  A commutative, associative operation with a neutral element makes its carrier a commutative monoid whose
  finite products are the `Finset.fold`s of the operation (`foldMonoid`, `fold_eq_prod`); the statements about
  folds below are the corresponding statements about finite products in that monoid. Entry `r` of block `j`
  is the entry `j * b + r` of the whole.
-/
import Mathlib.Algebra.BigOperators.Fin
import Mathlib.Algebra.BigOperators.Group.Finset.Basic
import Mathlib.Data.Finset.Fold
import Mathlib.Data.EReal.Basic

open scoped BigOperators

namespace Cert.FoldBlocks

/-- Entry `r` of block `j`, of `a` blocks of `b` entries, lies below `a * b`. -/
theorem block_lt {a b N : ℕ} (h : a * b = N) (j : Fin a) (r : Fin b) : j.val * b + r.val < N := by
  have h1 : j.val * b + r.val < (j.val + 1) * b := by rw [Nat.succ_mul]; exact Nat.add_lt_add_left r.isLt _
  exact h ▸ Nat.lt_of_lt_of_le h1 (Nat.mul_le_mul_right b j.isLt)

/-- Entry `r` of block `j` as an index of the whole. -/
def blockIdx {a b N : ℕ} (h : a * b = N) (j : Fin a) (r : Fin b) : Fin N := ⟨j.val * b + r.val, block_lt h j r⟩

@[simp] theorem blockIdx_val {a b N : ℕ} (h : a * b = N) (j : Fin a) (r : Fin b) :
    (blockIdx h j r).val = j.val * b + r.val := rfl

/-! ## Products and sums in a commutative monoid -/

section Monoid
variable {M : Type*} [CommMonoid M]

/-- A product over `Fin N`, `N = a * b`, is the product over the `a` blocks of each block's product. -/
theorem prod_blocks {a b N : ℕ} (h : a * b = N) (g : Fin N → M) :
    ∏ n : Fin N, g n = ∏ j : Fin a, ∏ r : Fin b, g (blockIdx h j r) := by
  subst h
  rw [← Equiv.prod_comp finProdFinEquiv g, Fintype.prod_prod_type]
  refine Finset.prod_congr rfl fun j _ => Finset.prod_congr rfl fun r _ => congrArg g (Fin.ext ?_)
  show r.val + b * j.val = j.val * b + r.val
  rw [Nat.mul_comm, Nat.add_comm]

/-- A product over `Fin N` of a function of the position is the product over `Finset.range N`. -/
theorem prod_fin_eq_range (N : ℕ) (f : ℕ → M) : ∏ n : Fin N, f n.val = ∏ n ∈ Finset.range N, f n :=
  Fin.prod_univ_eq_prod_range f N

/-- The accumulator BEFORE block `k`, started at `1` and multiplied by each block in turn, is the product of
    the blocks before `k`. -/
theorem acc_eq_prod_range (blk acc : ℕ → M) (h0 : acc 0 = 1) (hs : ∀ k, acc (k + 1) = acc k * blk k) (k : ℕ) :
    acc k = ∏ j ∈ Finset.range k, blk j := by
  induction k with
  | zero => rw [h0, Finset.range_zero, Finset.prod_empty]
  | succ k ih => rw [hs, ih, Finset.prod_range_succ]

/-- The running value AFTER block `k`, which is block `0` at `k = 0` and then multiplied by each next block, is
    the product of the blocks up to `k`; the steps are needed only below a bound `K`. -/
theorem run_eq_prod_range (blk run : ℕ → M) (K : ℕ) (h0 : run 0 = blk 0)
    (hs : ∀ k, k < K → run (k + 1) = run k * blk (k + 1)) (k : ℕ) (hk : k ≤ K) :
    run k = ∏ j ∈ Finset.range (k + 1), blk j := by
  induction k with
  | zero => rw [h0, Finset.prod_range_one]
  | succ k ih => rw [hs k (by omega), ih (by omega), Finset.prod_range_succ _ (k + 1)]

/-- Blocks to whole: if block `j` of the running product is the product of the whole's block `j`, then after the
    last of the `a = k + 1` blocks the running product is the product over the whole. -/
theorem run_eq_prod_whole {a b N : ℕ} (h : a * b = N) (g : Fin N → M) (blk run : ℕ → M)
    (hblk : ∀ j : Fin a, blk j.val = ∏ r : Fin b, g (blockIdx h j r)) (k : ℕ) (hk : k + 1 = a)
    (h0 : run 0 = blk 0) (hs : ∀ i, i < k → run (i + 1) = run i * blk (i + 1)) :
    run k = ∏ n : Fin N, g n := by
  rw [run_eq_prod_range blk run k h0 hs k le_rfl, prod_blocks h g, hk, ← Fin.prod_univ_eq_prod_range blk a]
  exact Finset.prod_congr rfl fun j _ => hblk j

end Monoid

section AddMonoid
variable {M : Type*} [AddCommMonoid M]

/-- A sum over `Fin N`, `N = a * b`, is the sum over the `a` blocks of each block's sum. -/
theorem sum_blocks {a b N : ℕ} (h : a * b = N) (g : Fin N → M) :
    ∑ n : Fin N, g n = ∑ j : Fin a, ∑ r : Fin b, g (blockIdx h j r) :=
  prod_blocks (M := Multiplicative M) h g

/-- The accumulator BEFORE block `k`, started at `0` and increased by each block in turn, is the sum of the
    blocks before `k`. -/
theorem acc_eq_sum_range (blk acc : ℕ → M) (h0 : acc 0 = 0) (hs : ∀ k, acc (k + 1) = acc k + blk k) (k : ℕ) :
    acc k = ∑ j ∈ Finset.range k, blk j :=
  acc_eq_prod_range (M := Multiplicative M) blk acc h0 hs k

/-- The running value AFTER block `k` (block `0` at `k = 0`, then increased by each next block) is the sum of
    the blocks up to `k`. -/
theorem run_eq_sum_range (blk run : ℕ → M) (K : ℕ) (h0 : run 0 = blk 0)
    (hs : ∀ k, k < K → run (k + 1) = run k + blk (k + 1)) (k : ℕ) (hk : k ≤ K) :
    run k = ∑ j ∈ Finset.range (k + 1), blk j :=
  run_eq_prod_range (M := Multiplicative M) blk run K h0 hs k hk

/-- Blocks to whole, for sums: if block `j` of the running sum is the sum of the whole's block `j`, then after the
    last of the `a = k + 1` blocks the running sum is the sum over the whole. -/
theorem run_eq_sum_whole {a b N : ℕ} (h : a * b = N) (g : Fin N → M) (blk run : ℕ → M)
    (hblk : ∀ j : Fin a, blk j.val = ∑ r : Fin b, g (blockIdx h j r)) (k : ℕ) (hk : k + 1 = a)
    (h0 : run 0 = blk 0) (hs : ∀ i, i < k → run (i + 1) = run i + blk (i + 1)) :
    run k = ∑ n : Fin N, g n :=
  run_eq_prod_whole (M := Multiplicative M) h g blk run hblk k hk h0 hs

end AddMonoid

/-! ## Folds of a commutative, associative operation with a neutral element -/

section Fold
variable {α : Type*} (op : α → α → α) [hc : Std.Commutative op] [ha : Std.Associative op]

/-- The commutative monoid of `op` with the neutral element `init`. -/
@[reducible] def foldMonoid (init : α) (hn : ∀ v, op init v = v) : CommMonoid α where
  mul := op
  one := init
  mul_assoc := ha.assoc
  one_mul := hn
  mul_one := fun v => by show op v init = v; rw [hc.comm]; exact hn v
  mul_comm := hc.comm

/-- A fold of `op` from its neutral element is the finite product in `foldMonoid`. -/
theorem fold_eq_prod {ι : Type*} (init : α) (hn : ∀ v, op init v = v) (s : Finset ι) (g : ι → α) :
    s.fold op init g = @Finset.prod ι α (foldMonoid op init hn) s g := rfl

/-- (a) The fold over `Fin N`, `N = a * b`, is the fold over the `a` blocks of each block's fold. -/
theorem fold_blocks (init : α) (hn : ∀ v, op init v = v) {a b N : ℕ} (h : a * b = N) (g : Fin N → α) :
    (Finset.univ : Finset (Fin N)).fold op init g
      = (Finset.univ : Finset (Fin a)).fold op init
          (fun j => (Finset.univ : Finset (Fin b)).fold op init (fun r => g (blockIdx h j r))) :=
  @prod_blocks α (foldMonoid op init hn) a b N h g

/-- (b) The running value AFTER block `k` (block `0` at `k = 0`, then combined with each next block) is the
    fold of the blocks up to `k`. -/
theorem run_eq_fold_range (init : α) (hn : ∀ v, op init v = v) (blk run : ℕ → α) (K : ℕ) (h0 : run 0 = blk 0)
    (hs : ∀ k, k < K → run (k + 1) = op (run k) (blk (k + 1))) (k : ℕ) (hk : k ≤ K) :
    run k = (Finset.range (k + 1)).fold op init blk :=
  @run_eq_prod_range α (foldMonoid op init hn) blk run K h0 hs k hk

/-- The same over `Fin (k + 1)`. -/
theorem run_eq_fold_fin (init : α) (hn : ∀ v, op init v = v) (blk run : ℕ → α) (K : ℕ) (h0 : run 0 = blk 0)
    (hs : ∀ k, k < K → run (k + 1) = op (run k) (blk (k + 1))) (k : ℕ) (hk : k ≤ K) :
    run k = (Finset.univ : Finset (Fin (k + 1))).fold op init (fun j => blk j.val) := by
  rw [run_eq_fold_range op init hn blk run K h0 hs k hk]
  exact (@prod_fin_eq_range α (foldMonoid op init hn) (k + 1) blk).symm

/-- The accumulator BEFORE block `k`, started at the neutral element and combined with each block in turn, is
    the fold of the blocks before `k`. -/
theorem acc_eq_fold_range (init : α) (hn : ∀ v, op init v = v) (blk acc : ℕ → α) (h0 : acc 0 = init)
    (hs : ∀ k, acc (k + 1) = op (acc k) (blk k)) (k : ℕ) :
    acc k = (Finset.range k).fold op init blk :=
  @acc_eq_prod_range α (foldMonoid op init hn) blk acc h0 hs k

/-- (a) and (b) joined: if block `j` of the running fold is the fold of the whole's block `j`, then after the last
    of the `a = k + 1` blocks the running value is the fold over the whole. -/
theorem run_eq_fold_whole (init : α) (hn : ∀ v, op init v = v) {a b N : ℕ} (h : a * b = N) (g : Fin N → α)
    (blk run : ℕ → α)
    (hblk : ∀ j : Fin a, blk j.val = (Finset.univ : Finset (Fin b)).fold op init (fun r => g (blockIdx h j r)))
    (k : ℕ) (hk : k + 1 = a) (h0 : run 0 = blk 0) (hs : ∀ i, i < k → run (i + 1) = op (run i) (blk (i + 1))) :
    run k = (Finset.univ : Finset (Fin N)).fold op init g :=
  @run_eq_prod_whole α (foldMonoid op init hn) a b N h g blk run hblk k hk h0 hs

end Fold

/-! ## The instances used: `min` from `⊤` and `max` from `⊥` on the extended reals -/

section EReal

/-- `⊤` is neutral for `min`. -/
theorem top_min (v : EReal) : min ⊤ v = v := top_inf_eq v
/-- `⊥` is neutral for `max`. -/
theorem bot_max (v : EReal) : max ⊥ v = v := bot_sup_eq v

/-- The least of `N = a * b` extended reals is the least of the blocks' least values. -/
theorem fold_min_blocks {a b N : ℕ} (h : a * b = N) (g : Fin N → EReal) :
    (Finset.univ : Finset (Fin N)).fold min ⊤ g
      = (Finset.univ : Finset (Fin a)).fold min ⊤
          (fun j => (Finset.univ : Finset (Fin b)).fold min ⊤ (fun r => g (blockIdx h j r))) :=
  fold_blocks min ⊤ top_min h g

/-- The greatest of `N = a * b` extended reals is the greatest of the blocks' greatest values. -/
theorem fold_max_blocks {a b N : ℕ} (h : a * b = N) (g : Fin N → EReal) :
    (Finset.univ : Finset (Fin N)).fold max ⊥ g
      = (Finset.univ : Finset (Fin a)).fold max ⊥
          (fun j => (Finset.univ : Finset (Fin b)).fold max ⊥ (fun r => g (blockIdx h j r))) :=
  fold_blocks max ⊥ bot_max h g

/-- A running minimum over the blocks, after the last of the `a = k + 1` blocks, is the least of the whole. -/
theorem run_min_whole {a b N : ℕ} (h : a * b = N) (g : Fin N → EReal) (blk run : ℕ → EReal)
    (hblk : ∀ j : Fin a, blk j.val = (Finset.univ : Finset (Fin b)).fold min ⊤ (fun r => g (blockIdx h j r)))
    (k : ℕ) (hk : k + 1 = a) (h0 : run 0 = blk 0) (hs : ∀ i, i < k → run (i + 1) = min (run i) (blk (i + 1))) :
    run k = (Finset.univ : Finset (Fin N)).fold min ⊤ g :=
  run_eq_fold_whole min ⊤ top_min h g blk run hblk k hk h0 hs

/-- A running maximum over the blocks, after the last of the `a = k + 1` blocks, is the greatest of the whole. -/
theorem run_max_whole {a b N : ℕ} (h : a * b = N) (g : Fin N → EReal) (blk run : ℕ → EReal)
    (hblk : ∀ j : Fin a, blk j.val = (Finset.univ : Finset (Fin b)).fold max ⊥ (fun r => g (blockIdx h j r)))
    (k : ℕ) (hk : k + 1 = a) (h0 : run 0 = blk 0) (hs : ∀ i, i < k → run (i + 1) = max (run i) (blk (i + 1))) :
    run k = (Finset.univ : Finset (Fin N)).fold max ⊥ g :=
  run_eq_fold_whole max ⊥ bot_max h g blk run hblk k hk h0 hs

/-- 100000 entries are 10 blocks of 10000 … -/
theorem blocks_10_10000 : 10 * 10000 = 100000 := by norm_num
/-- … and 20 blocks of 5000. -/
theorem blocks_20_5000 : 20 * 5000 = 100000 := by norm_num

/-- At those extents: the least of 100000 values is the least of the ten blocks' least values. -/
example (g : Fin 100000 → EReal) :
    (Finset.univ : Finset (Fin 100000)).fold min ⊤ g
      = (Finset.univ : Finset (Fin 10)).fold min ⊤
          (fun j => (Finset.univ : Finset (Fin 10000)).fold min ⊤ (fun r => g (blockIdx blocks_10_10000 j r))) :=
  fold_min_blocks blocks_10_10000 g

/-- At those extents: the sum of 100000 values is the sum of the twenty blocks' sums. -/
example (g : Fin 100000 → EReal) :
    ∑ n, g n = ∑ j : Fin 20, ∑ r : Fin 5000, g (blockIdx blocks_20_5000 j r) :=
  sum_blocks blocks_20_5000 g

end EReal

end Cert.FoldBlocks
-- ==== Proof.KerWhole.lean ====
/-
  Chunks to whole, against the common specification: a batch's 100000 rows are 10 chunks of 10000 rows (for the least and
  greatest value of a coordinate) and 20 chunks of 5000 rows (for the voxel counts). The least value over the batch is
  the least of the chunks' least values, so a running minimum over the chunks ends at it; the greatest likewise; and the
  count of a voxel is the sum of the chunks' counts, so a running sum over the chunks ends at it.
-/
import proofs.«151321_j58205396795680_2_alg».proof.Proof.Spec
import proofs.«151321_j58205396795680_2_alg».proof.Proof.LibFoldBlocks

noncomputable section

namespace Cert.HistKer

open Idealize.ShloMosaic Idealize.ShloMosaic.ValueIdx Cert.HistSpec Cert.FoldBlocks

variable (x : SX.Idx → EReal)

/-- Row `r` of chunk `j`, of 10 chunks of 10000 rows, as a row of the batch: row `j * 10000 + r`. -/
abbrev row10 (j : Fin 10) (r : Fin 10000) : Fin 100000 := blockIdx blocks_10_10000 j r
/-- Row `r` of chunk `j`, of 20 chunks of 5000 rows, as a row of the batch: row `j * 5000 + r`. -/
abbrev row20 (j : Fin 20) (r : Fin 5000) : Fin 100000 := blockIdx blocks_20_5000 j r

theorem row10_val (j : Fin 10) (r : Fin 10000) : (row10 j r).val = j.val * 10000 + r.val := rfl
theorem row20_val (j : Fin 20) (r : Fin 5000) : (row20 j r).val = j.val * 5000 + r.val := rfl

/-- The least value of a coordinate over chunk `j` of 10. -/
def chunkLo (b : Fin 64) (c : Fin 3) (j : Fin 10) : EReal :=
  (Finset.univ : Finset (Fin 10000)).fold min ⊤ (fun r => x (ix3 b (row10 j r) c))
/-- The greatest value of a coordinate over chunk `j` of 10. -/
def chunkHi (b : Fin 64) (c : Fin 3) (j : Fin 10) : EReal :=
  (Finset.univ : Finset (Fin 10000)).fold max ⊥ (fun r => x (ix3 b (row10 j r) c))
/-- How many of chunk `j` of 20's rows fall in voxel `f`. -/
def chunkCount (b : Fin 64) (f : Fin 64) (j : Fin 20) : EReal := ∑ r : Fin 5000, hit (bin x b (row20 j r)) f

/-- The least value over the batch is the least of the chunks' least values. -/
theorem lo_eq_chunks (b : Fin 64) (c : Fin 3) :
    lo x b c = (Finset.univ : Finset (Fin 10)).fold min ⊤ (chunkLo x b c) :=
  fold_min_blocks blocks_10_10000 _

/-- The greatest value over the batch is the greatest of the chunks' greatest values. -/
theorem hi_eq_chunks (b : Fin 64) (c : Fin 3) :
    hi x b c = (Finset.univ : Finset (Fin 10)).fold max ⊥ (chunkHi x b c) :=
  fold_max_blocks blocks_10_10000 _

/-- A voxel's count over the batch is the sum of the chunks' counts. -/
theorem count_eq_chunks (b : Fin 64) (f : Fin 64) : count x b f = ∑ j : Fin 20, chunkCount x b f j :=
  sum_blocks blocks_20_5000 _

/-- A running minimum over the ten chunks — the first chunk's least value, then the minimum with each next chunk's —
    is, after the last chunk, the least value over the batch. -/
theorem lo_of_run (b : Fin 64) (c : Fin 3) (blk run : ℕ → EReal) (hblk : ∀ j : Fin 10, blk j.val = chunkLo x b c j)
    (h0 : run 0 = blk 0) (hs : ∀ i, i < 9 → run (i + 1) = min (run i) (blk (i + 1))) : run 9 = lo x b c :=
  run_min_whole blocks_10_10000 (fun n => x (ix3 b n c)) blk run hblk 9 rfl h0 hs

/-- A running maximum over the ten chunks is, after the last chunk, the greatest value over the batch. -/
theorem hi_of_run (b : Fin 64) (c : Fin 3) (blk run : ℕ → EReal) (hblk : ∀ j : Fin 10, blk j.val = chunkHi x b c j)
    (h0 : run 0 = blk 0) (hs : ∀ i, i < 9 → run (i + 1) = max (run i) (blk (i + 1))) : run 9 = hi x b c :=
  run_max_whole blocks_10_10000 (fun n => x (ix3 b n c)) blk run hblk 9 rfl h0 hs

/-- A running sum over the twenty chunks — cleared before the first, increased by each chunk's count in turn — is, after
    the last chunk, the voxel's count over the batch: `acc k` is the value before chunk `k`. -/
theorem count_of_acc (b : Fin 64) (f : Fin 64) (blk acc : ℕ → EReal) (hblk : ∀ j : Fin 20, blk j.val = chunkCount x b f j)
    (h0 : acc 0 = 0) (hs : ∀ k, acc (k + 1) = acc k + blk k) : acc 20 = count x b f := by
  rw [acc_eq_sum_range blk acc h0 hs 20, count_eq_chunks, ← Fin.sum_univ_eq_sum_range blk 20]
  exact Finset.sum_congr rfl fun j _ => hblk j

/-- The same with the steps known only for the twenty chunks: `acc k` for `k ≤ 20`. -/
theorem count_of_acc_le (b : Fin 64) (f : Fin 64) (blk acc : ℕ → EReal) (hblk : ∀ j : Fin 20, blk j.val = chunkCount x b f j)
    (h0 : acc 0 = 0) (hs : ∀ k, k < 20 → acc (k + 1) = acc k + blk k) : acc 20 = count x b f := by
  have key : ∀ k, k ≤ 20 → acc k = ∑ j ∈ Finset.range k, blk j := by
    intro k
    induction k with
    | zero => intro _; rw [h0, Finset.range_zero, Finset.sum_empty]
    | succ k ih => intro hk; rw [hs k (by omega), ih (by omega), Finset.sum_range_succ]
  rw [key 20 le_rfl, count_eq_chunks, ← Fin.sum_univ_eq_sum_range blk 20]
  exact Finset.sum_congr rfl fun j _ => hblk j

end Cert.HistKer

end
-- ==== Proof.LibFoldRun.lean ====
/-
  A running product (sum, fold) kept over the blocks of a whole, indexed by the blocks themselves.

  `run j` is the value after block `j` of `a`: block `0`'s own product at `j = 0`, and the previous value combined with
  block `j`'s afterwards. After the last block it is the product over the whole, `N = a * b` entries cut into `a`
  consecutive blocks of `b` (LibFoldBlocks: `blockIdx`, `prod_blocks`).
-/
import proofs.«151321_j58205396795680_2_alg».proof.Proof.LibFoldBlocks

open scoped BigOperators

namespace Cert.FoldBlocks

section Monoid
variable {M : Type*} [CommMonoid M]

/-- The running product after block `i` is the product of the blocks up to `i`. -/
theorem runFin_eq_prod {a : ℕ} (blk run : Fin a → M) (h0 : ∀ h : 0 < a, run ⟨0, h⟩ = blk ⟨0, h⟩)
    (hs : ∀ (i : ℕ) (hi : i + 1 < a), run ⟨i + 1, hi⟩ = run ⟨i, Nat.lt_of_succ_lt hi⟩ * blk ⟨i + 1, hi⟩)
    (i : ℕ) (hi : i < a) :
    run ⟨i, hi⟩ = ∏ j : Fin (i + 1), blk ⟨j.val, Nat.lt_of_lt_of_le j.isLt hi⟩ := by
  induction i with
  | zero => rw [h0 hi, Fin.prod_univ_one]; rfl
  | succ i ih => rw [Fin.prod_univ_castSucc, hs i hi, ih (Nat.lt_of_succ_lt hi)]; rfl

/-- Blocks to whole: if block `j` is the product of the whole's block `j`, the running product after the last of the
    `a = k + 1` blocks is the product over the whole. -/
theorem runFin_eq_prod_whole {a b N : ℕ} (h : a * b = N) (g : Fin N → M) (blk run : Fin a → M)
    (hblk : ∀ j : Fin a, blk j = ∏ r : Fin b, g (blockIdx h j r))
    (h0 : ∀ h : 0 < a, run ⟨0, h⟩ = blk ⟨0, h⟩)
    (hs : ∀ (i : ℕ) (hi : i + 1 < a), run ⟨i + 1, hi⟩ = run ⟨i, Nat.lt_of_succ_lt hi⟩ * blk ⟨i + 1, hi⟩)
    (k : ℕ) (hk : k + 1 = a) : run ⟨k, hk ▸ Nat.lt_succ_self k⟩ = ∏ n : Fin N, g n := by
  subst hk
  rw [runFin_eq_prod blk run h0 hs k (Nat.lt_succ_self k), prod_blocks h g]
  exact Finset.prod_congr rfl fun j _ => hblk j

end Monoid

section AddMonoid
variable {M : Type*} [AddCommMonoid M]

/-- Blocks to whole, for sums: the running sum after the last of the `a = k + 1` blocks is the sum over the whole. -/
theorem runFin_eq_sum_whole {a b N : ℕ} (h : a * b = N) (g : Fin N → M) (blk run : Fin a → M)
    (hblk : ∀ j : Fin a, blk j = ∑ r : Fin b, g (blockIdx h j r))
    (h0 : ∀ h : 0 < a, run ⟨0, h⟩ = blk ⟨0, h⟩)
    (hs : ∀ (i : ℕ) (hi : i + 1 < a), run ⟨i + 1, hi⟩ = run ⟨i, Nat.lt_of_succ_lt hi⟩ + blk ⟨i + 1, hi⟩)
    (k : ℕ) (hk : k + 1 = a) : run ⟨k, hk ▸ Nat.lt_succ_self k⟩ = ∑ n : Fin N, g n :=
  runFin_eq_prod_whole (M := Multiplicative M) h g blk run hblk h0 hs k hk

end AddMonoid

section Fold
variable {α : Type*} (op : α → α → α) [hc : Std.Commutative op] [ha : Std.Associative op]

/-- Blocks to whole, for a commutative, associative operation with neutral element `init`: the running fold after the
    last of the `a = k + 1` blocks is the fold over the whole. -/
theorem runFin_eq_fold_whole (init : α) (hn : ∀ v, op init v = v) {a b N : ℕ} (h : a * b = N) (g : Fin N → α)
    (blk run : Fin a → α)
    (hblk : ∀ j : Fin a, blk j = (Finset.univ : Finset (Fin b)).fold op init (fun r => g (blockIdx h j r)))
    (h0 : ∀ h : 0 < a, run ⟨0, h⟩ = blk ⟨0, h⟩)
    (hs : ∀ (i : ℕ) (hi : i + 1 < a), run ⟨i + 1, hi⟩ = op (run ⟨i, Nat.lt_of_succ_lt hi⟩) (blk ⟨i + 1, hi⟩))
    (k : ℕ) (hk : k + 1 = a) :
    run ⟨k, hk ▸ Nat.lt_succ_self k⟩ = (Finset.univ : Finset (Fin N)).fold op init g :=
  @runFin_eq_prod_whole α (foldMonoid op init hn) a b N h g blk run hblk h0 hs k hk

end Fold

/-- A running minimum of extended reals over the blocks ends at the least of the whole. -/
theorem runFin_min_whole {a b N : ℕ} (h : a * b = N) (g : Fin N → EReal) (blk run : Fin a → EReal)
    (hblk : ∀ j : Fin a, blk j = (Finset.univ : Finset (Fin b)).fold min ⊤ (fun r => g (blockIdx h j r)))
    (h0 : ∀ h : 0 < a, run ⟨0, h⟩ = blk ⟨0, h⟩)
    (hs : ∀ (i : ℕ) (hi : i + 1 < a), run ⟨i + 1, hi⟩ = min (run ⟨i, Nat.lt_of_succ_lt hi⟩) (blk ⟨i + 1, hi⟩))
    (k : ℕ) (hk : k + 1 = a) :
    run ⟨k, hk ▸ Nat.lt_succ_self k⟩ = (Finset.univ : Finset (Fin N)).fold min ⊤ g :=
  runFin_eq_fold_whole min ⊤ top_min h g blk run hblk h0 hs k hk

/-- A running maximum of extended reals over the blocks ends at the greatest of the whole. -/
theorem runFin_max_whole {a b N : ℕ} (h : a * b = N) (g : Fin N → EReal) (blk run : Fin a → EReal)
    (hblk : ∀ j : Fin a, blk j = (Finset.univ : Finset (Fin b)).fold max ⊥ (fun r => g (blockIdx h j r)))
    (h0 : ∀ h : 0 < a, run ⟨0, h⟩ = blk ⟨0, h⟩)
    (hs : ∀ (i : ℕ) (hi : i + 1 < a), run ⟨i + 1, hi⟩ = max (run ⟨i, Nat.lt_of_succ_lt hi⟩) (blk ⟨i + 1, hi⟩))
    (k : ℕ) (hk : k + 1 = a) :
    run ⟨k, hk ▸ Nat.lt_succ_self k⟩ = (Finset.univ : Finset (Fin N)).fold max ⊥ g :=
  runFin_eq_fold_whole max ⊥ bot_max h g blk run hblk h0 hs k hk

end Cert.FoldBlocks
-- ==== Proof.KerWholeMin.lean ====
/-
  The minimum / maximum kernel's recursion closed against the common specification.

  The kernel visits a batch's ten chunks of 10000 rows in turn (position `t = 10 · b + j` of 640): the first chunk
  stores its own least and greatest values, each later chunk the minimum (maximum) of what is stored and its own. After
  the tenth chunk the two stored rows hold the batch's least and greatest value of each coordinate.
-/
import proofs.«151321_j58205396795680_2_alg».proof.Proof.KerPay
import proofs.«151321_j58205396795680_2_alg».proof.Proof.KerWhole
import proofs.«151321_j58205396795680_2_alg».proof.Proof.LibFoldRun

noncomputable section

namespace Cert.HistKer

open Idealize.ShloMosaic Idealize.ShloMosaic.ValueIdx Cert.KernelIdeal Cert.KernelIdeal.Gen Cert.HistSpec Cert.FoldBlocks

/-- Indices with equal coordinates are equal. -/
theorem ix3_congr {n0 n1 n2 : ℕ} {a a' : Fin n0} {b b' : Fin n1} {c c' : Fin n2} (ha : a.val = a'.val)
    (hb : b.val = b'.val) (hc : c.val = c'.val) : ix3 a b c = ix3 a' b' c' := by
  obtain rfl := Fin.ext ha; obtain rfl := Fin.ext hb; obtain rfl := Fin.ext hc; rfl

/-- A family indexed by a position below `N` takes equal values at equal positions. -/
theorem at_congr {α : Type*} {N : ℕ} (acc : (n : ℕ) → n < N → α) {n m : ℕ} (h : n = m) (hn : n < N) (hm : m < N) :
    acc n hn = acc m hm := by subst h; rfl

variable (x : SX.Idx → EReal)

/-- The chunk at position `t = 10 · b + j` is chunk `j` of batch `b`. -/
theorem blk_row10 {N : ℕ} (hN : N = 640) (blk : Fin N → Vec Ideal S1x10000x3 .f32)
    (hblk : ∀ (t : Fin N) (r : Fin 10000) (cc : Fin 3), blk t (ix3 0 r cc)
      = x (ix3 (⟨t.val / 10, by have := t.isLt; omega⟩ : Fin 64)
          (⟨(t.val % 10) * 10000 + r.val, by have := r.isLt; omega⟩ : Fin 100000) cc))
    (t : Fin N) (b : Fin 64) (j : Fin 10) (ht : t.val = 10 * b.val + j.val) (r : Fin 10000) (cc : Fin 3) :
    blk t (ix3 0 r cc) = x (ix3 b (row10 j r) cc) := by
  rw [hblk t r cc]
  have := j.isLt
  exact congrArg x (ix3_congr (by show t.val / 10 = b.val; omega)
    (by show t.val % 10 * 10000 + r.val = j.val * 10000 + r.val; omega) rfl)

/-- After a batch's tenth chunk the first stored row holds the batch's least value of each coordinate. -/
theorem region0_lo {N : ℕ} (hN : N = 640) (blk : Fin N → Vec Ideal S1x10000x3 .f32)
    (hblk : ∀ (t : Fin N) (r : Fin 10000) (cc : Fin 3), blk t (ix3 0 r cc)
      = x (ix3 (⟨t.val / 10, by have := t.isLt; omega⟩ : Fin 64)
          (⟨(t.val % 10) * 10000 + r.val, by have := r.isLt; omega⟩ : Fin 100000) cc))
    (acc : (n : ℕ) → n < N → Vec Ideal S1x1x3 .f32 × Vec Ideal S1x1x3 .f32)
    (hfirst : ∀ t : Fin N, t.val % 10 = 0 → acc t.val t.isLt = (k0_pay4 (blk t), k0_pay5 (blk t)))
    (hlater : ∀ t : Fin N, ¬ t.val % 10 = 0 → acc t.val t.isLt
      = (k0_pay6 (blk t) (acc (t.val - 1) (Nat.lt_of_le_of_lt (Nat.sub_le _ _) t.isLt)).1,
         k0_pay7 (blk t) (acc (t.val - 1) (Nat.lt_of_le_of_lt (Nat.sub_le _ _) t.isLt)).2))
    (b : Fin 64) (cc : Fin 3) (h : 10 * b.val + 9 < N) :
    (acc (10 * b.val + 9) h).1 (ix3 0 0 cc) = lo x b cc := by
  have hb := b.isLt
  have hlt : ∀ i : Fin 10, 10 * b.val + i.val < N := fun i => by have := i.isLt; omega
  have hch : ∀ j : Fin 10, (Finset.univ : Finset (Fin 10000)).fold min ⊤
      (fun r => blk ⟨10 * b.val + j.val, hlt j⟩ (ix3 0 r cc)) = chunkLo x b cc j := fun j =>
    Finset.fold_congr fun r _ => blk_row10 x hN blk hblk ⟨_, hlt j⟩ b j rfl r cc
  refine runFin_min_whole blocks_10_10000 (fun n => x (ix3 b n cc)) (chunkLo x b cc)
    (fun i => (acc (10 * b.val + i.val) (hlt i)).1 (ix3 0 0 cc)) (fun j => rfl) ?_ ?_ 9 rfl
  · intro h0
    have e : acc (10 * b.val + 0) (hlt ⟨0, h0⟩) = (k0_pay4 (blk ⟨10 * b.val + 0, hlt ⟨0, h0⟩⟩), k0_pay5 (blk ⟨10 * b.val + 0, hlt ⟨0, h0⟩⟩)) :=
      hfirst ⟨10 * b.val + 0, hlt ⟨0, h0⟩⟩ (by show (10 * b.val + 0) % 10 = 0; omega)
    show (acc (10 * b.val + 0) (hlt ⟨0, h0⟩)).1 (ix3 0 0 cc) = _
    rw [e]
    dsimp only
    rw [k0_pay4_apply]
    exact hch ⟨0, h0⟩
  · intro i hi
    have hi' : i < 10 := Nat.lt_of_succ_lt hi
    have e : acc (10 * b.val + (i + 1)) (hlt ⟨i + 1, hi⟩)
        = (k0_pay6 (blk ⟨10 * b.val + (i + 1), hlt ⟨i + 1, hi⟩⟩) (acc (10 * b.val + (i + 1) - 1) _).1,
           k0_pay7 (blk ⟨10 * b.val + (i + 1), hlt ⟨i + 1, hi⟩⟩) (acc (10 * b.val + (i + 1) - 1) _).2) :=
      hlater ⟨10 * b.val + (i + 1), hlt ⟨i + 1, hi⟩⟩ (by show ¬ (10 * b.val + (i + 1)) % 10 = 0; omega)
    rw [at_congr acc (show 10 * b.val + (i + 1) - 1 = 10 * b.val + i by omega) _ (hlt ⟨i, hi'⟩)] at e
    show (acc (10 * b.val + (i + 1)) (hlt ⟨i + 1, hi⟩)).1 (ix3 0 0 cc)
      = min ((acc (10 * b.val + i) (hlt ⟨i, hi'⟩)).1 (ix3 0 0 cc)) (chunkLo x b cc ⟨i + 1, hi⟩)
    rw [e]
    dsimp only
    rw [k0_pay6_apply]
    exact congrArg (min _) (hch ⟨i + 1, hi⟩)

/-- After a batch's tenth chunk the second stored row holds the batch's greatest value of each coordinate. -/
theorem region0_hi {N : ℕ} (hN : N = 640) (blk : Fin N → Vec Ideal S1x10000x3 .f32)
    (hblk : ∀ (t : Fin N) (r : Fin 10000) (cc : Fin 3), blk t (ix3 0 r cc)
      = x (ix3 (⟨t.val / 10, by have := t.isLt; omega⟩ : Fin 64)
          (⟨(t.val % 10) * 10000 + r.val, by have := r.isLt; omega⟩ : Fin 100000) cc))
    (acc : (n : ℕ) → n < N → Vec Ideal S1x1x3 .f32 × Vec Ideal S1x1x3 .f32)
    (hfirst : ∀ t : Fin N, t.val % 10 = 0 → acc t.val t.isLt = (k0_pay4 (blk t), k0_pay5 (blk t)))
    (hlater : ∀ t : Fin N, ¬ t.val % 10 = 0 → acc t.val t.isLt
      = (k0_pay6 (blk t) (acc (t.val - 1) (Nat.lt_of_le_of_lt (Nat.sub_le _ _) t.isLt)).1,
         k0_pay7 (blk t) (acc (t.val - 1) (Nat.lt_of_le_of_lt (Nat.sub_le _ _) t.isLt)).2))
    (b : Fin 64) (cc : Fin 3) (h : 10 * b.val + 9 < N) :
    (acc (10 * b.val + 9) h).2 (ix3 0 0 cc) = hi x b cc := by
  have hb := b.isLt
  have hlt : ∀ i : Fin 10, 10 * b.val + i.val < N := fun i => by have := i.isLt; omega
  have hch : ∀ j : Fin 10, (Finset.univ : Finset (Fin 10000)).fold max ⊥
      (fun r => blk ⟨10 * b.val + j.val, hlt j⟩ (ix3 0 r cc)) = chunkHi x b cc j := fun j =>
    Finset.fold_congr fun r _ => blk_row10 x hN blk hblk ⟨_, hlt j⟩ b j rfl r cc
  refine runFin_max_whole blocks_10_10000 (fun n => x (ix3 b n cc)) (chunkHi x b cc)
    (fun i => (acc (10 * b.val + i.val) (hlt i)).2 (ix3 0 0 cc)) (fun j => rfl) ?_ ?_ 9 rfl
  · intro h0
    have e : acc (10 * b.val + 0) (hlt ⟨0, h0⟩) = (k0_pay4 (blk ⟨10 * b.val + 0, hlt ⟨0, h0⟩⟩), k0_pay5 (blk ⟨10 * b.val + 0, hlt ⟨0, h0⟩⟩)) :=
      hfirst ⟨10 * b.val + 0, hlt ⟨0, h0⟩⟩ (by show (10 * b.val + 0) % 10 = 0; omega)
    show (acc (10 * b.val + 0) (hlt ⟨0, h0⟩)).2 (ix3 0 0 cc) = _
    rw [e]
    dsimp only
    rw [k0_pay5_apply]
    exact hch ⟨0, h0⟩
  · intro i hi
    have hi' : i < 10 := Nat.lt_of_succ_lt hi
    have e : acc (10 * b.val + (i + 1)) (hlt ⟨i + 1, hi⟩)
        = (k0_pay6 (blk ⟨10 * b.val + (i + 1), hlt ⟨i + 1, hi⟩⟩) (acc (10 * b.val + (i + 1) - 1) _).1,
           k0_pay7 (blk ⟨10 * b.val + (i + 1), hlt ⟨i + 1, hi⟩⟩) (acc (10 * b.val + (i + 1) - 1) _).2) :=
      hlater ⟨10 * b.val + (i + 1), hlt ⟨i + 1, hi⟩⟩ (by show ¬ (10 * b.val + (i + 1)) % 10 = 0; omega)
    rw [at_congr acc (show 10 * b.val + (i + 1) - 1 = 10 * b.val + i by omega) _ (hlt ⟨i, hi'⟩)] at e
    show (acc (10 * b.val + (i + 1)) (hlt ⟨i + 1, hi⟩)).2 (ix3 0 0 cc)
      = max ((acc (10 * b.val + i) (hlt ⟨i, hi'⟩)).2 (ix3 0 0 cc)) (chunkHi x b cc ⟨i + 1, hi⟩)
    rw [e]
    dsimp only
    rw [k0_pay7_apply]
    exact congrArg (max _) (hch ⟨i + 1, hi⟩)

end Cert.HistKer

end
-- ==== Proof.KerVal0.lean ====
/-
  What the first region leaves, at the extended reals: its two result arrays hold, at batch b and coordinate c, the least
  and the greatest value of that coordinate over the batch's 100000 points — the running minimum / maximum over the ten
  chunks is the minimum / maximum over the whole batch.
-/
import proofs.«151321_j58205396795680_2_alg».proof.Proof.Run
import proofs.«151321_j58205396795680_2_alg».proof.Proof.KerBlocks0
import proofs.«151321_j58205396795680_2_alg».proof.Proof.KerWholeMin
import proofs.«151321_j58205396795680_2_alg».proof.Proof.Spec

set_option maxRecDepth 16384

noncomputable section

namespace Cert.KernelIdeal.HistVal

open Cert.KernelIdeal Cert.KernelIdeal.Gen Cert.HistSpec
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The points, the weights and the bias as launched on core `c`. -/
abbrev X (c : Dev nD) : SX.Idx → EReal := m ((c : Thread nD τ).loc main_arg0)
abbrev Wt (c : Dev nD) : SW.Idx → EReal := m ((c : Thread nD τ).loc main_arg1)
abbrev Bs (c : Dev nD) : SB.Idx → EReal := m ((c : Thread nD τ).loc main_arg2)

/-- Chunk k of batch b as region 0 stages it: rows 10000·k … of the batch. -/
theorem blk0 (c : Dev nD) (t : Fin cfg0.N) (r : Fin 10000) (cc : Fin 3) :
    (Hist0.iblk (Hist.V0 m ρ) c 0 t : S1x10000x3.Idx → EReal) (ix3 0 r cc)
      = X m c (ix3 ⟨t.val / 10, HistBlk.batch0_lt t⟩ ⟨(t.val % 10) * 10000 + r.val, HistBlk.row0_lt t r⟩ cc) :=
  HistBlk.iblk0_0 (Hist.V0 m ρ) c t 0 r cc

/-- After region 0 the first result array holds each batch's least values, -/
theorem mn_arr (c : Dev nD) : (Hist.V1 m ρ c main_v0_0 : S64x1x3.Idx → EReal) = fun i => lo (X m c) (i 0) (i 2) := by
  refine (Hist.W1_arr m ρ c 1).trans ?_
  refine HistBlk.final0_1 (Hist.V0 m ρ) c _ (fun b cc => ?_)
  exact Cert.HistKer.region0_lo (X m c) N_0 (fun t => Hist0.iblk (Hist.V0 m ρ) c 0 t) (fun t r cc => blk0 m ρ c t r cc)
    (Hist0.accAt (Hist.V0 m ρ) c) (Hist0.accAt_first _ c) (Hist0.accAt_later _ c) b cc _

/-- and the second its greatest. -/
theorem mx_arr (c : Dev nD) : (Hist.V1 m ρ c main_v0_1 : S64x1x3.Idx → EReal) = fun i => hi (X m c) (i 0) (i 2) := by
  refine (Hist.W1_arr m ρ c 2).trans ?_
  refine HistBlk.final0_2 (Hist.V0 m ρ) c _ (fun b cc => ?_)
  exact Cert.HistKer.region0_hi (X m c) N_0 (fun t => Hist0.iblk (Hist.V0 m ρ) c 0 t) (fun t r cc => blk0 m ρ c t r cc)
    (Hist0.accAt (Hist.V0 m ρ) c) (Hist0.accAt_first _ c) (Hist0.accAt_later _ c) b cc _

/-- Region 0 hands the points back as launched; the weights and the bias it never touches. -/
theorem x_arr (c : Dev nD) : Hist.V1 m ρ c main_arg0 = m ((c : Thread nD τ).loc main_arg0) :=
  (Hist.W1_arr m ρ c 0).trans (((Hist0.dats (Hist.V0 m ρ) c).arrAt_in 0 rfl _).trans (Hist0.A_eq (Hist.V0 m ρ) c 0))
theorem w_arr (c : Dev nD) : Hist.V1 m ρ c main_arg1 = m ((c : Thread nD τ).loc main_arg1) :=
  Hist.W1_of_ne m ρ c main_arg1 (by decide)
theorem b_arr (c : Dev nD) : Hist.V1 m ρ c main_arg2 = m ((c : Thread nD τ).loc main_arg2) :=
  Hist.W1_of_ne m ρ c main_arg2 (by decide)

end Cert.KernelIdeal.HistVal

end
-- ==== Proof.KerBlocks1.lean ====
import proofs.«151321_j58205396795680_2_alg».proof.Proof.K1Dat
import Idealize.ShloMosaic.Lib.Pipeline.Value
import Idealize.ShloMosaic.Lib.ValueIdx

set_option maxRecDepth 16384

noncomputable section

namespace Cert.KernelIdeal.HistBlk

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : Hist0.Vals F)

/-! # The second kernel: from blocks to the arrays

Point `t = 20·b + k` of the second kernel's grid is chunk `k` of batch `b`. Its chunk window's block is
rows `5000·k …` of batch `b` of the points array; the minima's and the maxima's windows' blocks are row
`b` of those arrays; the weights and the bias are taken whole at every point; the result window's
block is row `b` of the result, written back after the batch's last chunk (`k = 19`). So the result
array ends holding, row by row, what the last chunk of each batch stores. -/

/-! ## The index maps, decided over the grid -/

/-- The chunk window's block index at point `t`: batch `t / 20`, chunk `t % 20`, all three columns. -/
theorem idx1_0 : ∀ t : Fin cfg1.N, win1_0.index t (0 : Fin 3) = t.val / 20 ∧ win1_0.index t (1 : Fin 3) = t.val % 20
    ∧ win1_0.index t (2 : Fin 3) = 0 :=
  (by decide +kernel : ∀ t : Fin grid1.N, _)

/-- The minima window's block index at point `t`: row `t / 20`. -/
theorem idx1_1 : ∀ t : Fin cfg1.N, win1_1.index t (0 : Fin 3) = t.val / 20 ∧ win1_1.index t (1 : Fin 3) = 0
    ∧ win1_1.index t (2 : Fin 3) = 0 :=
  (by decide +kernel : ∀ t : Fin grid1.N, _)

/-- The maxima window's block index at point `t`: row `t / 20`. -/
theorem idx1_2 : ∀ t : Fin cfg1.N, win1_2.index t (0 : Fin 3) = t.val / 20 ∧ win1_2.index t (1 : Fin 3) = 0
    ∧ win1_2.index t (2 : Fin 3) = 0 :=
  (by decide +kernel : ∀ t : Fin grid1.N, _)

/-- The weights' and the bias' windows stay at block zero. -/
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 1) = 0 :=
  (by decide +kernel : ∀ t : Fin grid1.N, _)

/-- The result window's block index at point `t`: row `t / 20`. -/
theorem idx1_5 : ∀ t : Fin cfg1.N, win1_5.index t (0 : Fin 3) = t.val / 20 ∧ win1_5.index t (1 : Fin 3) = 0
    ∧ win1_5.index t (2 : Fin 3) = 0 :=
  (by decide +kernel : ∀ t : Fin grid1.N, _)

/-- The batch of a point, and the array row of a row of its chunk, are in range. -/
theorem batch1_lt (t : Fin cfg1.N) : t.val / 20 < 64 := by
  have hN : t.val < 1280 := lt_of_lt_of_eq t.isLt N_1
  omega
theorem row1_lt (t : Fin cfg1.N) (r : Fin 5000) : (t.val % 20) * 5000 + r.val < 100000 := by
  have := r.isLt; omega
/-- The last chunk of batch `b` is a point of the grid. -/
theorem last1_lt (b : Fin 64) : 20 * b.val + 19 < cfg1.N := by
  have := b.isLt; rw [show cfg1.N = 1280 from N_1]; omega
/-- The point of batch `b`'s last chunk. -/
abbrev last1 (b : Fin 64) : Fin cfg1.N := ⟨20 * b.val + 19, last1_lt b⟩

/-! ## The input windows' blocks, read -/

/-- Entry `(0, r, cc)` of the chunk at point `t` is entry `(t / 20, 5000·(t % 20) + r, cc)` of the points array. -/
theorem iblk1_0 (c : Dev nD) (t : Fin cfg1.N) (u : Fin 1) (r : Fin 5000) (cc : Fin 3) :
    (Hist1.iblk V c 0 t : S1x5000x3.Idx → Elt F .f32) (ix3 u r cc)
      = (V c main_arg0 : S64x100000x3.Idx → Elt F .f32) (ix3 ⟨t.val / 20, batch1_lt t⟩ ⟨(t.val % 20) * 5000 + r.val, row1_lt t r⟩ cc) := by
  obtain ⟨e0, e1, e2⟩ := idx1_0 t
  unfold Hist1.iblk
  rw [View.read_apply]
  show V c main_arg0 _ = V c main_arg0 _
  congr 1
  funext a
  apply Fin.ext
  have hu := u.isLt
  match a with
  | ⟨0, _⟩ => show win1_0.index t (0 : Fin 3) * 1 + 1 * u.val = t.val / 20; rw [e0]; omega
  | ⟨1, _⟩ => show win1_0.index t (1 : Fin 3) * 5000 + 1 * r.val = (t.val % 20) * 5000 + r.val; rw [e1]; omega
  | ⟨2, _⟩ => show win1_0.index t (2 : Fin 3) * 3 + 1 * cc.val = cc.val; rw [e2]; omega

/-- Entry `(0, 0, cc)` of the minima's block at point `t` is entry `(t / 20, 0, cc)` of the minima's array. -/
theorem iblk1_1 (c : Dev nD) (t : Fin cfg1.N) (u u' : Fin 1) (cc : Fin 3) :
    (Hist1.iblk V c 1 t : S1x1x3.Idx → Elt F .f32) (ix3 u u' cc)
      = (V c main_v0_0 : S64x1x3.Idx → Elt F .f32) (ix3 ⟨t.val / 20, batch1_lt t⟩ 0 cc) := by
  obtain ⟨e0, e1, e2⟩ := idx1_1 t
  unfold Hist1.iblk
  rw [View.read_apply]
  show V c main_v0_0 _ = V c main_v0_0 _
  congr 1
  funext a
  apply Fin.ext
  have hu := u.isLt; have hu' := u'.isLt
  match a with
  | ⟨0, _⟩ => show win1_1.index t (0 : Fin 3) * 1 + 1 * u.val = t.val / 20; rw [e0]; omega
  | ⟨1, _⟩ => show win1_1.index t (1 : Fin 3) * 1 + 1 * u'.val = 0; rw [e1]; omega
  | ⟨2, _⟩ => show win1_1.index t (2 : Fin 3) * 3 + 1 * cc.val = cc.val; rw [e2]; omega

/-- Entry `(0, 0, cc)` of the maxima's block at point `t` is entry `(t / 20, 0, cc)` of the maxima's array. -/
theorem iblk1_2 (c : Dev nD) (t : Fin cfg1.N) (u u' : Fin 1) (cc : Fin 3) :
    (Hist1.iblk V c 2 t : S1x1x3.Idx → Elt F .f32) (ix3 u u' cc)
      = (V c main_v0_1 : S64x1x3.Idx → Elt F .f32) (ix3 ⟨t.val / 20, batch1_lt t⟩ 0 cc) := by
  obtain ⟨e0, e1, e2⟩ := idx1_2 t
  unfold Hist1.iblk
  rw [View.read_apply]
  show V c main_v0_1 _ = V c main_v0_1 _
  congr 1
  funext a
  apply Fin.ext
  have hu := u.isLt; have hu' := u'.isLt
  match a with
  | ⟨0, _⟩ => show win1_2.index t (0 : Fin 3) * 1 + 1 * u.val = t.val / 20; rw [e0]; omega
  | ⟨1, _⟩ => show win1_2.index t (1 : Fin 3) * 1 + 1 * u'.val = 0; rw [e1]; omega
  | ⟨2, _⟩ => show win1_2.index t (2 : Fin 3) * 3 + 1 * cc.val = cc.val; rw [e2]; omega

/-- The weights' block at any point is the weights' array, entry by entry, -/
theorem iblk1_3 (c : Dev nD) (t : Fin cfg1.N) (k : Fin 40) (f : Fin 64) :
    (Hist1.iblk V c 3 t : S40x64.Idx → Elt F .f32) (ix2 k f) = (V c main_arg1 : S40x64.Idx → Elt F .f32) (ix2 k f) := by
  obtain ⟨e0, e1⟩ := idx1_3 t
  unfold Hist1.iblk
  rw [View.read_apply]
  show V c main_arg1 _ = V c main_arg1 _
  congr 1
  funext a
  apply Fin.ext
  match a with
  | ⟨0, _⟩ => show win1_3.index t (0 : Fin 2) * 40 + 1 * k.val = k.val; rw [e0]; omega
  | ⟨1, _⟩ => show win1_3.index t (1 : Fin 2) * 64 + 1 * f.val = f.val; rw [e1]; omega
/-- and as a whole. -/
theorem iblk1_3_eq (c : Dev nD) (t : Fin cfg1.N) :
    (Hist1.iblk V c 3 t : S40x64.Idx → Elt F .f32) = (V c main_arg1 : S40x64.Idx → Elt F .f32) :=
  funext fun j => by rw [eq_ix2 j]; exact iblk1_3 V c t _ _

/-- The bias' block at any point is the bias' array, entry by entry, -/
theorem iblk1_4 (c : Dev nD) (t : Fin cfg1.N) (k : Fin 40) :
    (Hist1.iblk V c 4 t : S40.Idx → Elt F .f32) (ix1 k) = (V c main_arg2 : S40.Idx → Elt F .f32) (ix1 k) := by
  have e0 := idx1_4 t
  unfold Hist1.iblk
  rw [View.read_apply]
  show V c main_arg2 _ = V c main_arg2 _
  congr 1
  funext a
  apply Fin.ext
  match a with
  | ⟨0, _⟩ => show win1_4.index t (0 : Fin 1) * 40 + 1 * k.val = k.val; rw [e0]; omega
/-- and as a whole. -/
theorem iblk1_4_eq (c : Dev nD) (t : Fin cfg1.N) :
    (Hist1.iblk V c 4 t : S40.Idx → Elt F .f32) = (V c main_arg2 : S40.Idx → Elt F .f32) :=
  funext fun j => by rw [eq_ix1 j]; exact iblk1_4 V c t _

/-! ## The result array after the region -/

/-- What the body leaves in the result window's buffer does not depend on how the point is spelt. -/
theorem pay1_congr (c : Dev nD) (t t' : Fin cfg1.N) (e : t = t') :
    (k1_pay2 (Hist1.cntAt V c t.val t.isLt) (Hist1.iblk V c 3 t) (Hist1.iblk V c 4 t) : S1x1x40.Idx → Elt F .f32)
      = k1_pay2 (Hist1.cntAt V c t'.val t'.isLt) (Hist1.iblk V c 3 t') (Hist1.iblk V c 4 t') := by subst e; rfl

/-- An index of the result array is in point `t`'s block iff each coordinate is in the block's range on its axis. -/
theorem mem_blk1_5 (t : Fin cfg1.N) (i : S64x1x40.Idx) :
    i ∈ ((cfg1.win 5).blk t).view.set ↔ ∀ a : Fin 3, win1_5.index t a * S1x1x40.size a ≤ (i a).val ∧ (i a).val < win1_5.index t a * S1x1x40.size a + S1x1x40.size a := by
  show i ∈ ((View.whole main_v1).slice (win1_5.rect t)).set ↔ _
  rw [View.set_slice_whole, Rect.mem_set_unit]
  exact Iff.rfl

/-- WHAT A BATCH'S LAST CHUNK WRITES BACK is row `t / 20` of any array `G` whose rows are what the last chunk of
    each batch stores. -/
theorem flushed1_5 (c : Dev nD) (G : S64x1x40.Idx → Elt F .f32)
    (hG : ∀ (b : Fin 64) (k : Fin 40),
      (k1_pay2 (Hist1.cntAt V c (20 * b.val + 19) (last1_lt b)) (Hist1.iblk V c 3 (last1 b)) (Hist1.iblk V c 4 (last1 b)) : S1x1x40.Idx → Elt F .f32) (ix3 0 0 k)
        = G (ix3 b 0 k))
    (t : Fin cfg1.N) (hf : (cfg1.win 5).flush t = true) :
    (Hist1.dats V c).flushed 5 t = ((cfg1.win 5).blk t).view.read (Elt F) G := by
  have h19 : t.val % 20 = 19 := (flush1_5 t).mp hf
  obtain ⟨e0, e1, e2⟩ := idx1_5 t
  show (cfg1.win 5).cut (grid1.coords t) ((Hist1.dats V c).after 5 t) = _
  rw [Hist1.after_5]
  funext j
  rw [View.read_apply]
  have h0 : (j 0).val < 1 := (j 0).isLt
  have h1 : (j 1).val < 1 := (j 1).isLt
  have hj : ((cfg1.win 5).blk t).view.emb j = (ix3 ⟨t.val / 20, batch1_lt t⟩ 0 (j 2) : S64x1x40.Idx) := by
    funext a; apply Fin.ext
    match a with
    | ⟨0, _⟩ => show win1_5.index t (0 : Fin 3) * 1 + 1 * (j 0).val = t.val / 20; rw [e0]; omega
    | ⟨1, _⟩ => show win1_5.index t (1 : Fin 3) * 1 + 1 * (j 1).val = 0; rw [e1]; omega
    | ⟨2, _⟩ => show win1_5.index t (2 : Fin 3) * 40 + 1 * (j 2).val = (j 2).val; rw [e2]; omega
  have hj' : j = (ix3 0 0 (j 2) : S1x1x40.Idx) := by
    funext a; apply Fin.ext
    match a with
    | ⟨0, _⟩ => show (j 0).val = 0; omega
    | ⟨1, _⟩ => show (j 1).val = 0; omega
    | ⟨2, _⟩ => rfl
  have ht : t = last1 ⟨t.val / 20, batch1_lt t⟩ := Fin.ext (by show t.val = 20 * (t.val / 20) + 19; omega)
  rw [hj, ← hG ⟨t.val / 20, batch1_lt t⟩ (j 2)]
  show (k1_pay2 (Hist1.cntAt V c t.val t.isLt) (Hist1.iblk V c 3 t) (Hist1.iblk V c 4 t) : S1x1x40.Idx → Elt F .f32) j = _
  rw [pay1_congr V c t _ ht]
  exact congrArg _ hj'

/-- Every row of the result array is the block of its batch's last chunk, which is written back. -/
theorem cover1_5 (i : S64x1x40.Idx) : ∃ t : Fin cfg1.N, (cfg1.win 5).flush t = true ∧ i ∈ ((cfg1.win 5).blk t).view.set := by
  have hb : (i 0).val < 64 := (i 0).isLt
  have h1 : (i 1).val < 1 := (i 1).isLt
  have h2 : (i 2).val < 40 := (i 2).isLt
  have hlt : 20 * (i 0).val + 19 < cfg1.N := by rw [show cfg1.N = 1280 from N_1]; omega
  obtain ⟨e0, e1, e2⟩ := idx1_5 ⟨20 * (i 0).val + 19, hlt⟩
  dsimp only at e0
  refine ⟨⟨20 * (i 0).val + 19, hlt⟩, (flush1_5 _).mpr (by show (20 * (i 0).val + 19) % 20 = 19; omega), ?_⟩
  rw [mem_blk1_5]
  intro a
  match a with
  | ⟨0, _⟩ => show win1_5.index ⟨20 * (i 0).val + 19, hlt⟩ (0 : Fin 3) * 1 ≤ (i 0).val ∧ (i 0).val < win1_5.index ⟨20 * (i 0).val + 19, hlt⟩ (0 : Fin 3) * 1 + 1; rw [e0]; omega
  | ⟨1, _⟩ => show win1_5.index ⟨20 * (i 0).val + 19, hlt⟩ (1 : Fin 3) * 1 ≤ (i 1).val ∧ (i 1).val < win1_5.index ⟨20 * (i 0).val + 19, hlt⟩ (1 : Fin 3) * 1 + 1; rw [e1]; omega
  | ⟨2, _⟩ => show win1_5.index ⟨20 * (i 0).val + 19, hlt⟩ (2 : Fin 3) * 40 ≤ (i 2).val ∧ (i 2).val < win1_5.index ⟨20 * (i 0).val + 19, hlt⟩ (2 : Fin 3) * 40 + 40; rw [e2]; omega

/-- THE RESULT ARRAY after the second region is any `G` whose row `b` is what batch `b`'s last chunk stores. -/
theorem final1_5 (c : Dev nD) (G : S64x1x40.Idx → Elt F .f32)
    (hG : ∀ (b : Fin 64) (k : Fin 40),
      (k1_pay2 (Hist1.cntAt V c (20 * b.val + 19) (last1_lt b)) (Hist1.iblk V c 3 (last1 b)) (Hist1.iblk V c 4 (last1 b)) : S1x1x40.Idx → Elt F .f32) (ix3 0 0 k)
        = G (ix3 b 0 k)) :
    (Hist1.dats V c).arrAt 5 cfg1.N = G :=
  (Hist1.dats V c).arrAt_eq_of_cover 5 G (flushed1_5 V c G hG) cover1_5

end Cert.KernelIdeal.HistBlk

end
-- ==== Proof.KerBlocks.lean ====
import proofs.«151321_j58205396795680_2_alg».proof.Proof.KerBlocks0
import proofs.«151321_j58205396795680_2_alg».proof.Proof.KerBlocks1

/-! # From blocks to the arrays

Which entry of its array each entry of a window's block is, at every point of the two grids, and the
result arrays after each region as any function whose rows are what each batch's last chunk leaves
(`Cert.KernelIdeal.HistBlk`): this module only gathers the two regions' parts. -/
-- ==== Proof.KerWholeCnt.lean ====
/-
  The histogram kernel's recursion closed against the common specification, and its result row.

  The kernel visits a batch's twenty chunks of 5000 rows in turn (position `t = 20 · b + j` of 1280), with the batch's
  least and greatest values at hand: the first chunk clears the running counts and adds its own, each later chunk adds
  its own. After the twentieth chunk the running counts are the batch's voxel counts; the result row computed from
  them is the specification's.
-/
import proofs.«151321_j58205396795680_2_alg».proof.Proof.KerWholeMin

noncomputable section

namespace Cert.HistKer

open Idealize.ShloMosaic Idealize.ShloMosaic.ValueIdx Cert.KernelIdeal Cert.KernelIdeal.Gen Cert.HistSpec Cert.FoldBlocks

variable (x : SX.Idx → EReal)

/-- The least value depends on the batch's number only. -/
theorem lo_congr {b b' : Fin 64} (h : b.val = b'.val) (cc : Fin 3) : lo x b cc = lo x b' cc := by rw [Fin.ext h]
/-- The greatest value depends on the batch's number only. -/
theorem hi_congr {b b' : Fin 64} (h : b.val = b'.val) (cc : Fin 3) : hi x b cc = hi x b' cc := by rw [Fin.ext h]

/-- The chunk at position `t = 20 · b + j` is chunk `j` of batch `b`. -/
theorem xb_row20 {N : ℕ} (hN : N = 1280) (xb : Fin N → Vec Ideal S1x5000x3 .f32)
    (hx : ∀ (t : Fin N) (r : Fin 5000) (cc : Fin 3), xb t (ix3 0 r cc)
      = x (ix3 (⟨t.val / 20, by have := t.isLt; omega⟩ : Fin 64)
          (⟨(t.val % 20) * 5000 + r.val, by have := r.isLt; omega⟩ : Fin 100000) cc))
    (t : Fin N) (b : Fin 64) (j : Fin 20) (ht : t.val = 20 * b.val + j.val) (r : Fin 5000) (cc : Fin 3) :
    xb t (ix3 0 r cc) = x (ix3 b (row20 j r) cc) := by
  rw [hx t r cc]
  have := j.isLt
  exact congrArg x (ix3_congr (by show t.val / 20 = b.val; omega)
    (by show t.val % 20 * 5000 + r.val = j.val * 5000 + r.val; omega) rfl)

/-- After a batch's twentieth chunk the running counts are the batch's voxel counts. -/
theorem region1_count {N : ℕ} (hN : N = 1280) (xb : Fin N → Vec Ideal S1x5000x3 .f32)
    (mnb mxb : Fin N → Vec Ideal S1x1x3 .f32)
    (hx : ∀ (t : Fin N) (r : Fin 5000) (cc : Fin 3), xb t (ix3 0 r cc)
      = x (ix3 (⟨t.val / 20, by have := t.isLt; omega⟩ : Fin 64)
          (⟨(t.val % 20) * 5000 + r.val, by have := r.isLt; omega⟩ : Fin 100000) cc))
    (hmn : ∀ (t : Fin N) (cc : Fin 3), mnb t (ix3 0 0 cc) = lo x (⟨t.val / 20, by have := t.isLt; omega⟩ : Fin 64) cc)
    (hmx : ∀ (t : Fin N) (cc : Fin 3), mxb t (ix3 0 0 cc) = hi x (⟨t.val / 20, by have := t.isLt; omega⟩ : Fin 64) cc)
    (cnt : (n : ℕ) → n < N → Vec Ideal S1x64 .f32)
    (hfirst : ∀ t : Fin N, t.val % 20 = 0 →
      cnt t.val t.isLt = k1_pay1 (k1_pay4 (xb t) (mnb t) (mxb t)) (k1_pay3 (F := Ideal)))
    (hlater : ∀ t : Fin N, ¬ t.val % 20 = 0 → cnt t.val t.isLt
      = k1_pay1 (k1_pay4 (xb t) (mnb t) (mxb t)) (cnt (t.val - 1) (Nat.lt_of_le_of_lt (Nat.sub_le _ _) t.isLt)))
    (b : Fin 64) (f : Fin 64) (h : 20 * b.val + 19 < N) :
    cnt (20 * b.val + 19) h (ix2 0 f) = count x b f := by
  have hb := b.isLt
  have hlt : ∀ i : Fin 20, 20 * b.val + i.val < N := fun i => by have := i.isLt; omega
  have hch : ∀ j : Fin 20, ∑ r : Fin 5000,
      k1_pay4 (xb ⟨20 * b.val + j.val, hlt j⟩) (mnb ⟨20 * b.val + j.val, hlt j⟩) (mxb ⟨20 * b.val + j.val, hlt j⟩) (ix2 r f)
        = chunkCount x b f j := by
    intro j
    have hj := j.isLt
    have hL : ∀ cc, mnb ⟨20 * b.val + j.val, hlt j⟩ (ix3 0 0 cc) = lo x b cc := fun cc =>
      (hmn ⟨_, hlt j⟩ cc).trans (lo_congr x (by show (20 * b.val + j.val) / 20 = b.val; omega) cc)
    have hH : ∀ cc, mxb ⟨20 * b.val + j.val, hlt j⟩ (ix3 0 0 cc) = hi x b cc := fun cc =>
      (hmx ⟨_, hlt j⟩ cc).trans (hi_congr x (by show (20 * b.val + j.val) / 20 = b.val; omega) cc)
    refine Finset.sum_congr rfl fun r _ => ?_
    have hX : ∀ cc, xb ⟨20 * b.val + j.val, hlt j⟩ (ix3 0 r cc) = x (ix3 b (row20 j r) cc) := fun cc =>
      xb_row20 x hN xb hx ⟨_, hlt j⟩ b j rfl r cc
    rw [k1_pay4_apply, hX 0, hX 1, hX 2, hL 0, hL 1, hL 2, hH 0, hH 1, hH 2]
    rfl
  refine runFin_eq_sum_whole blocks_20_5000 (fun n => hit (bin x b n) f) (chunkCount x b f)
    (fun i => cnt (20 * b.val + i.val) (hlt i) (ix2 0 f)) (fun j => rfl) ?_ ?_ 19 rfl
  · intro h0
    have e : cnt (20 * b.val + 0) (hlt ⟨0, h0⟩)
        = k1_pay1 (k1_pay4 (xb ⟨20 * b.val + 0, hlt ⟨0, h0⟩⟩) (mnb ⟨20 * b.val + 0, hlt ⟨0, h0⟩⟩) (mxb ⟨20 * b.val + 0, hlt ⟨0, h0⟩⟩))
            (k1_pay3 (F := Ideal)) :=
      hfirst ⟨20 * b.val + 0, hlt ⟨0, h0⟩⟩ (by show (20 * b.val + 0) % 20 = 0; omega)
    show cnt (20 * b.val + 0) (hlt ⟨0, h0⟩) (ix2 0 f) = _
    rw [e, k1_pay1_apply, k1_pay3_apply, zero_add]
    exact hch ⟨0, h0⟩
  · intro i hi
    have hi' : i < 20 := Nat.lt_of_succ_lt hi
    have e : cnt (20 * b.val + (i + 1)) (hlt ⟨i + 1, hi⟩)
        = k1_pay1 (k1_pay4 (xb ⟨20 * b.val + (i + 1), hlt ⟨i + 1, hi⟩⟩) (mnb ⟨20 * b.val + (i + 1), hlt ⟨i + 1, hi⟩⟩)
            (mxb ⟨20 * b.val + (i + 1), hlt ⟨i + 1, hi⟩⟩)) (cnt (20 * b.val + (i + 1) - 1) _) :=
      hlater ⟨20 * b.val + (i + 1), hlt ⟨i + 1, hi⟩⟩ (by show ¬ (20 * b.val + (i + 1)) % 20 = 0; omega)
    rw [at_congr cnt (show 20 * b.val + (i + 1) - 1 = 20 * b.val + i by omega) _ (hlt ⟨i, hi'⟩)] at e
    show cnt (20 * b.val + (i + 1)) (hlt ⟨i + 1, hi⟩) (ix2 0 f)
      = cnt (20 * b.val + i) (hlt ⟨i, hi'⟩) (ix2 0 f) + chunkCount x b f ⟨i + 1, hi⟩
    rw [e, k1_pay1_apply]
    exact congrArg (_ + ·) (hch ⟨i + 1, hi⟩)

/-- The result row computed from a batch's voxel counts, the weights and the bias is the specification's. -/
theorem last_row (s : Vec Ideal S1x64 .f32) (Wb : Vec Ideal S40x64 .f32) (bb : Vec Ideal S40 .f32)
    (W : SW.Idx → EReal) (bias : SB.Idx → EReal) (b : Fin 64)
    (hs : ∀ f : Fin 64, s (ix2 0 f) = count x b f) (hW : ∀ (k : Fin 40) (f : Fin 64), Wb (ix2 k f) = W (ix2 k f))
    (hb : ∀ k : Fin 40, bb (ix1 k) = bias (ix1 k)) (k : Fin 40) :
    k1_pay2 s Wb bb (ix3 0 0 k) = out x W bias b k := by
  rw [k1_pay2_apply, hb k]
  unfold out
  refine congrArg (fun z => z + bias (ix1 k)) (Finset.sum_congr rfl fun f _ => ?_)
  rw [hs f, hW k f]

end Cert.HistKer

end
-- ==== Proof.KerVal1.lean ====
/-
  What the second region and the reshape leave, at the extended reals: the result array holds the specification of the
  launch's arguments.

  Region 1 reads the points again (chunks of 5000 rows) and, through its second and third windows, the two arrays region 0
  left: each batch's least and greatest values. So each chunk's rows are compared against the voxels exactly as the
  specification's `bin` says, the scratch row after a batch's last chunk holds the batch's counts, and the row stored there
  is the specification's result row. The reshape drops the unit middle axis.
-/
import proofs.«151321_j58205396795680_2_alg».proof.Proof.KerVal0
import proofs.«151321_j58205396795680_2_alg».proof.Proof.KerBlocks
import proofs.«151321_j58205396795680_2_alg».proof.Proof.KerWholeCnt
import Idealize.ShloMosaic.Lib.StableHlo.Run
import Idealize.ShloMosaic.Lib.Pipeline.Value
import Idealize.ShloMosaic.Lib.ValueLayout

set_option maxRecDepth 16384

noncomputable section

namespace Cert.KernelIdeal.HistVal

open Cert.KernelIdeal Cert.KernelIdeal.Gen Cert.HistSpec
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- Chunk k of batch b as region 1 stages it: rows 5000·k … of the batch, of the points as launched. -/
theorem blk1 (c : Dev nD) (t : Fin cfg1.N) (r : Fin 5000) (cc : Fin 3) :
    (Hist1.iblk (Hist.V1 m ρ) c 0 t : S1x5000x3.Idx → EReal) (ix3 0 r cc)
      = X m c (ix3 ⟨t.val / 20, HistBlk.batch1_lt t⟩ ⟨(t.val % 20) * 5000 + r.val, HistBlk.row1_lt t r⟩ cc) :=
  (HistBlk.iblk1_0 (Hist.V1 m ρ) c t 0 r cc).trans (by rw [x_arr])

/-- Its second and third windows hold the batch's least and greatest values. -/
theorem mn1 (c : Dev nD) (t : Fin cfg1.N) (cc : Fin 3) :
    (Hist1.iblk (Hist.V1 m ρ) c 1 t : S1x1x3.Idx → EReal) (ix3 0 0 cc) = lo (X m c) ⟨t.val / 20, HistBlk.batch1_lt t⟩ cc :=
  (HistBlk.iblk1_1 (Hist.V1 m ρ) c t 0 0 cc).trans (by rw [mn_arr]; rfl)
theorem mx1 (c : Dev nD) (t : Fin cfg1.N) (cc : Fin 3) :
    (Hist1.iblk (Hist.V1 m ρ) c 2 t : S1x1x3.Idx → EReal) (ix3 0 0 cc) = hi (X m c) ⟨t.val / 20, HistBlk.batch1_lt t⟩ cc :=
  (HistBlk.iblk1_2 (Hist.V1 m ρ) c t 0 0 cc).trans (by rw [mx_arr]; rfl)

/-- After a batch's last chunk the scratch row holds the batch's counts. -/
theorem cnt_last (c : Dev nD) (b : Fin 64) (f : Fin 64) :
    (Hist1.cntAt (Hist.V1 m ρ) c (20 * b.val + 19) (HistBlk.last1_lt b) : S1x64.Idx → EReal) (ix2 0 f) = count (X m c) b f :=
  Cert.HistKer.region1_count (X m c) N_1 (fun t => Hist1.iblk (Hist.V1 m ρ) c 0 t) (fun t => Hist1.iblk (Hist.V1 m ρ) c 1 t)
    (fun t => Hist1.iblk (Hist.V1 m ρ) c 2 t) (fun t r cc => blk1 m ρ c t r cc) (fun t cc => mn1 m ρ c t cc) (fun t cc => mx1 m ρ c t cc)
    (Hist1.cntAt (Hist.V1 m ρ) c) (Hist1.cntAt_first _ c) (Hist1.cntAt_later _ c) b f _

/-- After region 1 its result array holds the specification's rows. -/
theorem out_arr (c : Dev nD) :
    (Hist.V2 m ρ c main_v1 : S64x1x40.Idx → EReal) = fun i => out (X m c) (Wt m c) (Bs m c) (i 0) (i 2) := by
  refine (Hist.W2_arr m ρ c 5).trans ?_
  refine HistBlk.final1_5 (Hist.V1 m ρ) c _ (fun b k => ?_)
  exact Cert.HistKer.last_row (X m c) _ _ _ (Wt m c) (Bs m c) b (fun f => cnt_last m ρ c b f)
    (fun k f => (HistBlk.iblk1_3 (Hist.V1 m ρ) c _ k f).trans (by rw [w_arr]))
    (fun k => (HistBlk.iblk1_4 (Hist.V1 m ρ) c _ k).trans (by rw [b_arr])) k

/-- The reshape reads the result array with its unit middle axis dropped. -/
theorem v2_reshape (c : Dev nD) :
    (Hist.W3 m ρ c (Proc.devRef .tc main_v2) : S64x40.Idx → EReal)
      = shapeCast S64x40 (Hist.W2 m ρ c (Proc.devRef .tc main_v1) : S64x1x40.Idx → EReal) shapeCasts_S64x1x40_S64x40 := by
  show StableHlo.after hostOps2 _ (Proc.devRef .tc main_v2) = _
  after_results
  rfl

/-- THE KERNEL'S VALUE: at the end the result array holds the specification of the arguments as launched. -/
theorem kernel_value (c : Dev nD) :
    (Hist.W3 m ρ c (Proc.devRef .tc main_v2) : S64x40.Idx → EReal) = G (X m c) (Wt m c) (Bs m c) := by
  rw [v2_reshape]
  funext i
  obtain ⟨b, k, rfl⟩ : ∃ (b : Fin 64) (k : Fin 40), i = ix2 b k := ⟨i 0, i 1, eq_ix2 i⟩
  rw [shapeCast_apply _ shapeCasts_S64x1x40_S64x40 (ix2 b k) (ix3 b 0 k) (by
    rewrite [Shape.rowMajor_val_three, Shape.rowMajor_val_two]
    show (b.val * 1 + 0) * 40 + k.val = b.val * 40 + k.val
    omega)]
  exact congrFun (out_arr m ρ c) (ix3 b 0 k)

end Cert.KernelIdeal.HistVal

end
-- ==== Proof.RefMin.lean ====
/-
  The reference's running minimum and maximum are the specification's.

  The reference reduces the points' array over its middle axis with `min` from the word of `+∞` and with `max` from
  the word of `-∞`. A reduction over one axis by a commutative, associative operation is, at `(b, c)`, the fold of the
  operation from the initial value over the coordinates `n` of the dropped axis, read at `(b, n, c)`: the
  specification's `lo` and `hi`.
-/
import proofs.«151321_j58205396795680_2_alg».proof.Proof.Gen.ReferenceIdeal.Read
import proofs.«151321_j58205396795680_2_alg».proof.Proof.Spec

noncomputable section

namespace Cert.HistRef

open Cert.ReferenceIdeal Cert.ReferenceIdeal.Gen Cert.ReferenceIdeal.Read Idealize.ShloMosaic Idealize.ShloMosaic.ValueIdx
open Cert.HistSpec

/-- The word `0x7F800000` is `+∞`. -/
theorem ofBits_pos_inf : Ideal.ofBits .f32 0x7F800000#32 = ⊤ := by
  simp [Ideal.ofBits, Ideal.ieee]

/-- The word `0xFF800000` is `-∞`. -/
theorem ofBits_neg_inf : Ideal.ofBits .f32 0xFF800000#32 = ⊥ := by
  simp [Ideal.ofBits, Ideal.ieee]

theorem reduces_mid : S64x100000x3.Reduces [1] S64x3 := by decide

/-- Index `(b, c)` with the middle coordinate `n` put back is `(b, n, c)`. -/
theorem lift_mid (h : S64x100000x3.Reduces [1] S64x3) (b : Fin 64) (c : Fin 3) (n : Fin 100000) :
    h.lift (ix2 b c) n = ix3 b n c := by
  funext a; apply Fin.ext
  fin_cases a <;> rfl

/-- The reference's minimum over a batch's points is the specification's `lo`. -/
theorem v0_eq (x : SX.Idx → EReal) (b : Fin 64) (c : Fin 3) :
    val_main_v0 (F := Ideal) x (ix2 b c) = lo x b c := by
  unfold val_main_v0 lo
  refine (Host.reduce_eq_fold_single (FloatOps.minimumf (F := Ideal) (φ := .f32)) x _ reducesTo_S64x100000x3_S64x3_d1 reduces_mid h_S_ (ix2 b c)).trans ?_
  rw [val_main_cst_apply, Ideal.ofBits_def, ofBits_pos_inf]
  exact congrArg (fun g => Finset.fold min ⊤ g (Finset.univ : Finset (Fin 100000)))
    (funext fun n => congrArg x (lift_mid reduces_mid b c n))

/-- The reference's maximum over a batch's points is the specification's `hi`. -/
theorem v2_eq (x : SX.Idx → EReal) (b : Fin 64) (c : Fin 3) :
    val_main_v2 (F := Ideal) x (ix2 b c) = hi x b c := by
  unfold val_main_v2 hi
  refine (Host.reduce_eq_fold_single (FloatOps.maximumf (F := Ideal) (φ := .f32)) x _ reducesTo_S64x100000x3_S64x3_d1 reduces_mid h_S_ (ix2 b c)).trans ?_
  rw [val_main_cst_0_apply, Ideal.ofBits_def, ofBits_neg_inf]
  exact congrArg (fun g => Finset.fold max ⊥ g (Finset.univ : Finset (Fin 100000)))
    (funext fun n => congrArg x (lift_mid reduces_mid b c n))

end Cert.HistRef

end
-- ==== Proof.RefBin.lean ====
/-
  The reference's voxel number of a point is the specification's, shifted by the batch's offset.

  Per coordinate the reference subtracts the batch's minimum, divides by the range, multiplies by four, takes the floor,
  converts to an integer and clips into [0, 3]: the specification's `cell`. It then forms `(q₀·4)·4 + q₁·4 + q₂`, which
  is `16·q₀ + 4·q₁ + q₂` in the ring of 32-bit words, and adds `64·b` for batch `b`.
-/
import proofs.«151321_j58205396795680_2_alg».proof.Proof.RefMin

noncomputable section

namespace Cert.HistRef

open Cert.ReferenceIdeal Cert.ReferenceIdeal.Gen Cert.ReferenceIdeal.Read Idealize.ShloMosaic Idealize.ShloMosaic.ValueIdx
open Cert.HistSpec

/-- The clipped cell of one entry, from the entry and the two reductions at the entry's batch and coordinate. -/
theorem v13_apply (x : SX.Idx → EReal) (i : S64x100000x3.Idx) :
    val_main_v13 (F := Ideal) x i
      = cell (x i) (val_main_v0 (F := Ideal) x (idx_main_v1 (idx_main_v4 i))) (val_main_v2 (F := Ideal) x (idx_main_v3 (idx_main_v4 i))) := by
  rw [val_main_v13_apply, val_main_call0_v4_apply, val_main_call0_v3_apply, val_main_c_2_apply,
    val_main_call0_v2_apply, val_main_call0_v1_apply, val_main_call0_v0_apply, val_main_c_apply,
    val_main_v12_apply, val_main_v11_apply, val_main_v10_apply, val_main_v9_apply, val_main_cst_1_apply,
    val_main_v8_apply, val_main_v5_apply, val_main_v7_apply, val_main_v6_apply, val_main_v4_apply,
    val_main_v1_apply, val_main_v3_apply]
  unfold cell
  simp only [Ideal.subf_def, Ideal.hostDivf_def, Ideal.mulf_def, Ideal.hostUnary_floor_def, Ideal.ofBits_def]
  rfl

theorem idx1_ix3 (b : Fin 64) (n : Fin 100000) (c : Fin 3) : idx_main_v1 (idx_main_v4 (ix3 b n c)) = ix2 b c := by
  funext a; apply Fin.ext
  fin_cases a <;> rfl

theorem idx3_ix3 (b : Fin 64) (n : Fin 100000) (c : Fin 3) : idx_main_v3 (idx_main_v4 (ix3 b n c)) = ix2 b c := by
  funext a; apply Fin.ext
  fin_cases a <;> rfl

/-- The reference's clipped cell at `(b, n, c)` is the specification's. -/
theorem v13_eq (x : SX.Idx → EReal) (b : Fin 64) (n : Fin 100000) (c : Fin 3) :
    val_main_v13 (F := Ideal) x (ix3 b n c) = cell (x (ix3 b n c)) (lo x b c) (hi x b c) := by
  rw [v13_apply, idx1_ix3, idx3_ix3, v0_eq, v2_eq]

theorem idx14_ix2 (b : Fin 64) (n : Fin 100000) : idx_main_v14 (idx_main_v15 (ix2 b n)) = ix3 b n 0 := by
  have hb := b.isLt; have hn := n.isLt
  funext a; apply Fin.ext
  fin_cases a
  · show (b.val * 100000 + n.val) / 100000 = b.val; omega
  · show (b.val * 100000 + n.val) / 1 % 100000 = n.val; omega
  · rfl

theorem idx20_ix2 (b : Fin 64) (n : Fin 100000) : idx_main_v20 (idx_main_v21 (ix2 b n)) = ix3 b n 1 := by
  have hb := b.isLt; have hn := n.isLt
  funext a; apply Fin.ext
  fin_cases a
  · show (b.val * 100000 + n.val) / 100000 = b.val; omega
  · show (b.val * 100000 + n.val) / 1 % 100000 = n.val; omega
  · rfl

theorem idx25_ix2 (b : Fin 64) (n : Fin 100000) : idx_main_v25 (idx_main_v26 (ix2 b n)) = ix3 b n 2 := by
  have hb := b.isLt; have hn := n.isLt
  funext a; apply Fin.ext
  fin_cases a
  · show (b.val * 100000 + n.val) / 100000 = b.val; omega
  · show (b.val * 100000 + n.val) / 1 % 100000 = n.val; omega
  · rfl

/-- `(q₀·4)·4 + q₁·4 + q₂ = 16·q₀ + 4·q₁ + q₂` on 32-bit words. -/
theorem voxel_ring (q0 q1 q2 : BitVec 32) :
    IntOp.addi (IntOp.addi (IntOp.muli (IntOp.muli q0 4#32) 4#32) (IntOp.muli q1 4#32)) q2 = voxel q0 q1 q2 := by
  unfold voxel IntOp.addi IntOp.muli
  rw [BitVec.mul_assoc]
  rfl

/-- The reference's index word of point `n` of batch `b`: the point's voxel plus `64·b`. -/
theorem v33_eq (x : SX.Idx → EReal) (b : Fin 64) (n : Fin 100000) :
    val_main_v33 (F := Ideal) x (ix2 b n) = IntOp.addi (bin x b n) (IntOp.muli (BitVec.ofNat 32 b.val) 64#32) := by
  rw [val_main_v33_apply, val_main_v32_apply, val_main_v31_apply, val_main_v30_apply, val_main_v29_apply,
    val_main_c_6_apply, val_main_v28_apply,
    val_main_v27_apply, val_main_v24_apply, val_main_v19_apply, val_main_v17_apply, val_main_v23_apply,
    val_main_v16_apply, val_main_v18_apply, val_main_v22_apply, val_main_c_3_apply, val_main_c_4_apply, val_main_c_5_apply,
    val_main_v15_apply, val_main_v14_apply, val_main_v21_apply, val_main_v20_apply, val_main_v26_apply, val_main_v25_apply,
    idx14_ix2, idx20_ix2, idx25_ix2, v13_eq, v13_eq, v13_eq, voxel_ring]
  rfl

end Cert.HistRef

end
-- ==== Proof.RefWords.lean ====
/-
  Facts about the 32-bit words of the histogram.

  A cell is a word clipped into [0, 3], so a voxel `16·q₀ + 4·q₁ + q₂` is below 64 with no carry out of the word, and the
  index word `voxel + 64·b` of a point of batch `b < 64` is below 4096: read signed it is that natural number. A point's
  contribution to voxel `f` is the comparison bit widened and converted: 1 when the voxel is `f`, else 0.
-/
import proofs.«151321_j58205396795680_2_alg».proof.Proof.Spec
import Mathlib.Tactic

noncomputable section

namespace Cert.HistRef

open Idealize.ShloMosaic Idealize.ShloMosaic.ValueIdx
open Cert.HistSpec

/-- A word clipped into [0, 3] is at most 3. -/
theorem clip_le (v : BitVec 32) : (IntOp.minsi 3#32 (IntOp.maxsi 0#32 v)).toNat ≤ 3 := by
  unfold IntOp.minsi IntOp.maxsi
  by_cases h0 : v.slt 0#32
  · rw [if_pos h0]
    decide
  · rw [if_neg h0]
    by_cases h3 : (3#32).slt v
    · rw [if_pos h3]; decide
    · rw [if_neg h3]
      rw [BitVec.slt_iff_toInt_lt] at h0 h3
      have e0 : (0#32).toInt = 0 := by decide
      have e3 : (3#32).toInt = 3 := by decide
      rw [e0] at h0; rw [e3] at h3
      have := BitVec.toInt_eq_toNat_cond v
      have hlt := v.isLt
      split at this <;> omega

theorem cell_le (v l h : EReal) : (cell v l h).toNat ≤ 3 := clip_le _

/-- The voxel of three cells in [0, 3]: no carry out of the word. -/
theorem voxel_toNat (q0 q1 q2 : BitVec 32) (h0 : q0.toNat ≤ 3) (h1 : q1.toNat ≤ 3) (h2 : q2.toNat ≤ 3) :
    (voxel q0 q1 q2).toNat = q0.toNat * 16 + q1.toNat * 4 + q2.toNat := by
  unfold voxel IntOp.addi IntOp.muli
  simp only [BitVec.toNat_add, BitVec.toNat_mul, BitVec.toNat_ofNat]
  omega

theorem bin_lt (x : SX.Idx → EReal) (b : Fin 64) (n : Fin 100000) : (bin x b n).toNat < 64 := by
  unfold bin
  rw [voxel_toNat _ _ _ (cell_le _ _ _) (cell_le _ _ _) (cell_le _ _ _)]
  have := cell_le (x (ix3 b n 0)) (lo x b 0) (hi x b 0)
  have := cell_le (x (ix3 b n 1)) (lo x b 1) (hi x b 1)
  have := cell_le (x (ix3 b n 2)) (lo x b 2) (hi x b 2)
  omega

/-- The index word of a point: its voxel plus `64·b`, read signed. -/
theorem word_toInt (v : BitVec 32) (hv : v.toNat < 64) (b : Fin 64) :
    (IntOp.addi v (IntOp.muli (BitVec.ofNat 32 b.val) 64#32)).toInt = ((v.toNat + b.val * 64 : Nat) : Int) := by
  have hb := b.isLt
  have hn : (IntOp.addi v (IntOp.muli (BitVec.ofNat 32 b.val) 64#32)).toNat = v.toNat + b.val * 64 := by
    unfold IntOp.addi IntOp.muli
    simp only [BitVec.toNat_add, BitVec.toNat_mul, BitVec.toNat_ofNat]
    omega
  rw [BitVec.toInt_eq_toNat_cond, hn, if_pos (by omega)]

/-- One point's contribution: 1 when its voxel is `f`, else 0. -/
theorem hit_eq (v : BitVec 32) (f : Fin 64) : hit v f = if v = BitVec.ofNat 32 f.val then 1 else 0 := by
  unfold hit IntOp.cmpi
  by_cases h : v = BitVec.ofNat 32 f.val
  · have hb : (v == BitVec.ofNat 32 f.val) = true := beq_iff_eq.2 h
    have e : ((BitVec.ofBool true).setWidth 32).toInt = 1 := by decide
    rw [if_pos h]
    simp only [hb, e]
    norm_num
  · have hb : (v == BitVec.ofNat 32 f.val) = false := beq_eq_false_iff_ne.2 h
    have e : ((BitVec.ofBool false).setWidth 32).toInt = 0 := by decide
    rw [if_neg h]
    simp only [hb, e]
    norm_num

theorem eq_ofNat_iff (v : BitVec 32) (f : Fin 64) : v = BitVec.ofNat 32 f.val ↔ v.toNat = f.val := by
  have hf := f.isLt
  constructor
  · intro h; rw [h, BitVec.toNat_ofNat]; omega
  · intro h; apply BitVec.eq_of_toNat_eq; rw [h, BitVec.toNat_ofNat]; omega

end Cert.HistRef
end
-- ==== Proof.LibSetScatter.lean ====
/-
  A scatter read at one index.  The host's scatter is a left fold over the update indices: each update whose target
  index lies inside the operand rewrites that one entry, the others pass.  Read at an index `i`, the fold therefore
  only sees the updates aimed at `i`: none, and the operand's entry stands; exactly one, and the entry is the body's
  value of the operand's entry and that update.  For a window written from a zero start (a padding of the update into a
  larger zero array) the target of update index `j` is `j` itself, coordinate by coordinate.
  Library imports only.
-/
import Idealize.ShloMosaic.PureOps.ShapeOps
import Idealize.ShloMosaic.Lib.ValueIdx

namespace Cert.LibSetScatter

open Idealize.ShloMosaic

section Fold

variable {κ ι α : Type} [DecidableEq ι] (g : κ → Option ι) (v : κ → α) (f : α → α → α)
  (step : (ι → α) → κ → (ι → α))
  (hsome : ∀ r n i, g n = some i → step r n = fun i' => if i' = i then f (r i) (v n) else r i')
  (hnone : ∀ r n, g n = none → step r n = r)

include hsome hnone

/-- One step aimed elsewhere leaves the entry at `i`. -/
theorem step_miss (r : ι → α) (n : κ) (i : ι) (h : g n ≠ some i) : step r n i = r i := by
  cases hg : g n with
  | none => rw [hnone r n hg]
  | some i0 =>
    rw [hsome r n i0 hg]
    have hne : i ≠ i0 := fun e => h (by rw [hg, e])
    exact if_neg hne

/-- No update of the list is aimed at `i`: the entry at `i` stands. -/
theorem foldl_miss : ∀ (L : List κ) (x : ι → α) (i : ι), (∀ b ∈ L, g b ≠ some i) → L.foldl step x i = x i
  | [], _, _, _ => rfl
  | h :: t, x, i, hm => by
    rw [List.foldl_cons, foldl_miss t (step x h) i fun b hb => hm b (List.mem_cons_of_mem _ hb)]
    exact step_miss g v f step hsome hnone x h i (hm h List.mem_cons_self)

/-- Exactly one update of a list without repeats is aimed at `i`: the entry is the body's value of the old entry and it. -/
theorem foldl_hit : ∀ (L : List κ), L.Nodup → ∀ (x : ι → α) (i : ι) (a : κ), a ∈ L → g a = some i →
    (∀ b ∈ L, g b = some i → b = a) → L.foldl step x i = f (x i) (v a)
  | [], _, _, _, _, ha, _, _ => absurd ha List.not_mem_nil
  | h :: t, hnd, x, i, a, ha, hga, hu => by
    have hht : h ∉ t := (List.nodup_cons.mp hnd).1
    have htn : t.Nodup := (List.nodup_cons.mp hnd).2
    rw [List.foldl_cons]
    rcases List.mem_cons.mp ha with rfl | hat
    · have hmiss : ∀ b ∈ t, g b ≠ some i := fun b hb e =>
        hht ((hu b (List.mem_cons_of_mem _ hb) e) ▸ hb)
      rw [foldl_miss g v f step hsome hnone t (step x a) i hmiss, hsome x a i hga]
      exact if_pos rfl
    · have hh : g h ≠ some i := fun e => hht ((hu h List.mem_cons_self e) ▸ hat)
      rw [foldl_hit t htn (step x h) i a hat hga fun b hb e => hu b (List.mem_cons_of_mem _ hb) e,
        step_miss g v f step hsome hnone x h i hh]

end Fold

variable {s si u : Shape} {w : Nat} {α : Type}

/-- The host's scatter at an index that exactly one update index is aimed at. -/
theorem scatter_apply_hit (d : ScatterDims s si u) (f : α → α → α) (x : s.Idx → α) (idx : IVec si w) (upd : u.Idx → α)
    (i : s.Idx) (j : u.Idx) (hj : d.resultIdx? j idx = some i) (hu : ∀ j', d.resultIdx? j' idx = some i → j' = j) :
    Host.scatter d f x idx upd i = f (x i) (upd j) := by
  unfold Host.scatter
  have hsym : u.rowMajor.symm (u.rowMajor j) = j := u.rowMajor.symm_apply_apply j
  refine (foldl_hit (fun n => d.resultIdx? (u.rowMajor.symm n) idx) (fun n => upd (u.rowMajor.symm n)) f _ ?_ ?_
    (List.finRange u.numel) (List.nodup_finRange _) x i (u.rowMajor j) (List.mem_finRange _) (by rw [hsym]; exact hj) ?_).trans
    (by rw [hsym])
  · intro r n i0 h
    simp only [h]
  · intro r n h
    simp only [h]
  · intro b _ hb
    have := hu _ hb
    rw [← this, Equiv.apply_symm_apply]

/-- The target of an update index: every coordinate's start plus window offset, when all lie inside the operand. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hb : ∀ a, 0 ≤ d.start j idx a + d.window j a ∧ d.start j idx a + d.window j a < s.size a := fun a => by
    rw [h a]; exact ⟨Int.natCast_nonneg _, by exact_mod_cast (i a).isLt⟩
  rw [dif_pos hb]
  refine congrArg some (funext fun a => Fin.ext ?_)
  show (d.start j idx a + d.window j a).toNat = (i a).val
  rw [h a]; exact Int.toNat_natCast _

/-- Conversely, the coordinates of the target. -/
theorem of_resultIdx?_eq_some (d : ScatterDims s si u) (j : u.Idx) (idx : IVec si w) (i : s.Idx)
    (h : d.resultIdx? j idx = some i) (a : Fin s.rank) : d.start j idx a + (d.window j a : Int) = ((i a).val : Int) := by
  unfold ScatterDims.resultIdx? at h
  split at h
  · rename_i hb
    have e := Option.some.inj h
    have := congrArg (fun k => (k a).val) e
    dsimp only at this
    rw [← this]
    exact (Int.toNat_of_nonneg (hb a).1).symm
  · exact absurd h (by simp)

end Cert.LibSetScatter
-- ==== Proof.RefLands.lean ====
/-
  Where each row of the reference's index array lands.

  The scatter adds, at each place `i` of an array of 4096 entries, the update of every row `j` of the index array whose
  word, read signed, is `i`. Row `b'·100000 + n` holds `voxel(b', n) + 64·b'` with the voxel below 64, so it lands on
  `64·b + f` exactly when `b' = b` and the voxel is `f`.
-/
import proofs.«151321_j58205396795680_2_alg».proof.Proof.RefBin
import proofs.«151321_j58205396795680_2_alg».proof.Proof.RefWords
import proofs.«151321_j58205396795680_2_alg».proof.Proof.LibSetScatter
import Idealize.ShloMosaic.Lib.IdealHost

noncomputable section

namespace Cert.HistRef

open Cert.ReferenceIdeal Cert.ReferenceIdeal.Gen Cert.ReferenceIdeal.Read Idealize.ShloMosaic Idealize.ShloMosaic.ValueIdx
open Cert.HistSpec

/-- The scatter's dimension numbers. -/
abbrev sd : ScatterDims S4096 S6400000x1 S6400000 := scatter_S4096_S6400000x1_S6400000_n_0_0_1

/-- The row of the index array that update `j` reads. -/
abbrev siRow (j : S6400000.Idx) : S6400000x1.Idx := ix2 (j 0) (0 : Fin 1)

/-- The operand's one axis is an inserted axis: no window offset. -/
theorem window_zero (j : S6400000.Idx) (a : Fin 1) : sd.window j a = 0 := by
  obtain rfl : a = 0 := Subsingleton.elim _ _
  unfold ScatterDims.window
  rw [dif_neg (by decide)]

/-- The start on the operand's one axis is the index word of the update's row, read signed. -/
theorem start_eq {w : Nat} (j : S6400000.Idx) (idx : IVec S6400000x1 w) (a : Fin 1) : sd.start j idx a = (idx (siRow j)).toInt := by
  obtain rfl : a = 0 := Subsingleton.elim _ _
  unfold ScatterDims.start
  rw [dif_pos (show (0 : Fin 1) ∈ sd.scatterDimsToOperandDims from List.mem_singleton.mpr rfl)]
  have hsi : sd.siIdx j ⟨List.idxOf (0 : Fin 1) sd.scatterDimsToOperandDims,
      List.idxOf_lt_length_iff.2 (List.mem_singleton.mpr rfl)⟩ = siRow j := by
    funext b; refine Fin.ext ?_
    match b with
    | ⟨0, _⟩ => rfl
    | ⟨1, _⟩ => rfl
  rw [hsi]

/-- Update `j` lands on `i` exactly when its row's index word, read signed, is `i`'s coordinate. -/
theorem resultIdx?_iff {w : Nat} (j : S6400000.Idx) (idx : IVec S6400000x1 w) (i : S4096.Idx) :
    sd.resultIdx? j idx = some i ↔ (idx (siRow j)).toInt = ((i 0).val : Int) := by
  constructor
  · intro h
    have := Cert.LibSetScatter.of_resultIdx?_eq_some sd j idx i h 0
    rw [start_eq, window_zero] at this
    simpa using this
  · intro h
    refine Cert.LibSetScatter.resultIdx?_eq_some sd j idx i fun a => ?_
    obtain rfl : a = 0 := Subsingleton.elim _ _
    rw [start_eq, window_zero]
    simpa using h

/-- The rows of the index array as (batch, point) pairs: row `b·100000 + n`. -/
def rowEquiv : Fin 64 × Fin 100000 ≃ S6400000.Idx where
  toFun p := ix1 (⟨p.1.val * 100000 + p.2.val, by have := p.1.isLt; have := p.2.isLt; omega⟩ : Fin 6400000)
  invFun j := (⟨(j 0).val / 100000, by have h : (j 0).val < 6400000 := (j 0).isLt; omega⟩,
    ⟨(j 0).val % 100000, Nat.mod_lt _ (by omega)⟩)
  left_inv p := by
    have h1 := p.1.isLt; have h2 := p.2.isLt
    refine Prod.ext (Fin.ext ?_) (Fin.ext ?_)
    · show (p.1.val * 100000 + p.2.val) / 100000 = p.1.val; omega
    · show (p.1.val * 100000 + p.2.val) % 100000 = p.2.val; omega
  right_inv j := by
    funext a
    obtain rfl : a = 0 := Subsingleton.elim _ _
    refine Fin.ext ?_
    show (j 0).val / 100000 * 100000 + (j 0).val % 100000 = (j 0).val
    omega

/-- The index word in row `b'·100000 + n`: the point's voxel plus `64·b'`. -/
theorem idxword (x : SX.Idx → EReal) (b' : Fin 64) (n : Fin 100000) :
    val_main_v37 (F := Ideal) x (siRow (rowEquiv (b', n))) = IntOp.addi (bin x b' n) (IntOp.muli (BitVec.ofNat 32 b'.val) 64#32) := by
  have h1 := b'.isLt; have h2 := n.isLt
  have e : idx_main_v35 (idx_main_v37 (siRow (rowEquiv (b', n)))) = ix2 b' n := by
    funext a; apply Fin.ext
    fin_cases a
    · show (b'.val * 100000 + n.val) / 100000 = b'.val; omega
    · show (b'.val * 100000 + n.val) % 100000 = n.val; omega
  rw [val_main_v37_apply, val_main_v35_apply, e, v33_eq]

/-- Row `(b', n)` lands on `64·b + f` exactly when it is a row of batch `b` and its point's voxel is `f`. -/
theorem lands_iff (x : SX.Idx → EReal) (b' : Fin 64) (n : Fin 100000) (b f : Fin 64) :
    sd.resultIdx? (rowEquiv (b', n)) (val_main_v37 (F := Ideal) x) = some (idx_main_v39 (ix2 b f))
      ↔ b' = b ∧ bin x b' n = BitVec.ofNat 32 f.val := by
  rw [resultIdx?_iff, idxword, word_toInt _ (bin_lt x b' n), eq_ofNat_iff]
  show (((bin x b' n).toNat + b'.val * 64 : Nat) : Int) = ((b.val * 64 + f.val : Nat) : Int) ↔ _
  rw [Nat.cast_inj]
  have := bin_lt x b' n; have := f.isLt
  constructor
  · intro h; exact ⟨Fin.ext (by omega), by omega⟩
  · rintro ⟨rfl, h⟩; omega

end Cert.HistRef

end
-- ==== Proof.RefScatter.lean ====
/-
  The reference's scatter of ones is the specification's count.

  The accumulating scatter is, at each place, the operand's entry plus the sum of the updates landing there; into zeros, of
  updates that are all one, it is the number of rows landing there. Splitting the rows into batches and points, only
  the rows of batch `b` can land on `64·b + f`, and those that do are the points of the batch whose voxel is `f`.
-/
import proofs.«151321_j58205396795680_2_alg».proof.Proof.RefLands

noncomputable section

namespace Cert.HistRef

open Cert.ReferenceIdeal Cert.ReferenceIdeal.Gen Cert.ReferenceIdeal.Read Idealize.ShloMosaic Idealize.ShloMosaic.ValueIdx
open Cert.HistSpec

/-- The accumulating scatter at a place, as a sum over every update of the update where it lands there and zero elsewhere. -/
theorem hostScatterAdd_apply {s si su : Shape} (d : ScatterDims s si su) {w : Nat} (x0 : s.Idx → EReal) (idx : IVec si w)
    (upd : su.Idx → EReal) (i : s.Idx) :
    Ideal.hostScatterAdd d x0 idx upd i = x0 i + ∑ j, if d.resultIdx? j idx = some i then upd j else 0 := by
  unfold Ideal.hostScatterAdd
  rw [Finset.sum_filter]

/-- The same for a scatter into zeros of updates that are all one. -/
theorem hostScatterAdd_ones {s si su : Shape} (d : ScatterDims s si su) {w : Nat} (x0 : s.Idx → EReal) (idx : IVec si w)
    (upd : su.Idx → EReal) (h0 : ∀ i, x0 i = 0) (h1 : ∀ j, upd j = 1) (i : s.Idx) :
    Ideal.hostScatterAdd d x0 idx upd i = ∑ j, if d.resultIdx? j idx = some i then (1 : EReal) else 0 := by
  rw [hostScatterAdd_apply, h0, zero_add]
  exact Finset.sum_congr rfl fun j _ => by rw [h1]

/-- The accumulating scatter into zeros of updates that are all one: at a place, the number of updates landing there. -/
theorem scatterAdd_ones {s si su : Shape} (d : ScatterDims s si su) {w : Nat} (x0 : FVec Ideal s .f32) (idx : IVec si w)
    (upd : FVec Ideal su .f32) (h0 : ∀ i, x0 i = 0) (h1 : ∀ j, upd j = 1) (i : s.Idx) :
    Host.scatterAdd d x0 idx upd i = ∑ j, if d.resultIdx? j idx = some i then (1 : EReal) else 0 :=
  hostScatterAdd_ones d x0 idx upd h0 h1 i

theorem v36_zero (i : S4096.Idx) : val_main_v36 (F := Ideal) i = 0 := by
  rw [val_main_v36_apply, val_main_cst_8_apply, Ideal.ofBits_def, Ideal.ofBits_zero_f32]

theorem v34_one (j : S6400000.Idx) : val_main_v34 (F := Ideal) j = 1 := by
  rw [val_main_v34_apply, val_main_cst_7_apply, Ideal.ofBits_def, Ideal.ofBits_one_f32]

/-- The scattered array at a place: the sum over the rows of one for each row that lands there. -/
theorem v38_apply (x : SX.Idx → EReal) (i : S4096.Idx) :
    val_main_v38 (F := Ideal) x i
      = ∑ j : S6400000.Idx, if sd.resultIdx? j (val_main_v37 (F := Ideal) x) = some i then (1 : EReal) else 0 := by
  unfold val_main_v38
  exact scatterAdd_ones sd _ _ _ v36_zero v34_one i

/-- A sum over the rows is the double sum over batches and points. -/
theorem sum_rows (g : S6400000.Idx → EReal) : ∑ j, g j = ∑ b' : Fin 64, ∑ n : Fin 100000, g (rowEquiv (b', n)) := by
  rw [← Equiv.sum_comp rowEquiv g, Fintype.sum_prod_type]

/-- The reference's scattered array at `64·b + f` is the number of batch `b`'s points in voxel `f`. -/
theorem v38_eq (x : SX.Idx → EReal) (b f : Fin 64) :
    val_main_v38 (F := Ideal) x (idx_main_v39 (ix2 b f)) = HistSpec.count x b f := by
  rw [v38_apply, sum_rows, Finset.sum_eq_single b]
  · unfold HistSpec.count
    refine Finset.sum_congr rfl fun n _ => ?_
    rw [hit_eq]
    refine if_congr ?_ rfl rfl
    rw [lands_iff]
    exact ⟨fun h => h.2, fun h => ⟨rfl, h⟩⟩
  · intro b' _ hne
    refine Finset.sum_eq_zero fun n _ => if_neg ?_
    rw [lands_iff]
    exact fun h => hne h.1
  · intro h; exact absurd (Finset.mem_univ b) h

end Cert.HistRef

end
-- ==== Proof.RefSpec.lean ====
/-
  The reference program computes the specification.

  With the scattered array read as the specification's counts, what is left is read off one operation at a time: the
  reshape to `[64, 64]`, the division by the word of 100000, the product with the transposed weights as a sum over the
  64 voxels, and the bias added along the batch axis.
-/
import proofs.«151321_j58205396795680_2_alg».proof.Proof.RefScatter

noncomputable section

namespace Cert.HistRef

open Cert.ReferenceIdeal Cert.ReferenceIdeal.Gen Cert.ReferenceIdeal.Read Idealize.ShloMosaic Idealize.ShloMosaic.ValueIdx
open Cert.HistSpec

/-- The fraction of batch `b`'s points in voxel `f`, as the reference computes it. -/
theorem v41_eq (x : SX.Idx → EReal) (b f : Fin 64) :
    val_main_v41 (F := Ideal) x (ix2 b f) = Ideal.div (HistSpec.count x b f) (Ideal.ofBits .f32 0x47C35000#32) := by
  rw [val_main_v41_apply, val_main_v39_apply, val_main_v40_apply, val_main_cst_9_apply, v38_eq]
  rfl

theorem ref_eq (x : SX.Idx → EReal) (W : SW.Idx → EReal) (bias : SB.Idx → EReal) :
    val_main_v46 (F := Ideal) x W bias = G x W bias := by
  funext i
  obtain ⟨b, k, rfl⟩ : ∃ b k, i = ix2 b k := ⟨i 0, i 1, eq_ix2 i⟩
  rw [val_main_v46_apply, val_main_v43_apply, val_main_v45_apply, val_main_v44_apply]
  show (∑ f : Fin 64, val_main_v41 (F := Ideal) x (lidx_main_v43 (ix2 b k) f) * val_main_v42 (F := Ideal) W (ridx_main_v43 (ix2 b k) f))
      + bias (idx_main_v44 (idx_main_v45 (ix2 b k)))
    = (∑ f : Fin 64, Ideal.div (HistSpec.count x b f) (Ideal.ofBits .f32 0x47C35000#32) * W (ix2 k f)) + bias (ix1 k)
  have eb : idx_main_v44 (idx_main_v45 (ix2 b k)) = ix1 k := by
    funext a; apply Fin.ext
    fin_cases a; rfl
  rw [eb]
  refine congrArg (fun t => t + bias (ix1 k)) ?_
  refine Finset.sum_congr rfl fun f _ => ?_
  have e1 : lidx_main_v43 (ix2 b k) f = ix2 b f := by
    funext a; apply Fin.ext
    fin_cases a <;> rfl
  have e2 : idx_main_v42 (ridx_main_v43 (ix2 b k) f) = ix2 k f := by
    funext a; apply Fin.ext
    fin_cases a <;> rfl
  rw [e1, v41_eq, val_main_v42_apply, e2]

end Cert.HistRef

end
-- ==== Proof.Final.lean ====
/-
  The five claims.

  Both kernel programs (the printed one at the word level and its idealization) are one text run at two instances: the
  frame of each is the run of its two regions and the reshape, in which no item writes an argument. The reference is a
  host program; its frame is its run with the result dropped. The ideal pass rewrote nothing, so the idealization claim
  has no conjunct. At the extended reals the kernel's result array ends at the common specification of the launch's
  arguments (the two regions' value, read off the run), and so does the reference's (its run's term, read one operation
  at a time); from memories agreeing on the arguments the two results are equal.
-/
import proofs.«151321_j58205396795680_2_alg».proof.Defs
import proofs.«151321_j58205396795680_2_alg».proof.Proof.Gen.Kernel
import proofs.«151321_j58205396795680_2_alg».proof.Proof.Gen.KernelIdeal
import proofs.«151321_j58205396795680_2_alg».proof.Proof.Gen.ReferenceIdeal
import proofs.«151321_j58205396795680_2_alg».proof.Proof.Gen.ReferenceIdeal.Run
import proofs.«151321_j58205396795680_2_alg».proof.Proof.Gen.ReferenceIdeal.Read
import proofs.«151321_j58205396795680_2_alg».proof.Proof.Gen.Pre_finite_inputs
import proofs.«151321_j58205396795680_2_alg».proof.Proof.Run
import proofs.«151321_j58205396795680_2_alg».proof.Proof.BRun
import proofs.«151321_j58205396795680_2_alg».proof.Proof.KerVal1
import proofs.«151321_j58205396795680_2_alg».proof.Proof.RefSpec

noncomputable section

namespace Cert.Proof.HistClaims

open Idealize.ShloMosaic Idealize.ShloMosaic.TcCoe Idealize.SL.Sem

theorem frame_k : Cert.frame_Kernel := fun m ρ _ => Cert.Kernel.Hist.frame (F := Bits) m ρ
theorem frame_ki : Cert.frame_KernelIdeal := fun m ρ _ => Cert.KernelIdeal.Hist.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to state. -/
theorem preserves : Cert.preserves_Kernel_KernelIdeal := trivial

/-- From memories agreeing on the arguments both idealized programs end with the specification of those arguments in
    their result arrays. -/
theorem algebraic : Cert.algebraic_KernelIdeal_ReferenceIdeal := by
  intro m ρ m' ρ' _ hagree
  refine ⟨fun c => Cert.HistSpec.G (Cert.KernelIdeal.HistVal.X m c) (Cert.KernelIdeal.HistVal.Wt m c) (Cert.KernelIdeal.HistVal.Bs m c), ?_, ?_⟩
  · refine (θ_run Cert.KernelIdeal.defs _ _).mono (fun r h c => ⟨?_, ?_, ?_, ?_⟩) (Cert.KernelIdeal.Hist.run_all (F := Ideal) m ρ)
    · exact (h c _ (Cert.KernelIdeal.Hist.mem_uc Cert.KernelIdeal.main_v2 (by decide))).trans (Cert.KernelIdeal.HistVal.kernel_value m ρ c)
    · exact (h c _ (Cert.KernelIdeal.Hist.mem_uc Cert.KernelIdeal.main_arg0 (by decide))).trans (Cert.KernelIdeal.Hist.W3_main_arg0 m ρ c)
    · exact (h c _ (Cert.KernelIdeal.Hist.mem_uc Cert.KernelIdeal.main_arg1 (by decide))).trans (Cert.KernelIdeal.Hist.W3_main_arg1 m ρ c)
    · exact (h c _ (Cert.KernelIdeal.Hist.mem_uc Cert.KernelIdeal.main_arg2 (by decide))).trans (Cert.KernelIdeal.Hist.W3_main_arg2 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, (hagree c).1, (hagree c).2.1, (hagree c).2.2]
    exact Cert.HistRef.ref_eq _ _ _

end Cert.Proof.HistClaims

end
-- ==== Proof.lean ====
/-
  The certificate of a two-kernel voxel histogram with a linear classifier against its jnp reference.

  For each of 64 batches of 100000 points in three coordinates the programs find the range of every coordinate, put each
  point in one of 4×4×4 voxels by its position in the ranges, count the points per voxel, divide the counts by 100000 and
  apply a linear map with bias. The kernel does this in two passes over the points, in chunks: the first keeps a running
  minimum and maximum per batch, the second a running count per voxel in a scratch row; the reference takes whole-batch
  minima and maxima and counts by a scatter-add of ones. At the extended reals a running minimum over chunks is the
  minimum, a sum over chunks is the sum, and a scatter-add of ones is a count, so the two results are one function of the
  arguments (Proof/Spec.lean). The claims are assembled in Proof/Final.lean.
-/
import proofs.«151321_j58205396795680_2_alg».proof.Defs
import proofs.«151321_j58205396795680_2_alg».proof.Proof.Gen.Kernel
import proofs.«151321_j58205396795680_2_alg».proof.Proof.Gen.KernelIdeal
import proofs.«151321_j58205396795680_2_alg».proof.Proof.Gen.ReferenceIdeal
import proofs.«151321_j58205396795680_2_alg».proof.Proof.Gen.Pre_finite_inputs
import proofs.«151321_j58205396795680_2_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.HistClaims.frame_k, Cert.Proof.HistClaims.frame_ki, Cert.Proof.HistClaims.frame_ri,
  Cert.Proof.HistClaims.preserves, Cert.Proof.HistClaims.algebraic⟩

end Cert.Proof

end
